-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2x128 : Shape := ⟨3, ![256, 2, 128]⟩
abbrev S256 : Shape := ⟨1, ![256]⟩
abbrev S4096x128 : Shape := ⟨2, ![4096, 128]⟩
abbrev S4096 : Shape := ⟨1, ![4096]⟩
abbrev S_ : Shape := ⟨0, ![]⟩

class Facts : Prop where
  bcast_S_S256x2x128 : S_.BroadcastsInDim S256x2x128 (![] : Fin 0 → Fin S256x2x128.rank)
  reducesTo_S256x2x128_S_d0_1_2 : S256x2x128.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S256x2x128 .f32) (main_arg1 : IVec S256 32) (main_arg2 : FVec F S4096x128 .f32) (main_arg3 : FVec F S4096x128 .f32) (main_arg4 : IVec S4096 32) : IVec S_ 1 :=
  let main_v0 : FVec F S256x2x128 .f32 := Host.absf main_arg0
  let main_cst : FVec F S_ .f32 := constant S_ .f32 0x7F800000#32
  let main_v1 : FVec F S256x2x128 .f32 := broadcastInDim S256x2x128 ![] bcast_S_S256x2x128 main_cst
  let main_v2 : IVec S256x2x128 1 := cmpf .olt main_v0 main_v1
  let main_c : IVec S_ 1 := constantI S_ 1 1#1
  let main_v3 : IVec S_ 1 := (fun x v => Host.reduce IntOp.andi x v reducesTo_S256x2x128_S_d0_1_2 h_S_) main_v2 main_c
  let main_v4 : FVec F S4096x128 .f32 := Host.absf main_arg2
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x128 .f32 := Host.absf main_arg3
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S256x2x128 : Shape := ⟨3, ![256, 2, 128]⟩
abbrev S256 : Shape := ⟨1, ![256]⟩
abbrev S4096x128 : Shape := ⟨2, ![4096, 128]⟩
abbrev S4096 : Shape := ⟨1, ![4096]⟩
abbrev S512x128 : Shape := ⟨2, ![512, 128]⟩
abbrev S256x128 : Shape := ⟨2, ![256, 128]⟩
abbrev S_ : Shape := ⟨0, ![]⟩
abbrev S1 : Shape := ⟨1, ![1]⟩
abbrev S4352 : Shape := ⟨1, ![4352]⟩
abbrev S8704 : Shape := ⟨1, ![8704]⟩
abbrev S4352x128 : Shape := ⟨2, ![4352, 128]⟩
abbrev S8704x128 : Shape := ⟨2, ![8704, 128]⟩
abbrev S4352x1 : Shape := ⟨2, ![4352, 1]⟩
abbrev S1x8704 : Shape := ⟨2, ![1, 8704]⟩
abbrev S256x1 : Shape := ⟨2, ![256, 1]⟩
abbrev S2176x128 : Shape := ⟨2, ![2176, 128]⟩
abbrev S1x2176 : Shape := ⟨2, ![1, 2176]⟩
abbrev S128x2176 : Shape := ⟨2, ![128, 2176]⟩
abbrev S256x2176 : Shape := ⟨2, ![256, 2176]⟩

abbrev nBuf : Space → Nat
  | .hbm => 41
  | .vmem => 15
  | .smem => 0
  | _ => 0

abbrev bufTy : (tb : Table) → Fin (tcTables nBuf tb) → BufTy
  | .hbm, ⟨0, _⟩ => ⟨S256x2x128, .f32⟩
  | .hbm, ⟨1, _⟩ => ⟨S256, .i32⟩
  | .hbm, ⟨2, _⟩ => ⟨S4096x128, .f32⟩
  | .hbm, ⟨3, _⟩ => ⟨S4096x128, .f32⟩
  | .hbm, ⟨4, _⟩ => ⟨S4096, .i32⟩
  | .hbm, ⟨5, _⟩ => ⟨S512x128, .f32⟩
  | .hbm, ⟨6, _⟩ => ⟨S256x128, .f32⟩
  | .hbm, ⟨7, _⟩ => ⟨S256x128, .f32⟩
  | .hbm, ⟨8, _⟩ => ⟨S_, .i32⟩
  | .hbm, ⟨9, _⟩ => ⟨S1, .i32⟩
  | .hbm, ⟨10, _⟩ => ⟨S4096x128, .f32⟩
  | .hbm, ⟨11, _⟩ => ⟨S_, .i32⟩
  | .hbm, ⟨12, _⟩ => ⟨S1, .i32⟩
  | .hbm, ⟨13, _⟩ => ⟨S4096x128, .f32⟩
  | .hbm, ⟨14, _⟩ => ⟨S_, .i32⟩
  | .hbm, ⟨15, _⟩ => ⟨S1, .i32⟩
  | .hbm, ⟨16, _⟩ => ⟨S4096, .i32⟩
  | .hbm, ⟨17, _⟩ => ⟨S4352, .i32⟩
  | .hbm, ⟨18, _⟩ => ⟨S8704, .i32⟩
  | .hbm, ⟨19, _⟩ => ⟨S4096x128, .bf16⟩
  | .hbm, ⟨20, _⟩ => ⟨S4096x128, .bf16⟩
  | .hbm, ⟨21, _⟩ => ⟨S256x128, .bf16⟩
  | .hbm, ⟨22, _⟩ => ⟨S256x128, .bf16⟩
  | .hbm, ⟨23, _⟩ => ⟨S4352x128, .bf16⟩
  | .hbm, ⟨24, _⟩ => ⟨S4352x128, .bf16⟩
  | .hbm, ⟨25, _⟩ => ⟨S8704x128, .bf16⟩
  | .hbm, ⟨26, _⟩ => ⟨S4352x128, .bf16⟩
  | .hbm, ⟨27, _⟩ => ⟨S4352, .i32⟩
  | .hbm, ⟨28, _⟩ => ⟨S4352x1, .i32⟩
  | .hbm, ⟨29, _⟩ => ⟨S1x8704, .i32⟩
  | .hbm, ⟨30, _⟩ => ⟨S4352x1, .f32⟩
  | .hbm, ⟨31, _⟩ => ⟨S4352x1, .f32⟩
  | .hbm, ⟨32, _⟩ => ⟨S4352x1, .f32⟩
  | .hbm, ⟨33, _⟩ => ⟨S4352, .f32⟩
  | .hbm, ⟨34, _⟩ => ⟨S_, .f32⟩
  | .hbm, ⟨35, _⟩ => ⟨S4352, .f32⟩
  | .hbm, ⟨36, _⟩ => ⟨S4352, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S8704x128, .bf16⟩
  | .local _ .vmem, ⟨3, _⟩ => ⟨S256x1, .i32⟩
  | .local _ .vmem, ⟨4, _⟩ => ⟨S256x1, .i32⟩
  | .local _ .vmem, ⟨5, _⟩ => ⟨S1x8704, .i32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | _, _ => ⟨S256x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![17, 2, 4], ![false, false, false]⟩

def k0_mult1 (i : grid0.Coords) : BitVec 32 :=
  let arg2 : BitVec 32 := BitVec.ofNat 32 (i 2).val
  let c2176_i32 : BitVec 32 := 2176#32
  let v10 : BitVec 32 := Scalar.muli arg2 c2176_i32
  v10
def k0_off1 (i : grid0.Coords) : Fin 2 → Nat :=
  let arg2 : BitVec 32 := BitVec.ofNat 32 (i 2).val
  let c2176_i32 : BitVec 32 := 2176#32
  let v10 : BitVec 32 := Scalar.muli arg2 c2176_i32
  let v11 : BitVec 32 := v10
  let v14 : Index := Scalar.indexCast v11
  let c0_5 : Index := 0#32
  ![v14.toNat, 0]
def k0_off2 (i : grid0.Coords) : Fin 2 → Nat :=
  let c0_6 : Index := 0#32
  let arg2 : BitVec 32 := BitVec.ofNat 32 (i 2).val
  let c2176_i32 : BitVec 32 := 2176#32
  let v10 : BitVec 32 := Scalar.muli arg2 c2176_i32
  let v11 : BitVec 32 := v10
  let v17 : Index := Scalar.indexCast v11
  ![0, v17.toNat]
def k0_cond6 (i : grid0.Coords) : BitVec 1 :=
  let arg1 : BitVec 32 := BitVec.ofNat 32 (i 1).val
  let c1_i32_16 : BitVec 32 := 1#32
  let v40 : BitVec 1 := Scalar.cmpi .eq arg1 c1_i32_16
  let arg2 : BitVec 32 := BitVec.ofNat 32 (i 2).val
  let c3_i32_17 : BitVec 32 := 3#32
  let v41 : BitVec 1 := Scalar.cmpi .eq arg2 c3_i32_17
  let v42 : BitVec 1 := Scalar.andi v40 v41
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8704x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x8704 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  shapeCasts_S256x2x128_S512x128 : S256x2x128.ShapeCasts S512x128
  slices_S512x128_S256x128_0_0 : S512x128.Slices ![0, 0] S256x128
  slices_S512x128_S256x128_256_0 : S512x128.Slices ![256, 0] S256x128
  bcast_S_S1 : S_.BroadcastsInDim S1 (![] : Fin 0 → Fin S1.rank)
  concatenates_S4096_S256_S4352_d0 : Shape.Concatenates [S4096, S256] S4352 0
  concatenates_S4352_S4352_S8704_d0 : Shape.Concatenates [S4352, S4352] S8704 0
  bitsLt_bf16_f32 : FTy.bits .bf16 < FTy.bits .f32
  concatenates_S4096x128_S256x128_S4352x128_d0 : Shape.Concatenates [S4096x128, S256x128] S4352x128 0
  concatenates_S4352x128_S4352x128_S8704x128_d0 : Shape.Concatenates [S4352x128, S4352x128] S8704x128 0
  slices_S8704x128_S4352x128_3841_0 : S8704x128.Slices ![3841, 0] S4352x128
  slices_S8704_S4352_3841 : S8704.Slices ![3841] S4352
  shapeCasts_S4352_S4352x1 : S4352.ShapeCasts S4352x1
  shapeCasts_S8704_S1x8704 : S8704.ShapeCasts S1x8704
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  h_S2176x128 : 0 < S2176x128.numel
  shapeCasts_S2176x128_S2176x128 : S2176x128.ShapeCasts S2176x128
  h_S1x2176 : 0 < S1x2176.numel
  shapeCasts_S1x2176_S1x2176 : S1x2176.ShapeCasts S1x2176
  transposes_S2176x128_p1_0_S128x2176 : S2176x128.Transposes [1, 0] S128x2176
  broadcasts_S256x1_S256x2176 : S256x1.Broadcasts S256x2176
  broadcasts_S1x2176_S256x2176 : S1x2176.Broadcasts S256x2176
  reduces_S256x2176_S256 : S256x2176.Reduces [1] S256
  shapeCasts_S256_S256x1 : S256.ShapeCasts S256x1
  iota_S256x2176_d0_w32 : S256x2176.Iotas .tc 32 [0]
  iota_S256x2176_d1_w32 : S256x2176.Iotas .tc 32 [1]
  shapeCasts_S4352x1_S4352 : S4352x1.ShapeCasts S4352
  bcast_S_S4352 : S_.BroadcastsInDim S4352 (![] : Fin 0 → Fin S4352.rank)
  reducesTo_S4352_S_d0 : S4352.ReducesTo [0] S_
  h_S_ : 0 < S_.numel
  scatter_S4096x128_S1_S256x128_01_n_0_0_wf : ScatterDims.WF S4096x128 S1 S256x128 [0, 1] [] [0] 0
  scatter_S4096_S1_S256_0_n_0_0_wf : ScatterDims.WF S4096 S1 S256 [0] [] [0] 0
  dot_S256x128_S128x2176_S256x2176_1_0_0_1_n_n_wf : DotDims.WF S256x128 S128x2176 S256x2176 [1] [0] [0] [1] [] []
  hrank0 : 0 < grid0.rank
  k0_mult1_dvd : ∀ i : grid0.Coords, 128 ∣ (k0_mult1 i).toNat
  k0_off1_inb : ∀ i : grid0.Coords, ∀ a, (k0_off1 i) a + S2176x128.size a ≤ S8704x128.size a
  k0_off2_inb : ∀ i : grid0.Coords, ∀ a, (k0_off2 i) a + S1x2176.size a ≤ S1x8704.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4352x128.size a
  hwx0_0 : ∀ i : grid0.Coords, EltTy.bits .bf16 = 32 ∨ (Rect.block (s := S4352x128) S256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8704x128.size a ≤ S8704x128.size a
  hwx0_1 : ∀ i : grid0.Coords, EltTy.bits .bf16 = 32 ∨ (Rect.block (s := S8704x128) S8704x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4352x1.size a
  hwx0_2 : ∀ i : grid0.Coords, EltTy.bits .i32 = 32 ∨ (Rect.block (s := S4352x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8704.size a ≤ S1x8704.size a
  hwx0_3 : ∀ i : grid0.Coords, EltTy.bits .i32 = 32 ∨ (Rect.block (s := S1x8704) S1x8704.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4352x1.size a
  hwx0_4 : ∀ i : grid0.Coords, EltTy.bits .f32 = 32 ∨ (Rect.block (s := S4352x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4352x1.size a
  hwx0_5 : ∀ i : grid0.Coords, EltTy.bits .f32 = 32 ∨ (Rect.block (s := S4352x1) S256x1.size (cc0_transform_5 i) (hinb0_5 i)).WholeWords (EltTy.packing .f32)

variable [Facts₀]

def scatter_S4096x128_S1_S256x128_01_n_0_0 : ScatterDims S4096x128 S1 S256x128 where
  updateWindowDims := [0, 1]
  insertedWindowDims := []
  scatterDimsToOperandDims := [0]
  indexVectorDim := 0
  wf := scatter_S4096x128_S1_S256x128_01_n_0_0_wf
def scatter_S4096_S1_S256_0_n_0_0 : ScatterDims S4096 S1 S256 where
  updateWindowDims := [0]
  insertedWindowDims := []
  scatterDimsToOperandDims := [0]
  indexVectorDim := 0
  wf := scatter_S4096_S1_S256_0_n_0_0_wf
def dot_S256x128_S128x2176_S256x2176_1_0_0_1_n_n : DotDims S256x128 S128x2176 S256x2176 where
  lhsContracting := [1]
  rhsContracting := [0]
  lhsNonContracting := [0]
  rhsNonContracting := [1]
  lhsBatch := []
  rhsBatch := []
  wf := dot_S256x128_S128x2176_S256x2176_1_0_0_1_n_n_wf

abbrev win0_0 : Pipeline.Window sig grid0 :=
  Pipeline.Window.ofSpec (Memref.whole main_v18) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8704x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x8704.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond6 i == 1#1) | 5 => fun i => !(k0_cond6 i == 1#1) | ⟨_ + 6, h⟩ => absurd h (Nat.not_lt.2 (Nat.le_add_left _ _))

class Facts : Prop extends Facts₀ where

variable [Facts]
-- ==== ReferenceIdeal.lean ====
abbrev S256x2x128 : Shape := ⟨3, ![256, 2, 128]⟩
abbrev S256 : Shape := ⟨1, ![256]⟩
abbrev S4096x128 : Shape := ⟨2, ![4096, 128]⟩
abbrev S4096 : Shape := ⟨1, ![4096]⟩
abbrev S512x128 : Shape := ⟨2, ![512, 128]⟩
abbrev S256x128 : Shape := ⟨2, ![256, 128]⟩
abbrev S_ : Shape := ⟨0, ![]⟩
abbrev S1 : Shape := ⟨1, ![1]⟩
abbrev S4352 : Shape := ⟨1, ![4352]⟩
abbrev S4352x1 : Shape := ⟨2, ![4352, 1]⟩
abbrev S1x4352 : Shape := ⟨2, ![1, 4352]⟩
abbrev S4352x4352 : Shape := ⟨2, ![4352, 4352]⟩
abbrev S4352x128 : Shape := ⟨2, ![4352, 128]⟩
abbrev S8704x128 : Shape := ⟨2, ![8704, 128]⟩
abbrev S128x8704 : Shape := ⟨2, ![128, 8704]⟩
abbrev S8704x8704 : Shape := ⟨2, ![8704, 8704]⟩
abbrev S8704 : Shape := ⟨1, ![8704]⟩
abbrev S8704x1 : Shape := ⟨2, ![8704, 1]⟩
abbrev S1x4352x1x4352 : Shape := ⟨4, ![1, 4352, 1, 4352]⟩
abbrev S2x4352x2x4352 : Shape := ⟨4, ![2, 4352, 2, 4352]⟩
abbrev S3840 : Shape := ⟨1, ![3840]⟩
abbrev S512 : Shape := ⟨1, ![512]⟩
abbrev S2x4352 : Shape := ⟨2, ![2, 4352]⟩
abbrev S8704x2 : Shape := ⟨2, ![8704, 2]⟩
abbrev S4863x8704 : Shape := ⟨2, ![4863, 8704]⟩
abbrev S4352x8704 : Shape := ⟨2, ![4352, 8704]⟩
abbrev S0x8704 : Shape := ⟨2, ![0, 8704]⟩

abbrev nBuf : Space → Nat
  | .hbm => 110
  | .vmem => 0
  | .smem => 0
  | _ => 0

abbrev bufTy : (tb : Table) → Fin (tcTables nBuf tb) → BufTy
  | .hbm, ⟨0, _⟩ => ⟨S256x2x128, .f32⟩
  | .hbm, ⟨1, _⟩ => ⟨S256, .i32⟩
  | .hbm, ⟨2, _⟩ => ⟨S4096x128, .f32⟩
  | .hbm, ⟨3, _⟩ => ⟨S4096x128, .f32⟩
  | .hbm, ⟨4, _⟩ => ⟨S4096, .i32⟩
  | .hbm, ⟨5, _⟩ => ⟨S512x128, .f32⟩
  | .hbm, ⟨6, _⟩ => ⟨S256x128, .f32⟩
  | .hbm, ⟨7, _⟩ => ⟨S256x128, .f32⟩
  | .hbm, ⟨8, _⟩ => ⟨S_, .i32⟩
  | .hbm, ⟨9, _⟩ => ⟨S1, .i32⟩
  | .hbm, ⟨10, _⟩ => ⟨S4096x128, .f32⟩
  | .hbm, ⟨11, _⟩ => ⟨S_, .i32⟩
  | .hbm, ⟨12, _⟩ => ⟨S1, .i32⟩
  | .hbm, ⟨13, _⟩ => ⟨S4096x128, .f32⟩
  | .hbm, ⟨14, _⟩ => ⟨S_, .i32⟩
  | .hbm, ⟨15, _⟩ => ⟨S1, .i32⟩
  | .hbm, ⟨16, _⟩ => ⟨S4096, .i32⟩
  | .hbm, ⟨17, _⟩ => ⟨S4352, .i32⟩
  | .hbm, ⟨18, _⟩ => ⟨S4352x1, .i32⟩
  | .hbm, ⟨19, _⟩ => ⟨S1x4352, .i32⟩
  | .hbm, ⟨20, _⟩ => ⟨S4352x4352, .i32⟩
  | .hbm, ⟨21, _⟩ => ⟨S4352x4352, .i32⟩
  | .hbm, ⟨22, _⟩ => ⟨S4352x4352, .i1⟩
  | .hbm, ⟨23, _⟩ => ⟨S4352x4352, .f32⟩
  | .hbm, ⟨24, _⟩ => ⟨S4352x128, .f32⟩
  | .hbm, ⟨25, _⟩ => ⟨S4352x128, .f32⟩
  | .hbm, ⟨26, _⟩ => ⟨S8704x128, .f32⟩
  | .hbm, ⟨27, _⟩ => ⟨S128x8704, .f32⟩
  | .hbm, ⟨28, _⟩ => ⟨S8704x8704, .f32⟩
  | .hbm, ⟨29, _⟩ => ⟨S_, .f32⟩
  | .hbm, ⟨30, _⟩ => ⟨S8704x8704, .f32⟩
  | .hbm, ⟨31, _⟩ => ⟨S8704x8704, .f32⟩
  | .hbm, ⟨32, _⟩ => ⟨S_, .f32⟩
  | .hbm, ⟨33, _⟩ => ⟨S8704, .f32⟩
  | .hbm, ⟨34, _⟩ => ⟨S8704x1, .f32⟩
  | .hbm, ⟨35, _⟩ => ⟨S8704x8704, .f32⟩
  | .hbm, ⟨36, _⟩ => ⟨S8704x8704, .f32⟩
  | .hbm, ⟨37, _⟩ => ⟨S1x4352x1x4352, .f32⟩
  | .hbm, ⟨38, _⟩ => ⟨S2x4352x2x4352, .f32⟩
  | .hbm, ⟨39, _⟩ => ⟨S8704x8704, .f32⟩
  | .hbm, ⟨40, _⟩ => ⟨S_, .f32⟩
  | .hbm, ⟨41, _⟩ => ⟨S3840, .f32⟩
  | .hbm, ⟨42, _⟩ => ⟨S_, .f32⟩
  | .hbm, ⟨43, _⟩ => ⟨S512, .f32⟩
  | .hbm, ⟨44, _⟩ => ⟨S4352, .f32⟩
  | .hbm, ⟨45, _⟩ => ⟨S1x4352, .f32⟩
  | .hbm, ⟨46, _⟩ => ⟨S2x4352, .f32⟩
  | .hbm, ⟨47, _⟩ => ⟨S8704, .f32⟩
  | .hbm, ⟨48, _⟩ => ⟨S8704, .i32⟩
  | .hbm, ⟨49, _⟩ => ⟨S_, .f32⟩
  | .hbm, ⟨50, _⟩ => ⟨S8704x8704, .f32⟩
  | .hbm, ⟨51, _⟩ => ⟨S_, .i32⟩
  | .hbm, ⟨52, _⟩ => ⟨S8704, .i32⟩
  | .hbm, ⟨53, _⟩ => ⟨S8704, .i1⟩
  | .hbm, ⟨54, _⟩ => ⟨S_, .i32⟩
  | .hbm, ⟨55, _⟩ => ⟨S8704, .i32⟩
  | .hbm, ⟨56, _⟩ => ⟨S8704, .i32⟩
  | .hbm, ⟨57, _⟩ => ⟨S8704, .i32⟩
  | .hbm, ⟨58, _⟩ => ⟨S_, .i32⟩
  | .hbm, ⟨59, _⟩ => ⟨S8704, .i32⟩
  | .hbm, ⟨60, _⟩ => ⟨S8704, .i1⟩
  | .hbm, ⟨61, _⟩ => ⟨S_, .i32⟩
  | .hbm, ⟨62, _⟩ => ⟨S8704, .i32⟩
  | .hbm, ⟨63, _⟩ => ⟨S8704, .i32⟩
  | .hbm, ⟨64, _⟩ => ⟨S8704, .i32⟩
  | .hbm, ⟨65, _⟩ => ⟨S8704x1, .i32⟩
  | .hbm, ⟨66, _⟩ => ⟨S8704x1, .i32⟩
  | .hbm, ⟨67, _⟩ => ⟨S8704x2, .i32⟩
  | .hbm, ⟨68, _⟩ => ⟨S8704x8704, .f32⟩
  | .hbm, ⟨69, _⟩ => ⟨S_, .f32⟩
  | .hbm, ⟨70, _⟩ => ⟨S8704x8704, .f32⟩
  | .hbm, ⟨71, _⟩ => ⟨S8704x8704, .f32⟩
  | .hbm, ⟨72, _⟩ => ⟨S8704x8704, .f32⟩
  | .hbm, ⟨73, _⟩ => ⟨S8704x8704, .f32⟩
  | .hbm, ⟨74, _⟩ => ⟨S4863x8704, .f32⟩
  | .hbm, ⟨75, _⟩ => ⟨S4352x8704, .f32⟩
  | .hbm, ⟨76, _⟩ => ⟨S0x8704, .f32⟩
  | .hbm, ⟨77, _⟩ => ⟨S4352x8704, .f32⟩
  | .hbm, ⟨78, _⟩ => ⟨S4863x8704, .f32⟩
  | .hbm, ⟨79, _⟩ => ⟨S4352x8704, .f32⟩
  | .hbm, ⟨80, _⟩ => ⟨S0x8704, .f32⟩
  | .hbm, ⟨81, _⟩ => ⟨S4352x8704, .f32⟩
  | .hbm, ⟨82, _⟩ => ⟨S4863x8704, .f32⟩
  | .hbm, ⟨83, _⟩ => ⟨S4352x8704, .f32⟩
  | .hbm, ⟨84, _⟩ => ⟨S0x8704, .f32⟩
  | .hbm, ⟨85, _⟩ => ⟨S4352x8704, .f32⟩
  | .hbm, ⟨86, _⟩ => ⟨S4352x8704, .f32⟩
  | .hbm, ⟨87, _⟩ => ⟨S4352x8704, .f32⟩
  | .hbm, ⟨88, _⟩ => ⟨S_, .f32⟩
  | .hbm, ⟨89, _⟩ => ⟨S4352, .f32⟩
  | .hbm, ⟨90, _⟩ => ⟨S4352x1, .f32⟩
  | .hbm, ⟨91, _⟩ => ⟨S4352x1, .f32⟩
  | .hbm, ⟨92, _⟩ => ⟨S4352x8704, .f32⟩
  | .hbm, ⟨93, _⟩ => ⟨S4352x8704, .f32⟩
  | .hbm, ⟨94, _⟩ => ⟨S_, .f32⟩
  | .hbm, ⟨95, _⟩ => ⟨S4352x8704, .f32⟩
  | .hbm, ⟨96, _⟩ => ⟨S4352x8704, .f32⟩
  | .hbm, ⟨97, _⟩ => ⟨S4352x8704, .f32⟩
  | .hbm, ⟨98, _⟩ => ⟨S_, .f32⟩
  | .hbm, ⟨99, _⟩ => ⟨S4352, .f32⟩
  | .hbm, ⟨100, _⟩ => ⟨S_, .f32⟩
  | .hbm, ⟨101, _⟩ => ⟨S4352, .f32⟩
  | .hbm, ⟨102, _⟩ => ⟨S4352, .f32⟩
  | .hbm, ⟨103, _⟩ => ⟨S_, .f32⟩
  | .hbm, ⟨104, _⟩ => ⟨S4352, .f32⟩
  | .hbm, ⟨105, _⟩ => ⟨S4352, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S256x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_v43 : Ref sig .tc := ⟨.hbm, 59, rfl⟩
abbrev main_v44 : Ref sig .tc := ⟨.hbm, 60, rfl⟩
abbrev main_c_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_11 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_13 : Ref sig .tc := ⟨.hbm, 98, rfl⟩
abbrev main_v78 : Ref sig .tc := ⟨.hbm, 99, rfl⟩
abbrev main_cst_14 : Ref sig .tc := ⟨.hbm, 100, rfl⟩
abbrev main_v79 : Ref sig .tc := ⟨.hbm, 101, rfl⟩
abbrev main_v80 : Ref sig .tc := ⟨.hbm, 102, rfl⟩
abbrev main_cst_15 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_cst_17 : Ref sig .tc := ⟨.hbm, 108, rfl⟩
abbrev main_v84 : Ref sig .tc := ⟨.hbm, 109, rfl⟩

abbrev nD : Nat := 1
abbrev τ : Topo := Topo.v7x

variable {F : FTy → Type} [FloatOps F]

class Facts₀ : Prop where
  shapeCasts_S256x2x128_S512x128 : S256x2x128.ShapeCasts S512x128
  slices_S512x128_S256x128_0_0 : S512x128.Slices ![0, 0] S256x128
  slices_S512x128_S256x128_256_0 : S512x128.Slices ![256, 0] S256x128
  bcast_S_S1 : S_.BroadcastsInDim S1 (![] : Fin 0 → Fin S1.rank)
  concatenates_S4096_S256_S4352_d0 : Shape.Concatenates [S4096, S256] S4352 0
  bcast_S4352_S4352x1_0 : S4352.BroadcastsInDim S4352x1 (![0] : Fin 1 → Fin S4352x1.rank)
  bcast_S4352_S1x4352_1 : S4352.BroadcastsInDim S1x4352 (![1] : Fin 1 → Fin S1x4352.rank)
  bcast_S4352x1_S4352x4352_0_1 : S4352x1.BroadcastsInDim S4352x4352 (![0, 1] : Fin 2 → Fin S4352x4352.rank)
  bcast_S1x4352_S4352x4352_0_1 : S1x4352.BroadcastsInDim S4352x4352 (![0, 1] : Fin 2 → Fin S4352x4352.rank)
  concatenates_S4096x128_S256x128_S4352x128_d0 : Shape.Concatenates [S4096x128, S256x128] S4352x128 0
  concatenates_S4352x128_S4352x128_S8704x128_d0 : Shape.Concatenates [S4352x128, S4352x128] S8704x128 0
  transposes_S8704x128_S128x8704_1_0 : S8704x128.Transposes [1, 0] S128x8704
  bcast_S_S8704x8704 : S_.BroadcastsInDim S8704x8704 (![] : Fin 0 → Fin S8704x8704.rank)
  reducesTo_S8704x8704_S8704_d1 : S8704x8704.ReducesTo [1] S8704
  h_S_ : 0 < S_.numel
  bcast_S8704_S8704x1_0 : S8704.BroadcastsInDim S8704x1 (![0] : Fin 1 → Fin S8704x1.rank)
  bcast_S8704x1_S8704x8704_0_1 : S8704x1.BroadcastsInDim S8704x8704 (![0, 1] : Fin 2 → Fin S8704x8704.rank)
  shapeCasts_S4352x4352_S1x4352x1x4352 : S4352x4352.ShapeCasts S1x4352x1x4352
  bcast_S1x4352x1x4352_S2x4352x2x4352_0_1_2_3 : S1x4352x1x4352.BroadcastsInDim S2x4352x2x4352 (![0, 1, 2, 3] : Fin 4 → Fin S2x4352x2x4352.rank)
  shapeCasts_S2x4352x2x4352_S8704x8704 : S2x4352x2x4352.ShapeCasts S8704x8704
  bcast_S_S3840 : S_.BroadcastsInDim S3840 (![] : Fin 0 → Fin S3840.rank)
  bcast_S_S512 : S_.BroadcastsInDim S512 (![] : Fin 0 → Fin S512.rank)
  concatenates_S3840_S512_S4352_d0 : Shape.Concatenates [S3840, S512] S4352 0
  shapeCasts_S4352_S1x4352 : S4352.ShapeCasts S1x4352
  bcast_S1x4352_S2x4352_0_1 : S1x4352.BroadcastsInDim S2x4352 (![0, 1] : Fin 2 → Fin S2x4352.rank)
  shapeCasts_S2x4352_S8704 : S2x4352.ShapeCasts S8704
  bcast_S_S8704 : S_.BroadcastsInDim S8704 (![] : Fin 0 → Fin S8704.rank)
  concatenates_S8704x1_S8704x1_S8704x2_d1 : Shape.Concatenates [S8704x1, S8704x1] S8704x2 1
  slices_S8704x8704_S4863x8704_3841_0 : S8704x8704.Slices ![3841, 0] S4863x8704
  slices_S4863x8704_S4352x8704_0_0 : S4863x8704.Slices ![0, 0] S4352x8704
  slices_S4863x8704_S0x8704_4863_0 : S4863x8704.Slices ![4863, 0] S0x8704
  concatenates_S4352x8704_S0x8704_S4352x8704_d0 : Shape.Concatenates [S4352x8704, S0x8704] S4352x8704 0
  reducesTo_S4352x8704_S4352_d1 : S4352x8704.ReducesTo [1] S4352
  bcast_S4352x1_S4352x8704_0_1 : S4352x1.BroadcastsInDim S4352x8704 (![0, 1] : Fin 2 → Fin S4352x8704.rank)
  bcast_S_S4352x8704 : S_.BroadcastsInDim S4352x8704 (![] : Fin 0 → Fin S4352x8704.rank)
  bcast_S_S4352 : S_.BroadcastsInDim S4352 (![] : Fin 0 → Fin S4352.rank)
  reducesTo_S4352_S_d0 : S4352.ReducesTo [0] S_
  scatter_S4096x128_S1_S256x128_01_n_0_0_wf : ScatterDims.WF S4096x128 S1 S256x128 [0, 1] [] [0] 0
  scatter_S4096_S1_S256_0_n_0_0_wf : ScatterDims.WF S4096 S1 S256 [0] [] [0] 0
  dot_S8704x128_S128x8704_S8704x8704_1_0_0_1_n_n_wf : DotDims.WF S8704x128 S128x8704 S8704x8704 [1] [0] [0] [1] [] []
  scatter_S8704x8704_S8704x2_S8704_n_01_01_1_wf : ScatterDims.WF S8704x8704 S8704x2 S8704 [] [0, 1] [0, 1] 1

variable [Facts₀]

def scatter_S4096x128_S1_S256x128_01_n_0_0 : ScatterDims S4096x128 S1 S256x128 where
  updateWindowDims := [0, 1]
  insertedWindowDims := []
  scatterDimsToOperandDims := [0]
  indexVectorDim := 0
  wf := scatter_S4096x128_S1_S256x128_01_n_0_0_wf
def scatter_S4096_S1_S256_0_n_0_0 : ScatterDims S4096 S1 S256 where
  updateWindowDims := [0]
  insertedWindowDims := []
  scatterDimsToOperandDims := [0]
  indexVectorDim := 0
  wf := scatter_S4096_S1_S256_0_n_0_0_wf
def dot_S8704x128_S128x8704_S8704x8704_1_0_0_1_n_n : DotDims S8704x128 S128x8704 S8704x8704 where
  lhsContracting := [1]
  rhsContracting := [0]
  lhsNonContracting := [0]
  rhsNonContracting := [1]
  lhsBatch := []
  rhsBatch := []
  wf := dot_S8704x128_S128x8704_S8704x8704_1_0_0_1_n_n_wf
def scatter_S8704x8704_S8704x2_S8704_n_01_01_1 : ScatterDims S8704x8704 S8704x2 S8704 where
  updateWindowDims := []
  insertedWindowDims := [0, 1]
  scatterDimsToOperandDims := [0, 1]
  indexVectorDim := 1
  wf := scatter_S8704x8704_S8704x2_S8704_n_01_01_1_wf

class Facts : Prop extends Facts₀ where

variable [Facts]
-- ==== Proof.K.Cond.lean ====
/-
  The kernel body branches six times on the grid point (i, phase, j) of the 17 × 2 × 4 grid. Each branch condition is a
  scalar chain over the coordinates; here each is written as the body computes it and decided over the 136 points:
  with t the point's number, phase = (t / 4) % 2 and j = t % 4, so every condition is a statement about t % 8.
    1. phase = 0 ∧ j = 0  (reset the running maximum and the running sum)          t % 8 = 0
    2. phase = 1 ∧ j = 0  (reset the two accumulators of the second sweep)         t % 8 = 4
    3. phase = 0          (one step of the running maximum / rescaled sum)         t % 8 < 4
    4. phase = 0 ∧ j = 3  (take the logarithm of the finished sum)                 t % 8 = 3
    5. phase = 1          (accumulate the masked log-probabilities and the mask)   4 ≤ t % 8
    6. phase = 1 ∧ j = 3  (store the two accumulators into the output blocks)      t % 8 = 7
-/
import proofs.«108923_j8598524526701_2_alg».proof.Proof.Gen.Kernel.Launch
import proofs.«108923_j8598524526701_2_alg».proof.Proof.Gen.Kernel.Points

noncomputable section

namespace Cert.Kernel.Body

open Cert.Kernel Cert.Kernel.Gen
open Idealize.ShloMosaic

abbrev cond1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
abbrev cond2 (i : grid0.Coords) : Prop :=
  Scalar.cmpi .ne (Scalar.extui (Scalar.andi (Scalar.cmpi .eq (BitVec.ofNat 32 (i 1).val) 1#32) (Scalar.cmpi .eq (BitVec.ofNat 32 (i 2).val) 0#32))) 0#32 = 1#1
abbrev cond3 (i : grid0.Coords) : Prop :=
  Scalar.cmpi .ne (Scalar.extui (Scalar.cmpi .eq (BitVec.ofNat 32 (i 1).val) 0#32)) 0#32 = 1#1
abbrev cond4 (i : grid0.Coords) : Prop :=
  Scalar.cmpi .ne (Scalar.extui (Scalar.andi (Scalar.cmpi .eq (BitVec.ofNat 32 (i 1).val) 0#32) (Scalar.cmpi .eq (BitVec.ofNat 32 (i 2).val) 3#32))) 0#32 = 1#1
abbrev cond5 (i : grid0.Coords) : Prop :=
  Scalar.cmpi .ne (Scalar.extui (Scalar.cmpi .eq (BitVec.ofNat 32 (i 1).val) 1#32)) 0#32 = 1#1
abbrev cond6 (i : grid0.Coords) : Prop := k0_cond6 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 = 4 :=
  (by decide +kernel : ∀ t : Fin grid0.N, cond2 (grid0.coords t) ↔ t.val % 8 = 4)
theorem hcond3 : ∀ t : Fin cfg0.N, cond3 (grid0.coords t) ↔ t.val % 8 < 4 :=
  (by decide +kernel : ∀ t : Fin grid0.N, cond3 (grid0.coords t) ↔ t.val % 8 < 4)
theorem hcond4 : ∀ t : Fin cfg0.N, cond4 (grid0.coords t) ↔ t.val % 8 = 3 :=
  (by decide +kernel : ∀ t : Fin grid0.N, cond4 (grid0.coords t) ↔ t.val % 8 = 3)
theorem hcond5 : ∀ t : Fin cfg0.N, cond5 (grid0.coords t) ↔ 4 ≤ t.val % 8 :=
  (by decide +kernel : ∀ t : Fin grid0.N, cond5 (grid0.coords t) ↔ 4 ≤ t.val % 8)
theorem hcond6 : ∀ t : Fin cfg0.N, cond6 (grid0.coords t) ↔ t.val % 8 = 7 :=
  (by decide +kernel : ∀ t : Fin grid0.N, cond6 (grid0.coords t) ↔ t.val % 8 = 7)

/-- The two output windows are idle exactly where the last branch is not taken, and written back exactly where it is. -/
theorem idle4 : ∀ t : Fin cfg0.N, cfg0.idle 4 (grid0.coords t) = true ↔ ¬ t.val % 8 = 7 :=
  (by decide +kernel : ∀ t : Fin grid0.N, cfg0.idle 4 (grid0.coords t) = true ↔ ¬ t.val % 8 = 7)
theorem idle5 : ∀ t : Fin cfg0.N, cfg0.idle 5 (grid0.coords t) = true ↔ ¬ t.val % 8 = 7 :=
  (by decide +kernel : ∀ t : Fin grid0.N, cfg0.idle 5 (grid0.coords t) = true ↔ ¬ t.val % 8 = 7)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

end Cert.Kernel.Body

end
-- ==== Proof.K.RunA.lean ====
/-
  One grid point of the kernel body, in one of its six control cases, run symbolically on whole staging and scratch buffers.
-/
import proofs.«108923_j8598524526701_2_alg».proof.Proof.K.Cond
import proofs.«108923_j8598524526701_2_alg».proof.Proof.Gen.Kernel.Skeleton
import proofs.«108923_j8598524526701_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in the case: phase 0, first column tile: the running maximum and the running sum are reset, then stepped. A buffer the case stores into ends with the listed pieces written (last store first); a buffer it only reads is handed back at the contents it was given; a buffer whose contents the case neither needs nor sets is taken and handed back at whatever it holds. -/
noncomputable def runA (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
     :
    Σ' (L9 : List (View.Piece (Elt F) S256x1 .f32)), { L10 : List (View.Piece (Elt F) S256x1 .f32) //
      ∀ (xi7 xi8 : Vec F S256x1 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare xi7
            ∗ owns (c : Thread nD τ) arg8 fullShare xi8
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ d, owns (c : Thread nD τ) arg11 fullShare d)
                ∗ (∃ d, owns (c : Thread nD τ) arg12 fullShare d)
                ∗ (∃ d, owns (c : Thread nD τ) arg13 fullShare d)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, fun xi7 xi8 E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]
    · iexists (arg11.view.read (Elt F) f11); iexists f11; isplitr; · ipureintro; rfl
      iexact H11
    isplitl [H12]
    · iexists (arg12.view.read (Elt F) f12); iexists f12; isplitr; · ipureintro; rfl
      iexact H12
    iexists (arg13.view.read (Elt F) f13); iexists f13; isplitr; · ipureintro; rfl
    iexact H13

end Cert.Kernel.Body

end
-- ==== Proof.K.RunB.lean ====
/-
  One grid point of the kernel body, in one of its six control cases, run symbolically on whole staging and scratch buffers.
-/
import proofs.«108923_j8598524526701_2_alg».proof.Proof.K.Cond
import proofs.«108923_j8598524526701_2_alg».proof.Proof.Gen.Kernel.Skeleton
import proofs.«108923_j8598524526701_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in the case: phase 0, a middle column tile: the running maximum and the running sum are stepped. A buffer the case stores into ends with the listed pieces written (last store first); a buffer it only reads is handed back at the contents it was given; a buffer whose contents the case neither needs nor sets is taken and handed back at whatever it holds. -/
noncomputable def runB (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) :
    Σ' (L9 : List (View.Piece (Elt F) S256x1 .f32)), { L10 : List (View.Piece (Elt F) S256x1 .f32) //
      ∀ (xi7 xi8 : Vec F S256x1 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare xi7
            ∗ owns (c : Thread nD τ) arg8 fullShare xi8
            ∗ owns (c : Thread nD τ) arg9 fullShare s9
            ∗ owns (c : Thread nD τ) arg10 fullShare s10
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ d, owns (c : Thread nD τ) arg11 fullShare d)
                ∗ (∃ d, owns (c : Thread nD τ) arg12 fullShare d)
                ∗ (∃ d, owns (c : Thread nD τ) arg13 fullShare d)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, fun xi7 xi8 E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]
    · iexists (arg11.view.read (Elt F) f11); iexists f11; isplitr; · ipureintro; rfl
      iexact H11
    isplitl [H12]
    · iexists (arg12.view.read (Elt F) f12); iexists f12; isplitr; · ipureintro; rfl
      iexact H12
    iexists (arg13.view.read (Elt F) f13); iexists f13; isplitr; · ipureintro; rfl
    iexact H13

end Cert.Kernel.Body

end
-- ==== Proof.K.RunC.lean ====
/-
  One grid point of the kernel body, in one of its six control cases, run symbolically on whole staging and scratch buffers.
-/
import proofs.«108923_j8598524526701_2_alg».proof.Proof.K.Cond
import proofs.«108923_j8598524526701_2_alg».proof.Proof.Gen.Kernel.Skeleton
import proofs.«108923_j8598524526701_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in the case: phase 0, last column tile: the running maximum and sum are stepped and the logarithm of the finished sum is taken. A buffer the case stores into ends with the listed pieces written (last store first); a buffer it only reads is handed back at the contents it was given; a buffer whose contents the case neither needs nor sets is taken and handed back at whatever it holds. -/
noncomputable def runC (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) :
    Σ' (L9 : List (View.Piece (Elt F) S256x1 .f32)) (L10 : List (View.Piece (Elt F) S256x1 .f32)), { L11 : List (View.Piece (Elt F) S256x1 .f32) //
      ∀ (xi7 xi8 : Vec F S256x1 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare xi7
            ∗ owns (c : Thread nD τ) arg8 fullShare xi8
            ∗ owns (c : Thread nD τ) arg9 fullShare s9
            ∗ owns (c : Thread nD τ) arg10 fullShare s10
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ d, owns (c : Thread nD τ) arg12 fullShare d)
                ∗ (∃ d, owns (c : Thread nD τ) arg13 fullShare d)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, ?_, fun xi7 xi8 E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]
    · iexists (arg12.view.read (Elt F) f12); iexists f12; isplitr; · ipureintro; rfl
      iexact H12
    iexists (arg13.view.read (Elt F) f13); iexists f13; isplitr; · ipureintro; rfl
    iexact H13

end Cert.Kernel.Body

end
-- ==== Proof.K.RunD.lean ====
/-
  One grid point of the kernel body, in one of its six control cases, run symbolically on whole staging and scratch buffers.
-/
import proofs.«108923_j8598524526701_2_alg».proof.Proof.K.Cond
import proofs.«108923_j8598524526701_2_alg».proof.Proof.Gen.Kernel.Skeleton
import proofs.«108923_j8598524526701_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in the case: phase 1, first column tile: the two accumulators are reset, then stepped. A buffer the case stores into ends with the listed pieces written (last store first); a buffer it only reads is handed back at the contents it was given; a buffer whose contents the case neither needs nor sets is taken and handed back at whatever it holds. -/
noncomputable def runD (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 : Vec F S256x1 .f32) :
    Σ' (L12 : List (View.Piece (Elt F) S256x1 .f32)), { L13 : List (View.Piece (Elt F) S256x1 .f32) //
      ∀ (xi7 xi8 : Vec F S256x1 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare xi7
            ∗ owns (c : Thread nD τ) arg8 fullShare xi8
            ∗ owns (c : Thread nD τ) arg9 fullShare s9
            ∗ (∃ d, owns (c : Thread nD τ) arg10 fullShare d)
            ∗ owns (c : Thread nD τ) arg11 fullShare s11
            ∗ (∃ d, owns (c : Thread nD τ) arg12 fullShare d)
            ∗ (∃ d, owns (c : Thread nD τ) arg13 fullShare d)
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare xi7
                ∗ owns (c : Thread nD τ) arg8 fullShare xi8
                ∗ owns (c : Thread nD τ) arg9 fullShare s9
                ∗ (∃ d, owns (c : Thread nD τ) arg10 fullShare d)
                ∗ owns (c : Thread nD τ) arg11 fullShare s11
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, fun xi7 xi8 E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists (arg10.view.read (Elt F) f10); iexists f10; isplitr; · ipureintro; rfl
      iexact H10
    isplitl [H11]
    · iexists _; isplitr; · ipureintro; exact harg11.read_unread _
      iexact H11
    isplitl [H12]; · iexists _; iexact H12
    iexists _; iexact H13

end Cert.Kernel.Body

end
-- ==== Proof.K.RunE.lean ====
/-
  One grid point of the kernel body, in one of its six control cases, run symbolically on whole staging and scratch buffers.
-/
import proofs.«108923_j8598524526701_2_alg».proof.Proof.K.Cond
import proofs.«108923_j8598524526701_2_alg».proof.Proof.Gen.Kernel.Skeleton
import proofs.«108923_j8598524526701_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in the case: phase 1, a middle column tile: the two accumulators are stepped. A buffer the case stores into ends with the listed pieces written (last store first); a buffer it only reads is handed back at the contents it was given; a buffer whose contents the case neither needs nor sets is taken and handed back at whatever it holds. -/
noncomputable def runE (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 s12 s13 : Vec F S256x1 .f32) :
    Σ' (L12 : List (View.Piece (Elt F) S256x1 .f32)), { L13 : List (View.Piece (Elt F) S256x1 .f32) //
      ∀ (xi7 xi8 : Vec F S256x1 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare xi7
            ∗ owns (c : Thread nD τ) arg8 fullShare xi8
            ∗ owns (c : Thread nD τ) arg9 fullShare s9
            ∗ (∃ d, owns (c : Thread nD τ) arg10 fullShare d)
            ∗ owns (c : Thread nD τ) arg11 fullShare s11
            ∗ owns (c : Thread nD τ) arg12 fullShare s12
            ∗ owns (c : Thread nD τ) arg13 fullShare s13
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare xi7
                ∗ owns (c : Thread nD τ) arg8 fullShare xi8
                ∗ owns (c : Thread nD τ) arg9 fullShare s9
                ∗ (∃ d, owns (c : Thread nD τ) arg10 fullShare d)
                ∗ owns (c : Thread nD τ) arg11 fullShare s11
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, fun xi7 xi8 E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists (arg10.view.read (Elt F) f10); iexists f10; isplitr; · ipureintro; rfl
      iexact H10
    isplitl [H11]
    · iexists _; isplitr; · ipureintro; exact harg11.read_unread _
      iexact H11
    isplitl [H12]; · iexists _; iexact H12
    iexists _; iexact H13

end Cert.Kernel.Body

end
-- ==== Proof.K.RunF.lean ====
/-
  One grid point of the kernel body, in one of its six control cases, run symbolically on whole staging and scratch buffers.
-/
import proofs.«108923_j8598524526701_2_alg».proof.Proof.K.Cond
import proofs.«108923_j8598524526701_2_alg».proof.Proof.Gen.Kernel.Skeleton
import proofs.«108923_j8598524526701_2_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in the case: phase 1, last column tile: the two accumulators are stepped and stored into the two output blocks. A buffer the case stores into ends with the listed pieces written (last store first); a buffer it only reads is handed back at the contents it was given; a buffer whose contents the case neither needs nor sets is taken and handed back at whatever it holds. -/
noncomputable def runF (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) :
    Σ' (L12 : List (View.Piece (Elt F) S256x1 .f32)) (L13 : List (View.Piece (Elt F) S256x1 .f32)) (L7 : List (View.Piece (Elt F) S256x1 .f32)), { L8 : List (View.Piece (Elt F) S256x1 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ (∃ d, owns (c : Thread nD τ) arg7 fullShare d)
            ∗ (∃ d, owns (c : Thread nD τ) arg8 fullShare d)
            ∗ owns (c : Thread nD τ) arg9 fullShare s9
            ∗ (∃ d, owns (c : Thread nD τ) arg10 fullShare d)
            ∗ owns (c : Thread nD τ) arg11 fullShare s11
            ∗ owns (c : Thread nD τ) arg12 fullShare s12
            ∗ owns (c : Thread nD τ) arg13 fullShare s13
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ owns (c : Thread nD τ) arg9 fullShare s9
                ∗ (∃ d, owns (c : Thread nD τ) arg10 fullShare d)
                ∗ owns (c : Thread nD τ) arg11 fullShare s11
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%f11, %hf11, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg9.eq_unread hf9; obtain rfl := harg11.eq_unread hf11; obtain rfl := harg12.eq_unread hf12; obtain rfl := harg13.eq_unread hf13
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; isplitr; · ipureintro; exact harg9.read_unread _
      iexact H9
    isplitl [H10]
    · iexists (arg10.view.read (Elt F) f10); iexists f10; isplitr; · ipureintro; rfl
      iexact H10
    isplitl [H11]
    · iexists _; isplitr; · ipureintro; exact harg11.read_unread _
      iexact H11
    isplitl [H12]; · iexists _; iexact H12
    iexists _; iexact H13

end Cert.Kernel.Body

end
-- ==== Proof.K.State.lean ====
/-
  What the five scratch buffers and the two output blocks hold after each grid point. The scratch buffers carry, across the
  eight points (2 phases × 4 column tiles) of one row block: the running row maximum, the running rescaled sum of the masked
  exponentials, that sum's logarithm, and the two accumulators of the second sweep (the masked clamped log-probabilities and
  the mask's row sums). Each control case of the body turns the state it finds into the next one; the state after point n is
  the fold of these steps over the points up to n. Which components are meaningful after a point depends only on its
  position in the row block: the maximum always, the running sum through the first sweep, the logarithm from the end of the
  first sweep on, the two accumulators through the second sweep.
-/
import proofs.«108923_j8598524526701_2_alg».proof.Proof.K.RunA
import proofs.«108923_j8598524526701_2_alg».proof.Proof.K.RunB
import proofs.«108923_j8598524526701_2_alg».proof.Proof.K.RunC
import proofs.«108923_j8598524526701_2_alg».proof.Proof.K.RunD
import proofs.«108923_j8598524526701_2_alg».proof.Proof.K.RunE
import proofs.«108923_j8598524526701_2_alg».proof.Proof.K.RunF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The windows' current staging memrefs at a point, as the pipeline passes them to the body, and the five scratch buffers. -/
abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8704x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8704 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1 .f32 := win0_5.stage (cfg0.slots t 5)
abbrev hs5 (t : Fin cfg0.N) : (ms5 t).IsWhole := hstage0_5 ((cfg0.slots t 5).cast nbuf0_5)
abbrev sc9 : Memref sig .tc .vmem S256x1 .f32 := Memref.whole cc0_scratch0
abbrev sc10 : Memref sig .tc .vmem S256x1 .f32 := Memref.whole cc0_scratch1
abbrev sc11 : Memref sig .tc .vmem S256x1 .f32 := Memref.whole cc0_scratch2
abbrev sc12 : Memref sig .tc .vmem S256x1 .f32 := Memref.whole cc0_scratch3
abbrev sc13 : Memref sig .tc .vmem S256x1 .f32 := Memref.whole cc0_scratch4

/-- The carried state: running maximum, running sum, its logarithm, the two accumulators, and the two output blocks. -/
structure St (F : FTy → Type) where
  m : Vec F S256x1 .f32
  l : Vec F S256x1 .f32
  ld : Vec F S256x1 .f32
  nu : Vec F S256x1 .f32
  ms : Vec F S256x1 .f32
  o4 : Vec F S256x1 .f32
  o5 : Vec F S256x1 .f32

/-- A state nothing is known of (before the first point). -/
def St.none : St F :=
  ⟨View.canon [], View.canon [], View.canon [], View.canon [], View.canon [], View.canon [], View.canon []⟩

/-- The body's run at point `t` in case A, on the point's memrefs and input blocks. -/
def rA (c : Dev nD) (t : Fin cfg0.N) (h : t.val % 8 = 0) :=
  runA (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    ((hcond1 t).mpr (by omega)) (fun hc => absurd ((hcond2 t).mp hc) (by omega)) ((hcond3 t).mpr (by omega)) (fun hc => absurd ((hcond4 t).mp hc) (by omega)) (fun hc => absurd ((hcond5 t).mp hc) (by omega)) (fun hc => absurd ((hcond6 t).mp hc) (by omega))
    (iblk m c 0 t) (iblk m c 1 t) (iblk m c 2 t) (iblk m c 3 t)

/-- Case A's step of the state: the buffers it stores into at what its stores leave. -/
def stepA (c : Dev nD) (t : Fin cfg0.N) (h : t.val % 8 = 0) (s : St F) : St F :=
  { s with m := View.canon (rA m c t h).1, l := View.canon (rA m c t h).2.1 }

/-- The body's run at point `t` in case B, on the point's memrefs and input blocks and the state found. -/
def rB (c : Dev nD) (t : Fin cfg0.N) (h : t.val % 8 = 1 ∨ t.val % 8 = 2) (s : St F) :=
  runB (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    (fun hc => absurd ((hcond1 t).mp hc) (by omega)) (fun hc => absurd ((hcond2 t).mp hc) (by omega)) ((hcond3 t).mpr (by omega)) (fun hc => absurd ((hcond4 t).mp hc) (by omega)) (fun hc => absurd ((hcond5 t).mp hc) (by omega)) (fun hc => absurd ((hcond6 t).mp hc) (by omega))
    (iblk m c 0 t) (iblk m c 1 t) (iblk m c 2 t) (iblk m c 3 t) s.m s.l

/-- Case B's step of the state: the buffers it stores into at what its stores leave. -/
def stepB (c : Dev nD) (t : Fin cfg0.N) (h : t.val % 8 = 1 ∨ t.val % 8 = 2) (s : St F) : St F :=
  { s with m := View.canon (rB m c t h s).1, l := View.canon (rB m c t h s).2.1 }

/-- The body's run at point `t` in case C, on the point's memrefs and input blocks and the state found. -/
def rC (c : Dev nD) (t : Fin cfg0.N) (h : t.val % 8 = 3) (s : St F) :=
  runC (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    (fun hc => absurd ((hcond1 t).mp hc) (by omega)) (fun hc => absurd ((hcond2 t).mp hc) (by omega)) ((hcond3 t).mpr (by omega)) ((hcond4 t).mpr (by omega)) (fun hc => absurd ((hcond5 t).mp hc) (by omega)) (fun hc => absurd ((hcond6 t).mp hc) (by omega))
    (iblk m c 0 t) (iblk m c 1 t) (iblk m c 2 t) (iblk m c 3 t) s.m s.l

/-- Case C's step of the state: the buffers it stores into at what its stores leave. -/
def stepC (c : Dev nD) (t : Fin cfg0.N) (h : t.val % 8 = 3) (s : St F) : St F :=
  { s with m := View.canon (rC m c t h s).1, l := View.canon (rC m c t h s).2.1, ld := View.canon (rC m c t h s).2.2.1 }

/-- The body's run at point `t` in case D, on the point's memrefs and input blocks and the state found. -/
def rD (c : Dev nD) (t : Fin cfg0.N) (h : t.val % 8 = 4) (s : St F) :=
  runD (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    (fun hc => absurd ((hcond1 t).mp hc) (by omega)) ((hcond2 t).mpr (by omega)) (fun hc => absurd ((hcond3 t).mp hc) (by omega)) (fun hc => absurd ((hcond4 t).mp hc) (by omega)) ((hcond5 t).mpr (by omega)) (fun hc => absurd ((hcond6 t).mp hc) (by omega))
    (iblk m c 0 t) (iblk m c 1 t) (iblk m c 2 t) (iblk m c 3 t) s.m s.ld

/-- Case D's step of the state: the buffers it stores into at what its stores leave. -/
def stepD (c : Dev nD) (t : Fin cfg0.N) (h : t.val % 8 = 4) (s : St F) : St F :=
  { s with nu := View.canon (rD m c t h s).1, ms := View.canon (rD m c t h s).2.1 }

/-- The body's run at point `t` in case E, on the point's memrefs and input blocks and the state found. -/
def rE (c : Dev nD) (t : Fin cfg0.N) (h : t.val % 8 = 5 ∨ t.val % 8 = 6) (s : St F) :=
  runE (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    (fun hc => absurd ((hcond1 t).mp hc) (by omega)) (fun hc => absurd ((hcond2 t).mp hc) (by omega)) (fun hc => absurd ((hcond3 t).mp hc) (by omega)) (fun hc => absurd ((hcond4 t).mp hc) (by omega)) ((hcond5 t).mpr (by omega)) (fun hc => absurd ((hcond6 t).mp hc) (by omega))
    (iblk m c 0 t) (iblk m c 1 t) (iblk m c 2 t) (iblk m c 3 t) s.m s.ld s.nu s.ms

/-- Case E's step of the state: the buffers it stores into at what its stores leave. -/
def stepE (c : Dev nD) (t : Fin cfg0.N) (h : t.val % 8 = 5 ∨ t.val % 8 = 6) (s : St F) : St F :=
  { s with nu := View.canon (rE m c t h s).1, ms := View.canon (rE m c t h s).2.1 }

/-- The body's run at point `t` in case F, on the point's memrefs and input blocks and the state found. -/
def rF (c : Dev nD) (t : Fin cfg0.N) (h : t.val % 8 = 7) (s : St F) :=
  runF (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    (fun hc => absurd ((hcond1 t).mp hc) (by omega)) (fun hc => absurd ((hcond2 t).mp hc) (by omega)) (fun hc => absurd ((hcond3 t).mp hc) (by omega)) (fun hc => absurd ((hcond4 t).mp hc) (by omega)) ((hcond5 t).mpr (by omega)) ((hcond6 t).mpr (by omega))
    (iblk m c 0 t) (iblk m c 1 t) (iblk m c 2 t) (iblk m c 3 t) s.m s.ld s.nu s.ms

/-- Case F's step of the state: the buffers it stores into at what its stores leave. -/
def stepF (c : Dev nD) (t : Fin cfg0.N) (h : t.val % 8 = 7) (s : St F) : St F :=
  { s with nu := View.canon (rF m c t h s).1, ms := View.canon (rF m c t h s).2.1, o4 := View.canon (rF m c t h s).2.2.1, o5 := View.canon (rF m c t h s).2.2.2.1 }

/-- One point's step: the case its position in the row block selects. -/
def stepAt (c : Dev nD) (t : Fin cfg0.N) (s : St F) : St F :=
  if h0 : t.val % 8 = 0 then stepA m c t h0 s
  else if h1 : t.val % 8 = 1 ∨ t.val % 8 = 2 then stepB m c t h1 s
  else if h3 : t.val % 8 = 3 then stepC m c t h3 s
  else if h4 : t.val % 8 = 4 then stepD m c t h4 s
  else if h5 : t.val % 8 = 5 ∨ t.val % 8 = 6 then stepE m c t h5 s
  else stepF m c t (by omega) s

/-- The state after point `n`. -/
def stateAt (c : Dev nD) : (n : ℕ) → n < cfg0.N → St F
  | 0, hn => stepAt m c ⟨0, hn⟩ St.none
  | n + 1, hn => stepAt m c ⟨n + 1, hn⟩ (stateAt c n (Nat.lt_of_succ_lt hn))

theorem stateAt_pos (c : Dev nD) (t : Fin cfg0.N) (ht : t.val ≠ 0) :
    stateAt m c t.val t.isLt = stepAt m c t (stateAt m c (t.val - 1) (Nat.lt_of_le_of_lt (Nat.sub_le _ _) t.isLt)) := by
  obtain ⟨n, hn⟩ := t
  cases n with
  | zero => exact absurd rfl ht
  | succ n => rfl

theorem stateAt_zero (c : Dev nD) (t : Fin cfg0.N) (ht : t.val = 0) :
    stateAt m c t.val t.isLt = stepAt m c t St.none := by
  obtain ⟨n, hn⟩ := t
  cases n with
  | zero => rfl
  | succ n => exact absurd ht (Nat.succ_ne_zero n)

theorem stepAt_A (c : Dev nD) (t : Fin cfg0.N) (h : t.val % 8 = 0) (s : St F) : stepAt m c t s = stepA m c t h s := by
  unfold stepAt
  rw [dif_pos h]
theorem stepAt_B (c : Dev nD) (t : Fin cfg0.N) (h : t.val % 8 = 1 ∨ t.val % 8 = 2) (s : St F) : stepAt m c t s = stepB m c t h s := by
  unfold stepAt
  rw [dif_neg (by omega), dif_pos h]
theorem stepAt_C (c : Dev nD) (t : Fin cfg0.N) (h : t.val % 8 = 3) (s : St F) : stepAt m c t s = stepC m c t h s := by
  unfold stepAt
  rw [dif_neg (by omega), dif_neg (by omega), dif_pos h]
theorem stepAt_D (c : Dev nD) (t : Fin cfg0.N) (h : t.val % 8 = 4) (s : St F) : stepAt m c t s = stepD m c t h s := by
  unfold stepAt
  rw [dif_neg (by omega), dif_neg (by omega), dif_neg (by omega), dif_pos h]
theorem stepAt_E (c : Dev nD) (t : Fin cfg0.N) (h : t.val % 8 = 5 ∨ t.val % 8 = 6) (s : St F) : stepAt m c t s = stepE m c t h s := by
  unfold stepAt
  rw [dif_neg (by omega), dif_neg (by omega), dif_neg (by omega), dif_neg (by omega), dif_pos h]
theorem stepAt_F (c : Dev nD) (t : Fin cfg0.N) (h : t.val % 8 = 7) (s : St F) : stepAt m c t s = stepF m c t h s := by
  unfold stepAt
  rw [dif_neg (by omega), dif_neg (by omega), dif_neg (by omega), dif_neg (by omega), dif_neg (by omega)]

end Cert.Kernel.Body

end
-- ==== Proof.K.Cover.lean ====
/-
  The stores of each control case cover the buffers they write: every buffer a case stores into is stored whole, so what the
  stores leave does not depend on what the buffer held before.
-/
import proofs.«108923_j8598524526701_2_alg».proof.Proof.K.RunA
import proofs.«108923_j8598524526701_2_alg».proof.Proof.K.RunB
import proofs.«108923_j8598524526701_2_alg».proof.Proof.K.RunC
import proofs.«108923_j8598524526701_2_alg».proof.Proof.K.RunD
import proofs.«108923_j8598524526701_2_alg».proof.Proof.K.RunE
import proofs.«108923_j8598524526701_2_alg».proof.Proof.K.RunF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem coverA9 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
     (y : S256x1.Idx) :
    ∃ p ∈ (runA (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6).1, y ∈ p.1.set :=
  View.cover_of_tiledL _ S256x1.size (by sl_kernel_rfl) y

theorem coverA10 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
     (y : S256x1.Idx) :
    ∃ p ∈ (runA (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6).2.1, y ∈ p.1.set :=
  View.cover_of_tiledL _ S256x1.size (by sl_kernel_rfl) y

theorem coverB9 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) (y : S256x1.Idx) :
    ∃ p ∈ (runB (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).1, y ∈ p.1.set :=
  View.cover_of_tiledL _ S256x1.size (by sl_kernel_rfl) y

theorem coverB10 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) (y : S256x1.Idx) :
    ∃ p ∈ (runB (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).2.1, y ∈ p.1.set :=
  View.cover_of_tiledL _ S256x1.size (by sl_kernel_rfl) y

theorem coverC9 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) (y : S256x1.Idx) :
    ∃ p ∈ (runC (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).1, y ∈ p.1.set :=
  View.cover_of_tiledL _ S256x1.size (by sl_kernel_rfl) y

theorem coverC10 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) (y : S256x1.Idx) :
    ∃ p ∈ (runC (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).2.1, y ∈ p.1.set :=
  View.cover_of_tiledL _ S256x1.size (by sl_kernel_rfl) y

theorem coverC11 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) (y : S256x1.Idx) :
    ∃ p ∈ (runC (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).2.2.1, y ∈ p.1.set :=
  View.cover_of_tiledL _ S256x1.size (by sl_kernel_rfl) y

theorem coverD12 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 : Vec F S256x1 .f32) (y : S256x1.Idx) :
    ∃ p ∈ (runD (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11).1, y ∈ p.1.set :=
  View.cover_of_tiledL _ S256x1.size (by sl_kernel_rfl) y

theorem coverD13 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 : Vec F S256x1 .f32) (y : S256x1.Idx) :
    ∃ p ∈ (runD (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11).2.1, y ∈ p.1.set :=
  View.cover_of_tiledL _ S256x1.size (by sl_kernel_rfl) y

theorem coverE12 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runE (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).1, y ∈ p.1.set :=
  View.cover_of_tiledL _ S256x1.size (by sl_kernel_rfl) y

theorem coverE13 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runE (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.1, y ∈ p.1.set :=
  View.cover_of_tiledL _ S256x1.size (by sl_kernel_rfl) y

theorem coverF12 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).1, y ∈ p.1.set :=
  View.cover_of_tiledL _ S256x1.size (by sl_kernel_rfl) y

theorem coverF13 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.1, y ∈ p.1.set :=
  View.cover_of_tiledL _ S256x1.size (by sl_kernel_rfl) y

theorem coverF7 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.2.1, y ∈ p.1.set :=
  View.cover_of_tiledL _ S256x1.size (by sl_kernel_rfl) y

theorem coverF8 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.2.2.1, y ∈ p.1.set :=
  View.cover_of_tiledL _ S256x1.size (by sl_kernel_rfl) y

end Cert.Kernel.Body

end
-- ==== Proof.K.Frame.lean ====
/-
  The frame of the program from the six symbolic runs of its body: the region's invariant between grid points (which scratch
  buffers are held at named contents — the state of State.lean — and which at anything), the proof data of the pipeline, the
  body obligation at a generic point by cases on the point's position in its row block, and the run of @main.
-/
import proofs.«108923_j8598524526701_2_alg».proof.Proof.K.State
import proofs.«108923_j8598524526701_2_alg».proof.Proof.K.Cover

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer held at named contents when `b`, at anything otherwise. -/
def kn (c : Dev nD) (b : Prop) [Decidable b] (mr : Memref sig .tc .vmem S256x1 .f32) (v : Vec F S256x1 .f32) : sProp 𝕄 :=
  if b then owns (c : Thread nD τ) mr fullShare v else iprop((∃ d, owns (c : Thread nD τ) mr fullShare d))

theorem kn_pos (c : Dev nD) {b : Prop} [Decidable b] (h : b) (mr : Memref sig .tc .vmem S256x1 .f32) (v : Vec F S256x1 .f32) :
    kn c b mr v = owns (c : Thread nD τ) mr fullShare v := if_pos h
theorem kn_neg (c : Dev nD) {b : Prop} [Decidable b] (h : ¬b) (mr : Memref sig .tc .vmem S256x1 .f32) (v : Vec F S256x1 .f32) :
    kn c b mr v = iprop((∃ d, owns (c : Thread nD τ) mr fullShare d)) := if_neg h
theorem kn_weak (c : Dev nD) (b : Prop) [Decidable b] (mr : Memref sig .tc .vmem S256x1 .f32) (v : Vec F S256x1 .f32) :
    kn c b mr v ⊢ iprop((∃ d, owns (c : Thread nD τ) mr fullShare d)) := by
  unfold kn; split
  · iintro H; iexists _; iexact H
  · exact Idealize.SL.BI.Entails.refl _

/-- The class's invariant with the five scratch buffers as memrefs, each owned at some contents. -/
theorem PhiA0_eq (c : Dev nD) :
    (Pipeline.ΦA spec0 c : sProp 𝕄)
      = iprop(iprop((∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d)) ∗ (∃ r, prngReg c r)) := by
  unfold Pipeline.ΦA; rw [scopedRest0_eq]; simp only [sc9, sc10, sc11, sc12, sc13, owns_whole]; try rfl

/-- The invariant after point `n` at state `s`: the running maximum always named; the running sum through the first sweep
    (positions 0–3 of the row block); its logarithm from position 3 on; the two accumulators from position 4 on. -/
def PhiAfter (c : Dev nD) (n : ℕ) (s : St F) : sProp 𝕄 :=
  iprop(iprop(owns (c : Thread nD τ) sc9 fullShare s.m ∗ kn c (n % 8 ≤ 3) sc10 s.l ∗ kn c (3 ≤ n % 8) sc11 s.ld ∗ kn c (4 ≤ n % 8) sc12 s.nu ∗ kn c (4 ≤ n % 8) sc13 s.ms) ∗ (∃ r, prngReg c r))

/-- The region's invariant before position `n`. -/
def PhiS (c : Dev nD) : (n : ℕ) → n ≤ cfg0.N → sProp 𝕄
  | 0, _ => Pipeline.ΦA spec0 c
  | n + 1, hn => PhiAfter c n (stateAt m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = PhiAfter c n (stateAt m c n hn) := rfl
theorem PhiS_pos (c : Dev nD) (n : ℕ) (h : n ≤ cfg0.N) (hz : n ≠ 0) :
    PhiS m c n h = PhiAfter c (n - 1) (stateAt m c (n - 1) (by omega)) := by
  cases n with
  | zero => exact absurd rfl hz
  | succ n => rfl

/-- The proof data: the arrays as the region finds them; each input's buffer at its block; the two outputs' at the state's
    output components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t.val t.isLt).o4
    | ⟨5, _⟩ => (stateAt m c t.val t.isLt).o5
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (stateAt m c t.val t.isLt).o4 := by dsimp only [dats]
theorem after0_5 (c : Dev nD) (t : Fin cfg0.N) : (dats m 0 c).after 5 t = (stateAt m c t.val t.isLt).o5 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ### What each step leaves, component by component -/

theorem stepA_m (c : Dev nD) (t : Fin cfg0.N) (h : t.val % 8 = 0) (s : St F) : (stepA m c t h s).m = View.canon (rA m c t h).1 := rfl
theorem stepA_l (c : Dev nD) (t : Fin cfg0.N) (h : t.val % 8 = 0) (s : St F) : (stepA m c t h s).l = View.canon (rA m c t h).2.1 := rfl
theorem stepA_ld (c : Dev nD) (t : Fin cfg0.N) (h : t.val % 8 = 0) (s : St F) : (stepA m c t h s).ld = s.ld := rfl
theorem stepA_nu (c : Dev nD) (t : Fin cfg0.N) (h : t.val % 8 = 0) (s : St F) : (stepA m c t h s).nu = s.nu := rfl
theorem stepA_ms (c : Dev nD) (t : Fin cfg0.N) (h : t.val % 8 = 0) (s : St F) : (stepA m c t h s).ms = s.ms := rfl
theorem stepA_o4 (c : Dev nD) (t : Fin cfg0.N) (h : t.val % 8 = 0) (s : St F) : (stepA m c t h s).o4 = s.o4 := rfl
theorem stepA_o5 (c : Dev nD) (t : Fin cfg0.N) (h : t.val % 8 = 0) (s : St F) : (stepA m c t h s).o5 = s.o5 := rfl

theorem stepB_m (c : Dev nD) (t : Fin cfg0.N) (h : t.val % 8 = 1 ∨ t.val % 8 = 2) (s : St F) : (stepB m c t h s).m = View.canon (rB m c t h s).1 := rfl
theorem stepB_l (c : Dev nD) (t : Fin cfg0.N) (h : t.val % 8 = 1 ∨ t.val % 8 = 2) (s : St F) : (stepB m c t h s).l = View.canon (rB m c t h s).2.1 := rfl
theorem stepB_ld (c : Dev nD) (t : Fin cfg0.N) (h : t.val % 8 = 1 ∨ t.val % 8 = 2) (s : St F) : (stepB m c t h s).ld = s.ld := rfl
theorem stepB_nu (c : Dev nD) (t : Fin cfg0.N) (h : t.val % 8 = 1 ∨ t.val % 8 = 2) (s : St F) : (stepB m c t h s).nu = s.nu := rfl
theorem stepB_ms (c : Dev nD) (t : Fin cfg0.N) (h : t.val % 8 = 1 ∨ t.val % 8 = 2) (s : St F) : (stepB m c t h s).ms = s.ms := rfl
theorem stepB_o4 (c : Dev nD) (t : Fin cfg0.N) (h : t.val % 8 = 1 ∨ t.val % 8 = 2) (s : St F) : (stepB m c t h s).o4 = s.o4 := rfl
theorem stepB_o5 (c : Dev nD) (t : Fin cfg0.N) (h : t.val % 8 = 1 ∨ t.val % 8 = 2) (s : St F) : (stepB m c t h s).o5 = s.o5 := rfl

theorem stepC_m (c : Dev nD) (t : Fin cfg0.N) (h : t.val % 8 = 3) (s : St F) : (stepC m c t h s).m = View.canon (rC m c t h s).1 := rfl
theorem stepC_l (c : Dev nD) (t : Fin cfg0.N) (h : t.val % 8 = 3) (s : St F) : (stepC m c t h s).l = View.canon (rC m c t h s).2.1 := rfl
theorem stepC_ld (c : Dev nD) (t : Fin cfg0.N) (h : t.val % 8 = 3) (s : St F) : (stepC m c t h s).ld = View.canon (rC m c t h s).2.2.1 := rfl
theorem stepC_nu (c : Dev nD) (t : Fin cfg0.N) (h : t.val % 8 = 3) (s : St F) : (stepC m c t h s).nu = s.nu := rfl
theorem stepC_ms (c : Dev nD) (t : Fin cfg0.N) (h : t.val % 8 = 3) (s : St F) : (stepC m c t h s).ms = s.ms := rfl
theorem stepC_o4 (c : Dev nD) (t : Fin cfg0.N) (h : t.val % 8 = 3) (s : St F) : (stepC m c t h s).o4 = s.o4 := rfl
theorem stepC_o5 (c : Dev nD) (t : Fin cfg0.N) (h : t.val % 8 = 3) (s : St F) : (stepC m c t h s).o5 = s.o5 := rfl

theorem stepD_m (c : Dev nD) (t : Fin cfg0.N) (h : t.val % 8 = 4) (s : St F) : (stepD m c t h s).m = s.m := rfl
theorem stepD_l (c : Dev nD) (t : Fin cfg0.N) (h : t.val % 8 = 4) (s : St F) : (stepD m c t h s).l = s.l := rfl
theorem stepD_ld (c : Dev nD) (t : Fin cfg0.N) (h : t.val % 8 = 4) (s : St F) : (stepD m c t h s).ld = s.ld := rfl
theorem stepD_nu (c : Dev nD) (t : Fin cfg0.N) (h : t.val % 8 = 4) (s : St F) : (stepD m c t h s).nu = View.canon (rD m c t h s).1 := rfl
theorem stepD_ms (c : Dev nD) (t : Fin cfg0.N) (h : t.val % 8 = 4) (s : St F) : (stepD m c t h s).ms = View.canon (rD m c t h s).2.1 := rfl
theorem stepD_o4 (c : Dev nD) (t : Fin cfg0.N) (h : t.val % 8 = 4) (s : St F) : (stepD m c t h s).o4 = s.o4 := rfl
theorem stepD_o5 (c : Dev nD) (t : Fin cfg0.N) (h : t.val % 8 = 4) (s : St F) : (stepD m c t h s).o5 = s.o5 := rfl

theorem stepE_m (c : Dev nD) (t : Fin cfg0.N) (h : t.val % 8 = 5 ∨ t.val % 8 = 6) (s : St F) : (stepE m c t h s).m = s.m := rfl
theorem stepE_l (c : Dev nD) (t : Fin cfg0.N) (h : t.val % 8 = 5 ∨ t.val % 8 = 6) (s : St F) : (stepE m c t h s).l = s.l := rfl
theorem stepE_ld (c : Dev nD) (t : Fin cfg0.N) (h : t.val % 8 = 5 ∨ t.val % 8 = 6) (s : St F) : (stepE m c t h s).ld = s.ld := rfl
theorem stepE_nu (c : Dev nD) (t : Fin cfg0.N) (h : t.val % 8 = 5 ∨ t.val % 8 = 6) (s : St F) : (stepE m c t h s).nu = View.canon (rE m c t h s).1 := rfl
theorem stepE_ms (c : Dev nD) (t : Fin cfg0.N) (h : t.val % 8 = 5 ∨ t.val % 8 = 6) (s : St F) : (stepE m c t h s).ms = View.canon (rE m c t h s).2.1 := rfl
theorem stepE_o4 (c : Dev nD) (t : Fin cfg0.N) (h : t.val % 8 = 5 ∨ t.val % 8 = 6) (s : St F) : (stepE m c t h s).o4 = s.o4 := rfl
theorem stepE_o5 (c : Dev nD) (t : Fin cfg0.N) (h : t.val % 8 = 5 ∨ t.val % 8 = 6) (s : St F) : (stepE m c t h s).o5 = s.o5 := rfl

theorem stepF_m (c : Dev nD) (t : Fin cfg0.N) (h : t.val % 8 = 7) (s : St F) : (stepF m c t h s).m = s.m := rfl
theorem stepF_l (c : Dev nD) (t : Fin cfg0.N) (h : t.val % 8 = 7) (s : St F) : (stepF m c t h s).l = s.l := rfl
theorem stepF_ld (c : Dev nD) (t : Fin cfg0.N) (h : t.val % 8 = 7) (s : St F) : (stepF m c t h s).ld = s.ld := rfl
theorem stepF_nu (c : Dev nD) (t : Fin cfg0.N) (h : t.val % 8 = 7) (s : St F) : (stepF m c t h s).nu = View.canon (rF m c t h s).1 := rfl
theorem stepF_ms (c : Dev nD) (t : Fin cfg0.N) (h : t.val % 8 = 7) (s : St F) : (stepF m c t h s).ms = View.canon (rF m c t h s).2.1 := rfl
theorem stepF_o4 (c : Dev nD) (t : Fin cfg0.N) (h : t.val % 8 = 7) (s : St F) : (stepF m c t h s).o4 = View.canon (rF m c t h s).2.2.1 := rfl
theorem stepF_o5 (c : Dev nD) (t : Fin cfg0.N) (h : t.val % 8 = 7) (s : St F) : (stepF m c t h s).o5 = View.canon (rF m c t h s).2.2.2.1 := rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2000000 in
/-- The body at a point of case A that is the grid's first point. -/
theorem sound_A0 (c : Dev nD) (t : Fin cfg0.N) (h : t.val % 8 = 0) (hz : t.val = 0) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_zero m c _ _ hz, PhiA0_eq]
  rw [stateAt_zero m c t hz, stepAt_A m c t h]
  unfold PhiAfter
  have e1 : t.val % 8 ≤ 3 := by omega
  have e2 : ¬ 3 ≤ t.val % 8 := by omega
  have e3 : ¬ 4 ≤ t.val % 8 := by omega
  simp only [kn, if_pos e1, if_neg e2, if_neg e3, stepA_m, stepA_l, stepA_ld, stepA_nu, stepA_ms, stepA_o4, stepA_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rA m c t h).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexact HS9
  isplitl [HS10]; · iexact HS10
  isplitl [HS11]; · iexact HS11
  isplitl [HS12]; · iexact HS12
  isplitl [HS13]; · iexact HS13
  iintro ⟨H0, H1, H2, H3, H4, H5, ⟨%e9, HS9⟩, ⟨%e10, HS10⟩, HS11, HS12, HS13⟩
  isplitl [HS9 HS10 HS11 HS12 HS13 Hg]
  · isplitl [HS9 HS10 HS11 HS12 HS13]
    · isplitl [HS9]
      · unfold owns; iexists _; isplitr
        swap; · iexact HS9
        ipureintro; exact View.read_writes_eq_canon _ _ _ (coverA9 (F := F) c _ _ _ _ _ _ _ _ _ _ _ _ _ _ _ _ _ _ _ _ _ _ _ _ _ _ _ _ _ _ _ _ _)
      isplitl [HS10]
      · unfold owns; iexists _; isplitr
        swap; · iexact HS10
        ipureintro; exact View.read_writes_eq_canon _ _ _ (coverA10 (F := F) c _ _ _ _ _ _ _ _ _ _ _ _ _ _ _ _ _ _ _ _ _ _ _ _ _ _ _ _ _ _ _ _ _)
      isplitl [HS11]
      · iexact HS11
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case A after the first point. -/
theorem sound_A (c : Dev nD) (t : Fin cfg0.N) (h : t.val % 8 = 0) (hz : t.val ≠ 0) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_pos m c _ _ hz]
  rw [stateAt_pos m c t hz, stepAt_A m c t h]
  unfold PhiAfter
  have e1' : ¬ (t.val - 1) % 8 ≤ 3 := by omega
  have e2' : 3 ≤ (t.val - 1) % 8 := by omega
  have e3' : 4 ≤ (t.val - 1) % 8 := by omega
  have e1 : t.val % 8 ≤ 3 := by omega
  have e2 : ¬ 3 ≤ t.val % 8 := by omega
  have e3 : ¬ 4 ≤ t.val % 8 := by omega
  simp only [kn, if_neg e1', if_pos e2', if_pos e3', if_pos e1, if_neg e2, if_neg e3, stepA_m, stepA_l, stepA_ld, stepA_nu, stepA_ms, stepA_o4, stepA_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rA m c t h).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexists _; iexact HS9
  isplitl [HS10]; · iexact HS10
  isplitl [HS11]; · iexists _; iexact HS11
  isplitl [HS12]; · iexists _; iexact HS12
  isplitl [HS13]; · iexists _; iexact HS13
  iintro ⟨H0, H1, H2, H3, H4, H5, ⟨%e9, HS9⟩, ⟨%e10, HS10⟩, HS11, HS12, HS13⟩
  isplitl [HS9 HS10 HS11 HS12 HS13 Hg]
  · isplitl [HS9 HS10 HS11 HS12 HS13]
    · isplitl [HS9]
      · unfold owns; iexists _; isplitr
        swap; · iexact HS9
        ipureintro; exact View.read_writes_eq_canon _ _ _ (coverA9 (F := F) c _ _ _ _ _ _ _ _ _ _ _ _ _ _ _ _ _ _ _ _ _ _ _ _ _ _ _ _ _ _ _ _ _)
      isplitl [HS10]
      · unfold owns; iexists _; isplitr
        swap; · iexact HS10
        ipureintro; exact View.read_writes_eq_canon _ _ _ (coverA10 (F := F) c _ _ _ _ _ _ _ _ _ _ _ _ _ _ _ _ _ _ _ _ _ _ _ _ _ _ _ _ _ _ _ _ _)
      isplitl [HS11]
      · iexact HS11
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case B. -/
theorem sound_B (c : Dev nD) (t : Fin cfg0.N) (h : t.val % 8 = 1 ∨ t.val % 8 = 2) :
    bodyPre m c t ⊢ wp frame (wpE (defs₀ (F := F)) Variants.none c none) Set.univ (bodyAt0 t) (fun _ => bodyPost m c t) := by
  have hz : t.val ≠ 0 := by omega
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_pos m c _ _ hz]
  rw [stateAt_pos m c t hz, stepAt_B m c t h]
  unfold PhiAfter
  have e1' : (t.val - 1) % 8 ≤ 3 := by omega
  have e2' : ¬ 3 ≤ (t.val - 1) % 8 := by omega
  have e3' : ¬ 4 ≤ (t.val - 1) % 8 := by omega
  have e1 : t.val % 8 ≤ 3 := by omega
  have e2 : ¬ 3 ≤ t.val % 8 := by omega
  have e3 : ¬ 4 ≤ t.val % 8 := by omega
  simp only [kn, if_pos e1', if_neg e2', if_neg e3', if_pos e1, if_neg e2, if_neg e3, stepB_m, stepB_l, stepB_ld, stepB_nu, stepB_ms, stepB_o4, stepB_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rB m c t h (stateAt m c (t.val - 1) (Nat.lt_of_le_of_lt (Nat.sub_le _ _) t.isLt))).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexact HS9
  isplitl [HS10]; · iexact HS10
  isplitl [HS11]; · iexact HS11
  isplitl [HS12]; · iexact HS12
  isplitl [HS13]; · iexact HS13
  iintro ⟨H0, H1, H2, H3, H4, H5, ⟨%e9, HS9⟩, ⟨%e10, HS10⟩, HS11, HS12, HS13⟩
  isplitl [HS9 HS10 HS11 HS12 HS13 Hg]
  · isplitl [HS9 HS10 HS11 HS12 HS13]
    · isplitl [HS9]
      · unfold owns; iexists _; isplitr
        swap; · iexact HS9
        ipureintro; exact View.read_writes_eq_canon _ _ _ (coverB9 (F := F) c _ _ _ _ _ _ _ _ _ _ _ _ _ _ _ _ _ _ _ _ _ _ _ _ _ _ _ _ _ _ _ _ _ _ _)
      isplitl [HS10]
      · unfold owns; iexists _; isplitr
        swap; · iexact HS10
        ipureintro; exact View.read_writes_eq_canon _ _ _ (coverB10 (F := F) c _ _ _ _ _ _ _ _ _ _ _ _ _ _ _ _ _ _ _ _ _ _ _ _ _ _ _ _ _ _ _ _ _ _ _)
      isplitl [HS11]
      · iexact HS11
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case C. -/
theorem sound_C (c : Dev nD) (t : Fin cfg0.N) (h : t.val % 8 = 3) :
    bodyPre m c t ⊢ wp frame (wpE (defs₀ (F := F)) Variants.none c none) Set.univ (bodyAt0 t) (fun _ => bodyPost m c t) := by
  have hz : t.val ≠ 0 := by omega
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_pos m c _ _ hz]
  rw [stateAt_pos m c t hz, stepAt_C m c t h]
  unfold PhiAfter
  have e1' : (t.val - 1) % 8 ≤ 3 := by omega
  have e2' : ¬ 3 ≤ (t.val - 1) % 8 := by omega
  have e3' : ¬ 4 ≤ (t.val - 1) % 8 := by omega
  have e1 : t.val % 8 ≤ 3 := by omega
  have e2 : 3 ≤ t.val % 8 := by omega
  have e3 : ¬ 4 ≤ t.val % 8 := by omega
  simp only [kn, if_pos e1', if_neg e2', if_neg e3', if_pos e1, if_pos e2, if_neg e3, stepC_m, stepC_l, stepC_ld, stepC_nu, stepC_ms, stepC_o4, stepC_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rC m c t h (stateAt m c (t.val - 1) (Nat.lt_of_le_of_lt (Nat.sub_le _ _) t.isLt))).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexact HS9
  isplitl [HS10]; · iexact HS10
  isplitl [HS11]; · iexact HS11
  isplitl [HS12]; · iexact HS12
  isplitl [HS13]; · iexact HS13
  iintro ⟨H0, H1, H2, H3, H4, H5, ⟨%e9, HS9⟩, ⟨%e10, HS10⟩, ⟨%e11, HS11⟩, HS12, HS13⟩
  isplitl [HS9 HS10 HS11 HS12 HS13 Hg]
  · isplitl [HS9 HS10 HS11 HS12 HS13]
    · isplitl [HS9]
      · unfold owns; iexists _; isplitr
        swap; · iexact HS9
        ipureintro; exact View.read_writes_eq_canon _ _ _ (coverC9 (F := F) c _ _ _ _ _ _ _ _ _ _ _ _ _ _ _ _ _ _ _ _ _ _ _ _ _ _ _ _ _ _ _ _ _ _ _)
      isplitl [HS10]
      · unfold owns; iexists _; isplitr
        swap; · iexact HS10
        ipureintro; exact View.read_writes_eq_canon _ _ _ (coverC10 (F := F) c _ _ _ _ _ _ _ _ _ _ _ _ _ _ _ _ _ _ _ _ _ _ _ _ _ _ _ _ _ _ _ _ _ _ _)
      isplitl [HS11]
      · unfold owns; iexists _; isplitr
        swap; · iexact HS11
        ipureintro; exact View.read_writes_eq_canon _ _ _ (coverC11 (F := F) c _ _ _ _ _ _ _ _ _ _ _ _ _ _ _ _ _ _ _ _ _ _ _ _ _ _ _ _ _ _ _ _ _ _ _)
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case D. -/
theorem sound_D (c : Dev nD) (t : Fin cfg0.N) (h : t.val % 8 = 4) :
    bodyPre m c t ⊢ wp frame (wpE (defs₀ (F := F)) Variants.none c none) Set.univ (bodyAt0 t) (fun _ => bodyPost m c t) := by
  have hz : t.val ≠ 0 := by omega
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_pos m c _ _ hz]
  rw [stateAt_pos m c t hz, stepAt_D m c t h]
  unfold PhiAfter
  have e1' : (t.val - 1) % 8 ≤ 3 := by omega
  have e2' : 3 ≤ (t.val - 1) % 8 := by omega
  have e3' : ¬ 4 ≤ (t.val - 1) % 8 := by omega
  have e1 : ¬ t.val % 8 ≤ 3 := by omega
  have e2 : 3 ≤ t.val % 8 := by omega
  have e3 : 4 ≤ t.val % 8 := by omega
  simp only [kn, if_pos e1', if_pos e2', if_neg e3', if_neg e1, if_pos e2, if_pos e3, stepD_m, stepD_l, stepD_ld, stepD_nu, stepD_ms, stepD_o4, stepD_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rD m c t h (stateAt m c (t.val - 1) (Nat.lt_of_le_of_lt (Nat.sub_le _ _) t.isLt))).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexact HS9
  isplitl [HS10]; · iexists _; iexact HS10
  isplitl [HS11]; · iexact HS11
  isplitl [HS12]; · iexact HS12
  isplitl [HS13]; · iexact HS13
  iintro ⟨H0, H1, H2, H3, H4, H5, HS9, HS10, HS11, ⟨%e12, HS12⟩, ⟨%e13, HS13⟩⟩
  isplitl [HS9 HS10 HS11 HS12 HS13 Hg]
  · isplitl [HS9 HS10 HS11 HS12 HS13]
    · isplitl [HS9]
      · iexact HS9
      isplitl [HS10]
      · iexact HS10
      isplitl [HS11]
      · iexact HS11
      isplitl [HS12]
      · unfold owns; iexists _; isplitr
        swap; · iexact HS12
        ipureintro; exact View.read_writes_eq_canon _ _ _ (coverD12 (F := F) c _ _ _ _ _ _ _ _ _ _ _ _ _ _ _ _ _ _ _ _ _ _ _ _ _ _ _ _ _ _ _ _ _ _ _)
      · unfold owns; iexists _; isplitr
        swap; · iexact HS13
        ipureintro; exact View.read_writes_eq_canon _ _ _ (coverD13 (F := F) c _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case E. -/
theorem sound_E (c : Dev nD) (t : Fin cfg0.N) (h : t.val % 8 = 5 ∨ t.val % 8 = 6) :
    bodyPre m c t ⊢ wp frame (wpE (defs₀ (F := F)) Variants.none c none) Set.univ (bodyAt0 t) (fun _ => bodyPost m c t) := by
  have hz : t.val ≠ 0 := by omega
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_pos m c _ _ hz]
  rw [stateAt_pos m c t hz, stepAt_E m c t h]
  unfold PhiAfter
  have e1' : ¬ (t.val - 1) % 8 ≤ 3 := by omega
  have e2' : 3 ≤ (t.val - 1) % 8 := by omega
  have e3' : 4 ≤ (t.val - 1) % 8 := by omega
  have e1 : ¬ t.val % 8 ≤ 3 := by omega
  have e2 : 3 ≤ t.val % 8 := by omega
  have e3 : 4 ≤ t.val % 8 := by omega
  simp only [kn, if_neg e1', if_pos e2', if_pos e3', if_neg e1, if_pos e2, if_pos e3, stepE_m, stepE_l, stepE_ld, stepE_nu, stepE_ms, stepE_o4, stepE_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rE m c t h (stateAt m c (t.val - 1) (Nat.lt_of_le_of_lt (Nat.sub_le _ _) t.isLt))).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexact HS9
  isplitl [HS10]; · iexact HS10
  isplitl [HS11]; · iexact HS11
  isplitl [HS12]; · iexact HS12
  isplitl [HS13]; · iexact HS13
  iintro ⟨H0, H1, H2, H3, H4, H5, HS9, HS10, HS11, ⟨%e12, HS12⟩, ⟨%e13, HS13⟩⟩
  isplitl [HS9 HS10 HS11 HS12 HS13 Hg]
  · isplitl [HS9 HS10 HS11 HS12 HS13]
    · isplitl [HS9]
      · iexact HS9
      isplitl [HS10]
      · iexact HS10
      isplitl [HS11]
      · iexact HS11
      isplitl [HS12]
      · unfold owns; iexists _; isplitr
        swap; · iexact HS12
        ipureintro; exact View.read_writes_eq_canon _ _ _ (coverE12 (F := F) c _ _ _ _ _ _ _ _ _ _ _ _ _ _ _ _ _ _ _ _ _ _ _ _ _ _ _ _ _ _ _ _ _ _ _ _ _)
      · unfold owns; iexists _; isplitr
        swap; · iexact HS13
        ipureintro; exact View.read_writes_eq_canon _ _ _ (coverE13 (F := F) c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case F. -/
theorem sound_F (c : Dev nD) (t : Fin cfg0.N) (h : t.val % 8 = 7) :
    bodyPre m c t ⊢ wp frame (wpE (defs₀ (F := F)) Variants.none c none) Set.univ (bodyAt0 t) (fun _ => bodyPost m c t) := by
  have hz : t.val ≠ 0 := by omega
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [show (dats m 0 c).leavesExact 4 t = owns (c : Thread nD τ) (ms4 t) fullShare ((dats m 0 c).after 4 t) from by
    unfold Dat.leavesExact; rw [show cfg0.idle 4 (grid0.coords t) = false from by
      rw [← Bool.not_eq_true]; exact fun hi => absurd ((idle4 t).mp hi) (by omega)], after0_4]
  rw [show (dats m 0 c).leavesExact 5 t = owns (c : Thread nD τ) (ms5 t) fullShare ((dats m 0 c).after 5 t) from by
    unfold Dat.leavesExact; rw [show cfg0.idle 5 (grid0.coords t) = false from by
      rw [← Bool.not_eq_true]; exact fun hi => absurd ((idle5 t).mp hi) (by omega)], after0_5]
  rw [PhiS_castSucc m c t, PhiS_pos m c _ _ hz]
  rw [stateAt_pos m c t hz, stepAt_F m c t h]
  unfold PhiAfter
  have e1' : ¬ (t.val - 1) % 8 ≤ 3 := by omega
  have e2' : 3 ≤ (t.val - 1) % 8 := by omega
  have e3' : 4 ≤ (t.val - 1) % 8 := by omega
  have e1 : ¬ t.val % 8 ≤ 3 := by omega
  have e2 : 3 ≤ t.val % 8 := by omega
  have e3 : 4 ≤ t.val % 8 := by omega
  simp only [kn, if_neg e1', if_pos e2', if_pos e3', if_neg e1, if_pos e2, if_pos e3, stepF_m, stepF_l, stepF_ld, stepF_nu, stepF_ms, stepF_o4, stepF_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rF m c t h (stateAt m c (t.val - 1) (Nat.lt_of_le_of_lt (Nat.sub_le _ _) t.isLt))).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS9]; · iexact HS9
  isplitl [HS10]; · iexact HS10
  isplitl [HS11]; · iexact HS11
  isplitl [HS12]; · iexact HS12
  isplitl [HS13]; · iexact HS13
  iintro ⟨H0, H1, H2, H3, ⟨%e7, H4⟩, ⟨%e8, H5⟩, HS9, HS10, HS11, ⟨%e12, HS12⟩, ⟨%e13, HS13⟩⟩
  isplitl [HS9 HS10 HS11 HS12 HS13 Hg]
  · isplitl [HS9 HS10 HS11 HS12 HS13]
    · isplitl [HS9]
      · iexact HS9
      isplitl [HS10]
      · iexact HS10
      isplitl [HS11]
      · iexact HS11
      isplitl [HS12]
      · unfold owns; iexists _; isplitr
        swap; · iexact HS12
        ipureintro; exact View.read_writes_eq_canon _ _ _ (coverF12 (F := F) c _ _ _ _ _ _ _ _ _ _ _ _ _ _ _ _ _ _ _ _ _ _ _ _ _ _ _ _ _ _ _ _ _ _ _ _ _)
      · unfold owns; iexists _; isplitr
        swap; · iexact HS13
        ipureintro; exact View.read_writes_eq_canon _ _ _ (coverF13 (F := F) c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (coverF7 (F := F) c _ _ _ _ _ _ _ _ _ _ _ _ _ _ _ _ _ _ _ _ _ _ _ _ _ _ _ _ _ _ _ _ _ _ _ _ _)
  unfold owns; iexists _; isplitr
  swap; · iexact H5
  ipureintro; exact View.read_writes_eq_canon _ _ _ (coverF8 (F := F) c _ _ _ _ _ _ _ _ _ _ _ _ _ _ _ _ _ _ _ _ _ _ _ _ _ _ _ _ _ _ _ _ _ _ _ _ _)

/-- The body at any point: by the point's position in its row block. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases hz : t.val = 0
    · exact sound_A0 m c t h0 hz
    · exact sound_A m c t h0 hz
  by_cases h1 : t.val % 8 = 1 ∨ t.val % 8 = 2
  · exact sound_B m c t h1
  by_cases h3 : t.val % 8 = 3
  · exact sound_C m c t h3
  by_cases h4 : t.val % 8 = 4
  · exact sound_D m c t h4
  by_cases h5 : t.val % 8 = 5 ∨ t.val % 8 = 6
  · exact sound_E m c t h5
  exact sound_F m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the named contents are forgotten. -/
theorem hout (c : Dev nD) : (dats m 0 c).Φ (Fin.last cfg0.N) ⊢ Pipeline.ΦA spec0 c := by
  have hN : cfg0.N = 136 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  unfold PhiAfter
  iintro ⟨⟨HS9, HS10, HS11, HS12, HS13⟩, Hg⟩
  isplitl [HS9 HS10 HS11 HS12 HS13]
  · isplitl [HS9]; · iexists _; iexact HS9
    isplitl [HS10]; · iapply (kn_weak c _ sc10 _); iexact HS10
    isplitl [HS11]; · iapply (kn_weak c _ sc11 _); iexact HS11
    isplitl [HS12]; · iapply (kn_weak c _ sc12 _); iexact HS12
    iapply (kn_weak c _ sc13 _); iexact HS13
  iexact Hg

set_option backward.isDefEq.respectTransparency.types false in
/-- From any memory with zero counters every weakly fair execution of @main terminates, every array of the pipeline ending
    at what the library computes from the proof data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KI.Cond.lean ====
/-
  The kernel body branches six times on the grid point (i, phase, j) of the 17 × 2 × 4 grid. Each branch condition is a
  scalar chain over the coordinates; here each is written as the body computes it and decided over the 136 points:
  with t the point's number, phase = (t / 4) % 2 and j = t % 4, so every condition is a statement about t % 8.
    1. phase = 0 ∧ j = 0  (reset the running maximum and the running sum)          t % 8 = 0
    2. phase = 1 ∧ j = 0  (reset the two accumulators of the second sweep)         t % 8 = 4
    3. phase = 0          (one step of the running maximum / rescaled sum)         t % 8 < 4
    4. phase = 0 ∧ j = 3  (take the logarithm of the finished sum)                 t % 8 = 3
    5. phase = 1          (accumulate the masked log-probabilities and the mask)   4 ≤ t % 8
    6. phase = 1 ∧ j = 3  (store the two accumulators into the output blocks)      t % 8 = 7
-/
import proofs.«108923_j8598524526701_2_alg».proof.Proof.Gen.KernelIdeal.Launch
import proofs.«108923_j8598524526701_2_alg».proof.Proof.Gen.KernelIdeal.Points

noncomputable section

namespace Cert.KernelIdeal.Body

open Cert.KernelIdeal Cert.KernelIdeal.Gen
open Idealize.ShloMosaic

abbrev cond1 (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
abbrev cond2 (i : grid0.Coords) : Prop :=
  Scalar.cmpi .ne (Scalar.extui (Scalar.andi (Scalar.cmpi .eq (BitVec.ofNat 32 (i 1).val) 1#32) (Scalar.cmpi .eq (BitVec.ofNat 32 (i 2).val) 0#32))) 0#32 = 1#1
abbrev cond3 (i : grid0.Coords) : Prop :=
  Scalar.cmpi .ne (Scalar.extui (Scalar.cmpi .eq (BitVec.ofNat 32 (i 1).val) 0#32)) 0#32 = 1#1
abbrev cond4 (i : grid0.Coords) : Prop :=
  Scalar.cmpi .ne (Scalar.extui (Scalar.andi (Scalar.cmpi .eq (BitVec.ofNat 32 (i 1).val) 0#32) (Scalar.cmpi .eq (BitVec.ofNat 32 (i 2).val) 3#32))) 0#32 = 1#1
abbrev cond5 (i : grid0.Coords) : Prop :=
  Scalar.cmpi .ne (Scalar.extui (Scalar.cmpi .eq (BitVec.ofNat 32 (i 1).val) 1#32)) 0#32 = 1#1
abbrev cond6 (i : grid0.Coords) : Prop := k0_cond6 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 = 4 :=
  (by decide +kernel : ∀ t : Fin grid0.N, cond2 (grid0.coords t) ↔ t.val % 8 = 4)
theorem hcond3 : ∀ t : Fin cfg0.N, cond3 (grid0.coords t) ↔ t.val % 8 < 4 :=
  (by decide +kernel : ∀ t : Fin grid0.N, cond3 (grid0.coords t) ↔ t.val % 8 < 4)
theorem hcond4 : ∀ t : Fin cfg0.N, cond4 (grid0.coords t) ↔ t.val % 8 = 3 :=
  (by decide +kernel : ∀ t : Fin grid0.N, cond4 (grid0.coords t) ↔ t.val % 8 = 3)
theorem hcond5 : ∀ t : Fin cfg0.N, cond5 (grid0.coords t) ↔ 4 ≤ t.val % 8 :=
  (by decide +kernel : ∀ t : Fin grid0.N, cond5 (grid0.coords t) ↔ 4 ≤ t.val % 8)
theorem hcond6 : ∀ t : Fin cfg0.N, cond6 (grid0.coords t) ↔ t.val % 8 = 7 :=
  (by decide +kernel : ∀ t : Fin grid0.N, cond6 (grid0.coords t) ↔ t.val % 8 = 7)

/-- The two output windows are idle exactly where the last branch is not taken, and written back exactly where it is. -/
theorem idle4 : ∀ t : Fin cfg0.N, cfg0.idle 4 (grid0.coords t) = true ↔ ¬ t.val % 8 = 7 :=
  (by decide +kernel : ∀ t : Fin grid0.N, cfg0.idle 4 (grid0.coords t) = true ↔ ¬ t.val % 8 = 7)
theorem idle5 : ∀ t : Fin cfg0.N, cfg0.idle 5 (grid0.coords t) = true ↔ ¬ t.val % 8 = 7 :=
  (by decide +kernel : ∀ t : Fin grid0.N, cfg0.idle 5 (grid0.coords t) = true ↔ ¬ t.val % 8 = 7)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

end Cert.KernelIdeal.Body

end
-- ==== Proof.KI.RunA.lean ====
/-
  One grid point of the kernel body, in one of its six control cases, run symbolically on whole staging and scratch buffers.
-/
import proofs.«108923_j8598524526701_2_alg».proof.Proof.KI.Cond
import proofs.«108923_j8598524526701_2_alg».proof.Proof.Gen.KernelIdeal.Skeleton
import proofs.«108923_j8598524526701_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole body in the case: phase 0, first column tile: the running maximum and the running sum are reset, then stepped. A buffer the case stores into ends with the listed pieces written (last store first); a buffer it only reads is handed back at the contents it was given; a buffer whose contents the case neither needs nor sets is taken and handed back at whatever it holds. -/
noncomputable def runA (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
     :
    Σ' (L9 : List (View.Piece (Elt F) S256x1 .f32)), { L10 : List (View.Piece (Elt F) S256x1 .f32) //
      ∀ (xi7 xi8 : Vec F S256x1 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare xi7
            ∗ owns (c : Thread nD τ) arg8 fullShare xi8
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ d, owns (c : Thread nD τ) arg11 fullShare d)
                ∗ (∃ d, owns (c : Thread nD τ) arg12 fullShare d)
                ∗ (∃ d, owns (c : Thread nD τ) arg13 fullShare d)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, fun xi7 xi8 E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]
    · iexists (arg11.view.read (Elt F) f11); iexists f11; isplitr; · ipureintro; rfl
      iexact H11
    isplitl [H12]
    · iexists (arg12.view.read (Elt F) f12); iexists f12; isplitr; · ipureintro; rfl
      iexact H12
    iexists (arg13.view.read (Elt F) f13); iexists f13; isplitr; · ipureintro; rfl
    iexact H13

end Cert.KernelIdeal.Body

end
-- ==== Proof.KI.RunB.lean ====
/-
  One grid point of the kernel body, in one of its six control cases, run symbolically on whole staging and scratch buffers.
-/
import proofs.«108923_j8598524526701_2_alg».proof.Proof.KI.Cond
import proofs.«108923_j8598524526701_2_alg».proof.Proof.Gen.KernelIdeal.Skeleton
import proofs.«108923_j8598524526701_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole body in the case: phase 0, a middle column tile: the running maximum and the running sum are stepped. A buffer the case stores into ends with the listed pieces written (last store first); a buffer it only reads is handed back at the contents it was given; a buffer whose contents the case neither needs nor sets is taken and handed back at whatever it holds. -/
noncomputable def runB (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) :
    Σ' (L9 : List (View.Piece (Elt F) S256x1 .f32)), { L10 : List (View.Piece (Elt F) S256x1 .f32) //
      ∀ (xi7 xi8 : Vec F S256x1 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare xi7
            ∗ owns (c : Thread nD τ) arg8 fullShare xi8
            ∗ owns (c : Thread nD τ) arg9 fullShare s9
            ∗ owns (c : Thread nD τ) arg10 fullShare s10
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ d, owns (c : Thread nD τ) arg11 fullShare d)
                ∗ (∃ d, owns (c : Thread nD τ) arg12 fullShare d)
                ∗ (∃ d, owns (c : Thread nD τ) arg13 fullShare d)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, fun xi7 xi8 E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]
    · iexists (arg11.view.read (Elt F) f11); iexists f11; isplitr; · ipureintro; rfl
      iexact H11
    isplitl [H12]
    · iexists (arg12.view.read (Elt F) f12); iexists f12; isplitr; · ipureintro; rfl
      iexact H12
    iexists (arg13.view.read (Elt F) f13); iexists f13; isplitr; · ipureintro; rfl
    iexact H13

end Cert.KernelIdeal.Body

end
-- ==== Proof.KI.RunC.lean ====
/-
  One grid point of the kernel body, in one of its six control cases, run symbolically on whole staging and scratch buffers.
-/
import proofs.«108923_j8598524526701_2_alg».proof.Proof.KI.Cond
import proofs.«108923_j8598524526701_2_alg».proof.Proof.Gen.KernelIdeal.Skeleton
import proofs.«108923_j8598524526701_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole body in the case: phase 0, last column tile: the running maximum and sum are stepped and the logarithm of the finished sum is taken. A buffer the case stores into ends with the listed pieces written (last store first); a buffer it only reads is handed back at the contents it was given; a buffer whose contents the case neither needs nor sets is taken and handed back at whatever it holds. -/
noncomputable def runC (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) :
    Σ' (L9 : List (View.Piece (Elt F) S256x1 .f32)) (L10 : List (View.Piece (Elt F) S256x1 .f32)), { L11 : List (View.Piece (Elt F) S256x1 .f32) //
      ∀ (xi7 xi8 : Vec F S256x1 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare xi7
            ∗ owns (c : Thread nD τ) arg8 fullShare xi8
            ∗ owns (c : Thread nD τ) arg9 fullShare s9
            ∗ owns (c : Thread nD τ) arg10 fullShare s10
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare xi7
                ∗ owns (c : Thread nD τ) arg8 fullShare xi8
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)
                ∗ (∃ d, owns (c : Thread nD τ) arg12 fullShare d)
                ∗ (∃ d, owns (c : Thread nD τ) arg13 fullShare d)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, ?_, fun xi7 xi8 E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]
    · iexists (arg12.view.read (Elt F) f12); iexists f12; isplitr; · ipureintro; rfl
      iexact H12
    iexists (arg13.view.read (Elt F) f13); iexists f13; isplitr; · ipureintro; rfl
    iexact H13

end Cert.KernelIdeal.Body

end
-- ==== Proof.KI.RunD.lean ====
/-
  One grid point of the kernel body, in one of its six control cases, run symbolically on whole staging and scratch buffers.
-/
import proofs.«108923_j8598524526701_2_alg».proof.Proof.KI.Cond
import proofs.«108923_j8598524526701_2_alg».proof.Proof.Gen.KernelIdeal.Skeleton
import proofs.«108923_j8598524526701_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole body in the case: phase 1, first column tile: the two accumulators are reset, then stepped. A buffer the case stores into ends with the listed pieces written (last store first); a buffer it only reads is handed back at the contents it was given; a buffer whose contents the case neither needs nor sets is taken and handed back at whatever it holds. -/
noncomputable def runD (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 : Vec F S256x1 .f32) :
    Σ' (L12 : List (View.Piece (Elt F) S256x1 .f32)), { L13 : List (View.Piece (Elt F) S256x1 .f32) //
      ∀ (xi7 xi8 : Vec F S256x1 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare xi7
            ∗ owns (c : Thread nD τ) arg8 fullShare xi8
            ∗ owns (c : Thread nD τ) arg9 fullShare s9
            ∗ (∃ d, owns (c : Thread nD τ) arg10 fullShare d)
            ∗ owns (c : Thread nD τ) arg11 fullShare s11
            ∗ (∃ d, owns (c : Thread nD τ) arg12 fullShare d)
            ∗ (∃ d, owns (c : Thread nD τ) arg13 fullShare d)
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare xi7
                ∗ owns (c : Thread nD τ) arg8 fullShare xi8
                ∗ owns (c : Thread nD τ) arg9 fullShare s9
                ∗ (∃ d, owns (c : Thread nD τ) arg10 fullShare d)
                ∗ owns (c : Thread nD τ) arg11 fullShare s11
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, fun xi7 xi8 E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists (arg10.view.read (Elt F) f10); iexists f10; isplitr; · ipureintro; rfl
      iexact H10
    isplitl [H11]
    · iexists _; isplitr; · ipureintro; exact harg11.read_unread _
      iexact H11
    isplitl [H12]; · iexists _; iexact H12
    iexists _; iexact H13

end Cert.KernelIdeal.Body

end
-- ==== Proof.KI.RunE.lean ====
/-
  One grid point of the kernel body, in one of its six control cases, run symbolically on whole staging and scratch buffers.
-/
import proofs.«108923_j8598524526701_2_alg».proof.Proof.KI.Cond
import proofs.«108923_j8598524526701_2_alg».proof.Proof.Gen.KernelIdeal.Skeleton
import proofs.«108923_j8598524526701_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole body in the case: phase 1, a middle column tile: the two accumulators are stepped. A buffer the case stores into ends with the listed pieces written (last store first); a buffer it only reads is handed back at the contents it was given; a buffer whose contents the case neither needs nor sets is taken and handed back at whatever it holds. -/
noncomputable def runE (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 s12 s13 : Vec F S256x1 .f32) :
    Σ' (L12 : List (View.Piece (Elt F) S256x1 .f32)), { L13 : List (View.Piece (Elt F) S256x1 .f32) //
      ∀ (xi7 xi8 : Vec F S256x1 .f32) (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare xi7
            ∗ owns (c : Thread nD τ) arg8 fullShare xi8
            ∗ owns (c : Thread nD τ) arg9 fullShare s9
            ∗ (∃ d, owns (c : Thread nD τ) arg10 fullShare d)
            ∗ owns (c : Thread nD τ) arg11 fullShare s11
            ∗ owns (c : Thread nD τ) arg12 fullShare s12
            ∗ owns (c : Thread nD τ) arg13 fullShare s13
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare xi7
                ∗ owns (c : Thread nD τ) arg8 fullShare xi8
                ∗ owns (c : Thread nD τ) arg9 fullShare s9
                ∗ (∃ d, owns (c : Thread nD τ) arg10 fullShare d)
                ∗ owns (c : Thread nD τ) arg11 fullShare s11
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, fun xi7 xi8 E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists (arg10.view.read (Elt F) f10); iexists f10; isplitr; · ipureintro; rfl
      iexact H10
    isplitl [H11]
    · iexists _; isplitr; · ipureintro; exact harg11.read_unread _
      iexact H11
    isplitl [H12]; · iexists _; iexact H12
    iexists _; iexact H13

end Cert.KernelIdeal.Body

end
-- ==== Proof.KI.RunF.lean ====
/-
  One grid point of the kernel body, in one of its six control cases, run symbolically on whole staging and scratch buffers.
-/
import proofs.«108923_j8598524526701_2_alg».proof.Proof.KI.Cond
import proofs.«108923_j8598524526701_2_alg».proof.Proof.Gen.KernelIdeal.Skeleton
import proofs.«108923_j8598524526701_2_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole body in the case: phase 1, last column tile: the two accumulators are stepped and stored into the two output blocks. A buffer the case stores into ends with the listed pieces written (last store first); a buffer it only reads is handed back at the contents it was given; a buffer whose contents the case neither needs nor sets is taken and handed back at whatever it holds. -/
noncomputable def runF (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) :
    Σ' (L12 : List (View.Piece (Elt F) S256x1 .f32)) (L13 : List (View.Piece (Elt F) S256x1 .f32)) (L7 : List (View.Piece (Elt F) S256x1 .f32)), { L8 : List (View.Piece (Elt F) S256x1 .f32) //
      ∀ (E : Set ℕ) (K : PUnit → sProp 𝕄),
        iprop(owns (c : Thread nD τ) arg3 fullShare x3
            ∗ owns (c : Thread nD τ) arg4 fullShare x4
            ∗ owns (c : Thread nD τ) arg5 fullShare x5
            ∗ owns (c : Thread nD τ) arg6 fullShare x6
            ∗ (∃ d, owns (c : Thread nD τ) arg7 fullShare d)
            ∗ (∃ d, owns (c : Thread nD τ) arg8 fullShare d)
            ∗ owns (c : Thread nD τ) arg9 fullShare s9
            ∗ (∃ d, owns (c : Thread nD τ) arg10 fullShare d)
            ∗ owns (c : Thread nD τ) arg11 fullShare s11
            ∗ owns (c : Thread nD τ) arg12 fullShare s12
            ∗ owns (c : Thread nD τ) arg13 fullShare s13
            ∗ (iprop(owns (c : Thread nD τ) arg3 fullShare x3
                ∗ owns (c : Thread nD τ) arg4 fullShare x4
                ∗ owns (c : Thread nD τ) arg5 fullShare x5
                ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ owns (c : Thread nD τ) arg9 fullShare s9
                ∗ (∃ d, owns (c : Thread nD τ) arg10 fullShare d)
                ∗ owns (c : Thread nD τ) arg11 fullShare s11
                ∗ (∃ f, arg12.view.loc (c : Thread nD τ) ↦[arg12.view.set]{fullShare} arg12.view.writes (Elt F) f L12)
                ∗ (∃ f, arg13.view.loc (c : Thread nD τ) ↦[arg13.view.set]{fullShare} arg13.view.writes (Elt F) f L13)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0__fused_kernel_eq_skeleton]; unfold cc0__fused_kernel_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%f11, %hf11, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg9.eq_unread hf9; obtain rfl := harg11.eq_unread hf11; obtain rfl := harg12.eq_unread hf12; obtain rfl := harg13.eq_unread hf13
    sl_exec (disch := first | exact hc1 | exact hc2 | exact hc3 | exact hc4 | exact hc5 | exact hc6)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; isplitr; · ipureintro; exact harg9.read_unread _
      iexact H9
    isplitl [H10]
    · iexists (arg10.view.read (Elt F) f10); iexists f10; isplitr; · ipureintro; rfl
      iexact H10
    isplitl [H11]
    · iexists _; isplitr; · ipureintro; exact harg11.read_unread _
      iexact H11
    isplitl [H12]; · iexists _; iexact H12
    iexists _; iexact H13

end Cert.KernelIdeal.Body

end
-- ==== Proof.KI.State.lean ====
/-
  What the five scratch buffers and the two output blocks hold after each grid point. The scratch buffers carry, across the
  eight points (2 phases × 4 column tiles) of one row block: the running row maximum, the running rescaled sum of the masked
  exponentials, that sum's logarithm, and the two accumulators of the second sweep (the masked clamped log-probabilities and
  the mask's row sums). Each control case of the body turns the state it finds into the next one; the state after point n is
  the fold of these steps over the points up to n. Which components are meaningful after a point depends only on its
  position in the row block: the maximum always, the running sum through the first sweep, the logarithm from the end of the
  first sweep on, the two accumulators through the second sweep.
-/
import proofs.«108923_j8598524526701_2_alg».proof.Proof.KI.RunA
import proofs.«108923_j8598524526701_2_alg».proof.Proof.KI.RunB
import proofs.«108923_j8598524526701_2_alg».proof.Proof.KI.RunC
import proofs.«108923_j8598524526701_2_alg».proof.Proof.KI.RunD
import proofs.«108923_j8598524526701_2_alg».proof.Proof.KI.RunE
import proofs.«108923_j8598524526701_2_alg».proof.Proof.KI.RunF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The windows' current staging memrefs at a point, as the pipeline passes them to the body, and the five scratch buffers. -/
abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8704x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8704 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x1 .f32 := win0_5.stage (cfg0.slots t 5)
abbrev hs5 (t : Fin cfg0.N) : (ms5 t).IsWhole := hstage0_5 ((cfg0.slots t 5).cast nbuf0_5)
abbrev sc9 : Memref sig .tc .vmem S256x1 .f32 := Memref.whole cc0_scratch0
abbrev sc10 : Memref sig .tc .vmem S256x1 .f32 := Memref.whole cc0_scratch1
abbrev sc11 : Memref sig .tc .vmem S256x1 .f32 := Memref.whole cc0_scratch2
abbrev sc12 : Memref sig .tc .vmem S256x1 .f32 := Memref.whole cc0_scratch3
abbrev sc13 : Memref sig .tc .vmem S256x1 .f32 := Memref.whole cc0_scratch4

/-- The carried state: running maximum, running sum, its logarithm, the two accumulators, and the two output blocks. -/
structure St (F : FTy → Type) where
  m : Vec F S256x1 .f32
  l : Vec F S256x1 .f32
  ld : Vec F S256x1 .f32
  nu : Vec F S256x1 .f32
  ms : Vec F S256x1 .f32
  o4 : Vec F S256x1 .f32
  o5 : Vec F S256x1 .f32

/-- A state nothing is known of (before the first point). -/
def St.none : St F :=
  ⟨View.canon [], View.canon [], View.canon [], View.canon [], View.canon [], View.canon [], View.canon []⟩

/-- The body's run at point `t` in case A, on the point's memrefs and input blocks. -/
def rA (c : Dev nD) (t : Fin cfg0.N) (h : t.val % 8 = 0) :=
  runA (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    ((hcond1 t).mpr (by omega)) (fun hc => absurd ((hcond2 t).mp hc) (by omega)) ((hcond3 t).mpr (by omega)) (fun hc => absurd ((hcond4 t).mp hc) (by omega)) (fun hc => absurd ((hcond5 t).mp hc) (by omega)) (fun hc => absurd ((hcond6 t).mp hc) (by omega))
    (iblk m c 0 t) (iblk m c 1 t) (iblk m c 2 t) (iblk m c 3 t)

/-- Case A's step of the state: the buffers it stores into at what its stores leave. -/
def stepA (c : Dev nD) (t : Fin cfg0.N) (h : t.val % 8 = 0) (s : St F) : St F :=
  { s with m := View.canon (rA m c t h).1, l := View.canon (rA m c t h).2.1 }

/-- The body's run at point `t` in case B, on the point's memrefs and input blocks and the state found. -/
def rB (c : Dev nD) (t : Fin cfg0.N) (h : t.val % 8 = 1 ∨ t.val % 8 = 2) (s : St F) :=
  runB (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    (fun hc => absurd ((hcond1 t).mp hc) (by omega)) (fun hc => absurd ((hcond2 t).mp hc) (by omega)) ((hcond3 t).mpr (by omega)) (fun hc => absurd ((hcond4 t).mp hc) (by omega)) (fun hc => absurd ((hcond5 t).mp hc) (by omega)) (fun hc => absurd ((hcond6 t).mp hc) (by omega))
    (iblk m c 0 t) (iblk m c 1 t) (iblk m c 2 t) (iblk m c 3 t) s.m s.l

/-- Case B's step of the state: the buffers it stores into at what its stores leave. -/
def stepB (c : Dev nD) (t : Fin cfg0.N) (h : t.val % 8 = 1 ∨ t.val % 8 = 2) (s : St F) : St F :=
  { s with m := View.canon (rB m c t h s).1, l := View.canon (rB m c t h s).2.1 }

/-- The body's run at point `t` in case C, on the point's memrefs and input blocks and the state found. -/
def rC (c : Dev nD) (t : Fin cfg0.N) (h : t.val % 8 = 3) (s : St F) :=
  runC (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    (fun hc => absurd ((hcond1 t).mp hc) (by omega)) (fun hc => absurd ((hcond2 t).mp hc) (by omega)) ((hcond3 t).mpr (by omega)) ((hcond4 t).mpr (by omega)) (fun hc => absurd ((hcond5 t).mp hc) (by omega)) (fun hc => absurd ((hcond6 t).mp hc) (by omega))
    (iblk m c 0 t) (iblk m c 1 t) (iblk m c 2 t) (iblk m c 3 t) s.m s.l

/-- Case C's step of the state: the buffers it stores into at what its stores leave. -/
def stepC (c : Dev nD) (t : Fin cfg0.N) (h : t.val % 8 = 3) (s : St F) : St F :=
  { s with m := View.canon (rC m c t h s).1, l := View.canon (rC m c t h s).2.1, ld := View.canon (rC m c t h s).2.2.1 }

/-- The body's run at point `t` in case D, on the point's memrefs and input blocks and the state found. -/
def rD (c : Dev nD) (t : Fin cfg0.N) (h : t.val % 8 = 4) (s : St F) :=
  runD (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    (fun hc => absurd ((hcond1 t).mp hc) (by omega)) ((hcond2 t).mpr (by omega)) (fun hc => absurd ((hcond3 t).mp hc) (by omega)) (fun hc => absurd ((hcond4 t).mp hc) (by omega)) ((hcond5 t).mpr (by omega)) (fun hc => absurd ((hcond6 t).mp hc) (by omega))
    (iblk m c 0 t) (iblk m c 1 t) (iblk m c 2 t) (iblk m c 3 t) s.m s.ld

/-- Case D's step of the state: the buffers it stores into at what its stores leave. -/
def stepD (c : Dev nD) (t : Fin cfg0.N) (h : t.val % 8 = 4) (s : St F) : St F :=
  { s with nu := View.canon (rD m c t h s).1, ms := View.canon (rD m c t h s).2.1 }

/-- The body's run at point `t` in case E, on the point's memrefs and input blocks and the state found. -/
def rE (c : Dev nD) (t : Fin cfg0.N) (h : t.val % 8 = 5 ∨ t.val % 8 = 6) (s : St F) :=
  runE (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    (fun hc => absurd ((hcond1 t).mp hc) (by omega)) (fun hc => absurd ((hcond2 t).mp hc) (by omega)) (fun hc => absurd ((hcond3 t).mp hc) (by omega)) (fun hc => absurd ((hcond4 t).mp hc) (by omega)) ((hcond5 t).mpr (by omega)) (fun hc => absurd ((hcond6 t).mp hc) (by omega))
    (iblk m c 0 t) (iblk m c 1 t) (iblk m c 2 t) (iblk m c 3 t) s.m s.ld s.nu s.ms

/-- Case E's step of the state: the buffers it stores into at what its stores leave. -/
def stepE (c : Dev nD) (t : Fin cfg0.N) (h : t.val % 8 = 5 ∨ t.val % 8 = 6) (s : St F) : St F :=
  { s with nu := View.canon (rE m c t h s).1, ms := View.canon (rE m c t h s).2.1 }

/-- The body's run at point `t` in case F, on the point's memrefs and input blocks and the state found. -/
def rF (c : Dev nD) (t : Fin cfg0.N) (h : t.val % 8 = 7) (s : St F) :=
  runF (F := F) c (grid0.coords t) (ms0 t) (hs0 t) (ms1 t) (hs1 t) (ms2 t) (hs2 t) (ms3 t) (hs3 t) (ms4 t) (hs4 t) (ms5 t) (hs5 t) sc9 (Memref.isWhole_whole _) sc10 (Memref.isWhole_whole _) sc11 (Memref.isWhole_whole _) sc12 (Memref.isWhole_whole _) sc13 (Memref.isWhole_whole _)
    (fun hc => absurd ((hcond1 t).mp hc) (by omega)) (fun hc => absurd ((hcond2 t).mp hc) (by omega)) (fun hc => absurd ((hcond3 t).mp hc) (by omega)) (fun hc => absurd ((hcond4 t).mp hc) (by omega)) ((hcond5 t).mpr (by omega)) ((hcond6 t).mpr (by omega))
    (iblk m c 0 t) (iblk m c 1 t) (iblk m c 2 t) (iblk m c 3 t) s.m s.ld s.nu s.ms

/-- Case F's step of the state: the buffers it stores into at what its stores leave. -/
def stepF (c : Dev nD) (t : Fin cfg0.N) (h : t.val % 8 = 7) (s : St F) : St F :=
  { s with nu := View.canon (rF m c t h s).1, ms := View.canon (rF m c t h s).2.1, o4 := View.canon (rF m c t h s).2.2.1, o5 := View.canon (rF m c t h s).2.2.2.1 }

/-- One point's step: the case its position in the row block selects. -/
def stepAt (c : Dev nD) (t : Fin cfg0.N) (s : St F) : St F :=
  if h0 : t.val % 8 = 0 then stepA m c t h0 s
  else if h1 : t.val % 8 = 1 ∨ t.val % 8 = 2 then stepB m c t h1 s
  else if h3 : t.val % 8 = 3 then stepC m c t h3 s
  else if h4 : t.val % 8 = 4 then stepD m c t h4 s
  else if h5 : t.val % 8 = 5 ∨ t.val % 8 = 6 then stepE m c t h5 s
  else stepF m c t (by omega) s

/-- The state after point `n`. -/
def stateAt (c : Dev nD) : (n : ℕ) → n < cfg0.N → St F
  | 0, hn => stepAt m c ⟨0, hn⟩ St.none
  | n + 1, hn => stepAt m c ⟨n + 1, hn⟩ (stateAt c n (Nat.lt_of_succ_lt hn))

theorem stateAt_pos (c : Dev nD) (t : Fin cfg0.N) (ht : t.val ≠ 0) :
    stateAt m c t.val t.isLt = stepAt m c t (stateAt m c (t.val - 1) (Nat.lt_of_le_of_lt (Nat.sub_le _ _) t.isLt)) := by
  obtain ⟨n, hn⟩ := t
  cases n with
  | zero => exact absurd rfl ht
  | succ n => rfl

theorem stateAt_zero (c : Dev nD) (t : Fin cfg0.N) (ht : t.val = 0) :
    stateAt m c t.val t.isLt = stepAt m c t St.none := by
  obtain ⟨n, hn⟩ := t
  cases n with
  | zero => rfl
  | succ n => exact absurd ht (Nat.succ_ne_zero n)

theorem stepAt_A (c : Dev nD) (t : Fin cfg0.N) (h : t.val % 8 = 0) (s : St F) : stepAt m c t s = stepA m c t h s := by
  unfold stepAt
  rw [dif_pos h]
theorem stepAt_B (c : Dev nD) (t : Fin cfg0.N) (h : t.val % 8 = 1 ∨ t.val % 8 = 2) (s : St F) : stepAt m c t s = stepB m c t h s := by
  unfold stepAt
  rw [dif_neg (by omega), dif_pos h]
theorem stepAt_C (c : Dev nD) (t : Fin cfg0.N) (h : t.val % 8 = 3) (s : St F) : stepAt m c t s = stepC m c t h s := by
  unfold stepAt
  rw [dif_neg (by omega), dif_neg (by omega), dif_pos h]
theorem stepAt_D (c : Dev nD) (t : Fin cfg0.N) (h : t.val % 8 = 4) (s : St F) : stepAt m c t s = stepD m c t h s := by
  unfold stepAt
  rw [dif_neg (by omega), dif_neg (by omega), dif_neg (by omega), dif_pos h]
theorem stepAt_E (c : Dev nD) (t : Fin cfg0.N) (h : t.val % 8 = 5 ∨ t.val % 8 = 6) (s : St F) : stepAt m c t s = stepE m c t h s := by
  unfold stepAt
  rw [dif_neg (by omega), dif_neg (by omega), dif_neg (by omega), dif_neg (by omega), dif_pos h]
theorem stepAt_F (c : Dev nD) (t : Fin cfg0.N) (h : t.val % 8 = 7) (s : St F) : stepAt m c t s = stepF m c t h s := by
  unfold stepAt
  rw [dif_neg (by omega), dif_neg (by omega), dif_neg (by omega), dif_neg (by omega), dif_neg (by omega)]

end Cert.KernelIdeal.Body

end
-- ==== Proof.KI.Cover.lean ====
/-
  The stores of each control case cover the buffers they write: every buffer a case stores into is stored whole, so what the
  stores leave does not depend on what the buffer held before.
-/
import proofs.«108923_j8598524526701_2_alg».proof.Proof.KI.RunA
import proofs.«108923_j8598524526701_2_alg».proof.Proof.KI.RunB
import proofs.«108923_j8598524526701_2_alg».proof.Proof.KI.RunC
import proofs.«108923_j8598524526701_2_alg».proof.Proof.KI.RunD
import proofs.«108923_j8598524526701_2_alg».proof.Proof.KI.RunE
import proofs.«108923_j8598524526701_2_alg».proof.Proof.KI.RunF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem coverA9 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
     (y : S256x1.Idx) :
    ∃ p ∈ (runA (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6).1, y ∈ p.1.set :=
  View.cover_of_tiledL _ S256x1.size (by sl_kernel_rfl) y

theorem coverA10 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
     (y : S256x1.Idx) :
    ∃ p ∈ (runA (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6).2.1, y ∈ p.1.set :=
  View.cover_of_tiledL _ S256x1.size (by sl_kernel_rfl) y

theorem coverB9 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) (y : S256x1.Idx) :
    ∃ p ∈ (runB (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).1, y ∈ p.1.set :=
  View.cover_of_tiledL _ S256x1.size (by sl_kernel_rfl) y

theorem coverB10 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) (y : S256x1.Idx) :
    ∃ p ∈ (runB (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).2.1, y ∈ p.1.set :=
  View.cover_of_tiledL _ S256x1.size (by sl_kernel_rfl) y

theorem coverC9 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) (y : S256x1.Idx) :
    ∃ p ∈ (runC (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).1, y ∈ p.1.set :=
  View.cover_of_tiledL _ S256x1.size (by sl_kernel_rfl) y

theorem coverC10 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) (y : S256x1.Idx) :
    ∃ p ∈ (runC (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).2.1, y ∈ p.1.set :=
  View.cover_of_tiledL _ S256x1.size (by sl_kernel_rfl) y

theorem coverC11 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) (y : S256x1.Idx) :
    ∃ p ∈ (runC (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).2.2.1, y ∈ p.1.set :=
  View.cover_of_tiledL _ S256x1.size (by sl_kernel_rfl) y

theorem coverD12 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 : Vec F S256x1 .f32) (y : S256x1.Idx) :
    ∃ p ∈ (runD (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11).1, y ∈ p.1.set :=
  View.cover_of_tiledL _ S256x1.size (by sl_kernel_rfl) y

theorem coverD13 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 : Vec F S256x1 .f32) (y : S256x1.Idx) :
    ∃ p ∈ (runD (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11).2.1, y ∈ p.1.set :=
  View.cover_of_tiledL _ S256x1.size (by sl_kernel_rfl) y

theorem coverE12 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runE (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).1, y ∈ p.1.set :=
  View.cover_of_tiledL _ S256x1.size (by sl_kernel_rfl) y

theorem coverE13 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runE (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.1, y ∈ p.1.set :=
  View.cover_of_tiledL _ S256x1.size (by sl_kernel_rfl) y

theorem coverF12 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).1, y ∈ p.1.set :=
  View.cover_of_tiledL _ S256x1.size (by sl_kernel_rfl) y

theorem coverF13 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.1, y ∈ p.1.set :=
  View.cover_of_tiledL _ S256x1.size (by sl_kernel_rfl) y

theorem coverF7 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.2.1, y ∈ p.1.set :=
  View.cover_of_tiledL _ S256x1.size (by sl_kernel_rfl) y

theorem coverF8 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) (y : S256x1.Idx) :
    ∃ p ∈ (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.2.2.1, y ∈ p.1.set :=
  View.cover_of_tiledL _ S256x1.size (by sl_kernel_rfl) y

end Cert.KernelIdeal.Body

end
-- ==== Proof.KI.Frame.lean ====
/-
  The frame of the program from the six symbolic runs of its body: the region's invariant between grid points (which scratch
  buffers are held at named contents — the state of State.lean — and which at anything), the proof data of the pipeline, the
  body obligation at a generic point by cases on the point's position in its row block, and the run of @main.
-/
import proofs.«108923_j8598524526701_2_alg».proof.Proof.KI.State
import proofs.«108923_j8598524526701_2_alg».proof.Proof.KI.Cover

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A scratch buffer held at named contents when `b`, at anything otherwise. -/
def kn (c : Dev nD) (b : Prop) [Decidable b] (mr : Memref sig .tc .vmem S256x1 .f32) (v : Vec F S256x1 .f32) : sProp 𝕄 :=
  if b then owns (c : Thread nD τ) mr fullShare v else iprop((∃ d, owns (c : Thread nD τ) mr fullShare d))

theorem kn_pos (c : Dev nD) {b : Prop} [Decidable b] (h : b) (mr : Memref sig .tc .vmem S256x1 .f32) (v : Vec F S256x1 .f32) :
    kn c b mr v = owns (c : Thread nD τ) mr fullShare v := if_pos h
theorem kn_neg (c : Dev nD) {b : Prop} [Decidable b] (h : ¬b) (mr : Memref sig .tc .vmem S256x1 .f32) (v : Vec F S256x1 .f32) :
    kn c b mr v = iprop((∃ d, owns (c : Thread nD τ) mr fullShare d)) := if_neg h
theorem kn_weak (c : Dev nD) (b : Prop) [Decidable b] (mr : Memref sig .tc .vmem S256x1 .f32) (v : Vec F S256x1 .f32) :
    kn c b mr v ⊢ iprop((∃ d, owns (c : Thread nD τ) mr fullShare d)) := by
  unfold kn; split
  · iintro H; iexists _; iexact H
  · exact Idealize.SL.BI.Entails.refl _

/-- The class's invariant with the five scratch buffers as memrefs, each owned at some contents. -/
theorem PhiA0_eq (c : Dev nD) :
    (Pipeline.ΦA spec0 c : sProp 𝕄)
      = iprop(iprop((∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d)) ∗ (∃ r, prngReg c r)) := by
  unfold Pipeline.ΦA; rw [scopedRest0_eq]; simp only [sc9, sc10, sc11, sc12, sc13, owns_whole]; try rfl

/-- The invariant after point `n` at state `s`: the running maximum always named; the running sum through the first sweep
    (positions 0–3 of the row block); its logarithm from position 3 on; the two accumulators from position 4 on. -/
def PhiAfter (c : Dev nD) (n : ℕ) (s : St F) : sProp 𝕄 :=
  iprop(iprop(owns (c : Thread nD τ) sc9 fullShare s.m ∗ kn c (n % 8 ≤ 3) sc10 s.l ∗ kn c (3 ≤ n % 8) sc11 s.ld ∗ kn c (4 ≤ n % 8) sc12 s.nu ∗ kn c (4 ≤ n % 8) sc13 s.ms) ∗ (∃ r, prngReg c r))

/-- The region's invariant before position `n`. -/
def PhiS (c : Dev nD) : (n : ℕ) → n ≤ cfg0.N → sProp 𝕄
  | 0, _ => Pipeline.ΦA spec0 c
  | n + 1, hn => PhiAfter c n (stateAt m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = PhiAfter c n (stateAt m c n hn) := rfl
theorem PhiS_pos (c : Dev nD) (n : ℕ) (h : n ≤ cfg0.N) (hz : n ≠ 0) :
    PhiS m c n h = PhiAfter c (n - 1) (stateAt m c (n - 1) (by omega)) := by
  cases n with
  | zero => exact absurd rfl hz
  | succ n => rfl

/-- The proof data: the arrays as the region finds them; each input's buffer at its block; the two outputs' at the state's
    output components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t.val t.isLt).o4
    | ⟨5, _⟩ => (stateAt m c t.val t.isLt).o5
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (stateAt m c t.val t.isLt).o4 := by dsimp only [dats]
theorem after0_5 (c : Dev nD) (t : Fin cfg0.N) : (dats m 0 c).after 5 t = (stateAt m c t.val t.isLt).o5 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ### What each step leaves, component by component -/

theorem stepA_m (c : Dev nD) (t : Fin cfg0.N) (h : t.val % 8 = 0) (s : St F) : (stepA m c t h s).m = View.canon (rA m c t h).1 := rfl
theorem stepA_l (c : Dev nD) (t : Fin cfg0.N) (h : t.val % 8 = 0) (s : St F) : (stepA m c t h s).l = View.canon (rA m c t h).2.1 := rfl
theorem stepA_ld (c : Dev nD) (t : Fin cfg0.N) (h : t.val % 8 = 0) (s : St F) : (stepA m c t h s).ld = s.ld := rfl
theorem stepA_nu (c : Dev nD) (t : Fin cfg0.N) (h : t.val % 8 = 0) (s : St F) : (stepA m c t h s).nu = s.nu := rfl
theorem stepA_ms (c : Dev nD) (t : Fin cfg0.N) (h : t.val % 8 = 0) (s : St F) : (stepA m c t h s).ms = s.ms := rfl
theorem stepA_o4 (c : Dev nD) (t : Fin cfg0.N) (h : t.val % 8 = 0) (s : St F) : (stepA m c t h s).o4 = s.o4 := rfl
theorem stepA_o5 (c : Dev nD) (t : Fin cfg0.N) (h : t.val % 8 = 0) (s : St F) : (stepA m c t h s).o5 = s.o5 := rfl

theorem stepB_m (c : Dev nD) (t : Fin cfg0.N) (h : t.val % 8 = 1 ∨ t.val % 8 = 2) (s : St F) : (stepB m c t h s).m = View.canon (rB m c t h s).1 := rfl
theorem stepB_l (c : Dev nD) (t : Fin cfg0.N) (h : t.val % 8 = 1 ∨ t.val % 8 = 2) (s : St F) : (stepB m c t h s).l = View.canon (rB m c t h s).2.1 := rfl
theorem stepB_ld (c : Dev nD) (t : Fin cfg0.N) (h : t.val % 8 = 1 ∨ t.val % 8 = 2) (s : St F) : (stepB m c t h s).ld = s.ld := rfl
theorem stepB_nu (c : Dev nD) (t : Fin cfg0.N) (h : t.val % 8 = 1 ∨ t.val % 8 = 2) (s : St F) : (stepB m c t h s).nu = s.nu := rfl
theorem stepB_ms (c : Dev nD) (t : Fin cfg0.N) (h : t.val % 8 = 1 ∨ t.val % 8 = 2) (s : St F) : (stepB m c t h s).ms = s.ms := rfl
theorem stepB_o4 (c : Dev nD) (t : Fin cfg0.N) (h : t.val % 8 = 1 ∨ t.val % 8 = 2) (s : St F) : (stepB m c t h s).o4 = s.o4 := rfl
theorem stepB_o5 (c : Dev nD) (t : Fin cfg0.N) (h : t.val % 8 = 1 ∨ t.val % 8 = 2) (s : St F) : (stepB m c t h s).o5 = s.o5 := rfl

theorem stepC_m (c : Dev nD) (t : Fin cfg0.N) (h : t.val % 8 = 3) (s : St F) : (stepC m c t h s).m = View.canon (rC m c t h s).1 := rfl
theorem stepC_l (c : Dev nD) (t : Fin cfg0.N) (h : t.val % 8 = 3) (s : St F) : (stepC m c t h s).l = View.canon (rC m c t h s).2.1 := rfl
theorem stepC_ld (c : Dev nD) (t : Fin cfg0.N) (h : t.val % 8 = 3) (s : St F) : (stepC m c t h s).ld = View.canon (rC m c t h s).2.2.1 := rfl
theorem stepC_nu (c : Dev nD) (t : Fin cfg0.N) (h : t.val % 8 = 3) (s : St F) : (stepC m c t h s).nu = s.nu := rfl
theorem stepC_ms (c : Dev nD) (t : Fin cfg0.N) (h : t.val % 8 = 3) (s : St F) : (stepC m c t h s).ms = s.ms := rfl
theorem stepC_o4 (c : Dev nD) (t : Fin cfg0.N) (h : t.val % 8 = 3) (s : St F) : (stepC m c t h s).o4 = s.o4 := rfl
theorem stepC_o5 (c : Dev nD) (t : Fin cfg0.N) (h : t.val % 8 = 3) (s : St F) : (stepC m c t h s).o5 = s.o5 := rfl

theorem stepD_m (c : Dev nD) (t : Fin cfg0.N) (h : t.val % 8 = 4) (s : St F) : (stepD m c t h s).m = s.m := rfl
theorem stepD_l (c : Dev nD) (t : Fin cfg0.N) (h : t.val % 8 = 4) (s : St F) : (stepD m c t h s).l = s.l := rfl
theorem stepD_ld (c : Dev nD) (t : Fin cfg0.N) (h : t.val % 8 = 4) (s : St F) : (stepD m c t h s).ld = s.ld := rfl
theorem stepD_nu (c : Dev nD) (t : Fin cfg0.N) (h : t.val % 8 = 4) (s : St F) : (stepD m c t h s).nu = View.canon (rD m c t h s).1 := rfl
theorem stepD_ms (c : Dev nD) (t : Fin cfg0.N) (h : t.val % 8 = 4) (s : St F) : (stepD m c t h s).ms = View.canon (rD m c t h s).2.1 := rfl
theorem stepD_o4 (c : Dev nD) (t : Fin cfg0.N) (h : t.val % 8 = 4) (s : St F) : (stepD m c t h s).o4 = s.o4 := rfl
theorem stepD_o5 (c : Dev nD) (t : Fin cfg0.N) (h : t.val % 8 = 4) (s : St F) : (stepD m c t h s).o5 = s.o5 := rfl

theorem stepE_m (c : Dev nD) (t : Fin cfg0.N) (h : t.val % 8 = 5 ∨ t.val % 8 = 6) (s : St F) : (stepE m c t h s).m = s.m := rfl
theorem stepE_l (c : Dev nD) (t : Fin cfg0.N) (h : t.val % 8 = 5 ∨ t.val % 8 = 6) (s : St F) : (stepE m c t h s).l = s.l := rfl
theorem stepE_ld (c : Dev nD) (t : Fin cfg0.N) (h : t.val % 8 = 5 ∨ t.val % 8 = 6) (s : St F) : (stepE m c t h s).ld = s.ld := rfl
theorem stepE_nu (c : Dev nD) (t : Fin cfg0.N) (h : t.val % 8 = 5 ∨ t.val % 8 = 6) (s : St F) : (stepE m c t h s).nu = View.canon (rE m c t h s).1 := rfl
theorem stepE_ms (c : Dev nD) (t : Fin cfg0.N) (h : t.val % 8 = 5 ∨ t.val % 8 = 6) (s : St F) : (stepE m c t h s).ms = View.canon (rE m c t h s).2.1 := rfl
theorem stepE_o4 (c : Dev nD) (t : Fin cfg0.N) (h : t.val % 8 = 5 ∨ t.val % 8 = 6) (s : St F) : (stepE m c t h s).o4 = s.o4 := rfl
theorem stepE_o5 (c : Dev nD) (t : Fin cfg0.N) (h : t.val % 8 = 5 ∨ t.val % 8 = 6) (s : St F) : (stepE m c t h s).o5 = s.o5 := rfl

theorem stepF_m (c : Dev nD) (t : Fin cfg0.N) (h : t.val % 8 = 7) (s : St F) : (stepF m c t h s).m = s.m := rfl
theorem stepF_l (c : Dev nD) (t : Fin cfg0.N) (h : t.val % 8 = 7) (s : St F) : (stepF m c t h s).l = s.l := rfl
theorem stepF_ld (c : Dev nD) (t : Fin cfg0.N) (h : t.val % 8 = 7) (s : St F) : (stepF m c t h s).ld = s.ld := rfl
theorem stepF_nu (c : Dev nD) (t : Fin cfg0.N) (h : t.val % 8 = 7) (s : St F) : (stepF m c t h s).nu = View.canon (rF m c t h s).1 := rfl
theorem stepF_ms (c : Dev nD) (t : Fin cfg0.N) (h : t.val % 8 = 7) (s : St F) : (stepF m c t h s).ms = View.canon (rF m c t h s).2.1 := rfl
theorem stepF_o4 (c : Dev nD) (t : Fin cfg0.N) (h : t.val % 8 = 7) (s : St F) : (stepF m c t h s).o4 = View.canon (rF m c t h s).2.2.1 := rfl
theorem stepF_o5 (c : Dev nD) (t : Fin cfg0.N) (h : t.val % 8 = 7) (s : St F) : (stepF m c t h s).o5 = View.canon (rF m c t h s).2.2.2.1 := rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 2000000 in
/-- The body at a point of case A that is the grid's first point. -/
theorem sound_A0 (c : Dev nD) (t : Fin cfg0.N) (h : t.val % 8 = 0) (hz : t.val = 0) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_zero m c _ _ hz, PhiA0_eq]
  rw [stateAt_zero m c t hz, stepAt_A m c t h]
  unfold PhiAfter
  have e1 : t.val % 8 ≤ 3 := by omega
  have e2 : ¬ 3 ≤ t.val % 8 := by omega
  have e3 : ¬ 4 ≤ t.val % 8 := by omega
  simp only [kn, if_pos e1, if_neg e2, if_neg e3, stepA_m, stepA_l, stepA_ld, stepA_nu, stepA_ms, stepA_o4, stepA_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rA m c t h).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexact HS9
  isplitl [HS10]; · iexact HS10
  isplitl [HS11]; · iexact HS11
  isplitl [HS12]; · iexact HS12
  isplitl [HS13]; · iexact HS13
  iintro ⟨H0, H1, H2, H3, H4, H5, ⟨%e9, HS9⟩, ⟨%e10, HS10⟩, HS11, HS12, HS13⟩
  isplitl [HS9 HS10 HS11 HS12 HS13 Hg]
  · isplitl [HS9 HS10 HS11 HS12 HS13]
    · isplitl [HS9]
      · unfold owns; iexists _; isplitr
        swap; · iexact HS9
        ipureintro; exact View.read_writes_eq_canon _ _ _ (coverA9 (F := F) c _ _ _ _ _ _ _ _ _ _ _ _ _ _ _ _ _ _ _ _ _ _ _ _ _ _ _ _ _ _ _ _ _)
      isplitl [HS10]
      · unfold owns; iexists _; isplitr
        swap; · iexact HS10
        ipureintro; exact View.read_writes_eq_canon _ _ _ (coverA10 (F := F) c _ _ _ _ _ _ _ _ _ _ _ _ _ _ _ _ _ _ _ _ _ _ _ _ _ _ _ _ _ _ _ _ _)
      isplitl [HS11]
      · iexact HS11
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case A after the first point. -/
theorem sound_A (c : Dev nD) (t : Fin cfg0.N) (h : t.val % 8 = 0) (hz : t.val ≠ 0) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_pos m c _ _ hz]
  rw [stateAt_pos m c t hz, stepAt_A m c t h]
  unfold PhiAfter
  have e1' : ¬ (t.val - 1) % 8 ≤ 3 := by omega
  have e2' : 3 ≤ (t.val - 1) % 8 := by omega
  have e3' : 4 ≤ (t.val - 1) % 8 := by omega
  have e1 : t.val % 8 ≤ 3 := by omega
  have e2 : ¬ 3 ≤ t.val % 8 := by omega
  have e3 : ¬ 4 ≤ t.val % 8 := by omega
  simp only [kn, if_neg e1', if_pos e2', if_pos e3', if_pos e1, if_neg e2, if_neg e3, stepA_m, stepA_l, stepA_ld, stepA_nu, stepA_ms, stepA_o4, stepA_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rA m c t h).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexists _; iexact HS9
  isplitl [HS10]; · iexact HS10
  isplitl [HS11]; · iexists _; iexact HS11
  isplitl [HS12]; · iexists _; iexact HS12
  isplitl [HS13]; · iexists _; iexact HS13
  iintro ⟨H0, H1, H2, H3, H4, H5, ⟨%e9, HS9⟩, ⟨%e10, HS10⟩, HS11, HS12, HS13⟩
  isplitl [HS9 HS10 HS11 HS12 HS13 Hg]
  · isplitl [HS9 HS10 HS11 HS12 HS13]
    · isplitl [HS9]
      · unfold owns; iexists _; isplitr
        swap; · iexact HS9
        ipureintro; exact View.read_writes_eq_canon _ _ _ (coverA9 (F := F) c _ _ _ _ _ _ _ _ _ _ _ _ _ _ _ _ _ _ _ _ _ _ _ _ _ _ _ _ _ _ _ _ _)
      isplitl [HS10]
      · unfold owns; iexists _; isplitr
        swap; · iexact HS10
        ipureintro; exact View.read_writes_eq_canon _ _ _ (coverA10 (F := F) c _ _ _ _ _ _ _ _ _ _ _ _ _ _ _ _ _ _ _ _ _ _ _ _ _ _ _ _ _ _ _ _ _)
      isplitl [HS11]
      · iexact HS11
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case B. -/
theorem sound_B (c : Dev nD) (t : Fin cfg0.N) (h : t.val % 8 = 1 ∨ t.val % 8 = 2) :
    bodyPre m c t ⊢ wp frame (wpE (defs₀ (F := F)) Variants.none c none) Set.univ (bodyAt0 t) (fun _ => bodyPost m c t) := by
  have hz : t.val ≠ 0 := by omega
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_pos m c _ _ hz]
  rw [stateAt_pos m c t hz, stepAt_B m c t h]
  unfold PhiAfter
  have e1' : (t.val - 1) % 8 ≤ 3 := by omega
  have e2' : ¬ 3 ≤ (t.val - 1) % 8 := by omega
  have e3' : ¬ 4 ≤ (t.val - 1) % 8 := by omega
  have e1 : t.val % 8 ≤ 3 := by omega
  have e2 : ¬ 3 ≤ t.val % 8 := by omega
  have e3 : ¬ 4 ≤ t.val % 8 := by omega
  simp only [kn, if_pos e1', if_neg e2', if_neg e3', if_pos e1, if_neg e2, if_neg e3, stepB_m, stepB_l, stepB_ld, stepB_nu, stepB_ms, stepB_o4, stepB_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rB m c t h (stateAt m c (t.val - 1) (Nat.lt_of_le_of_lt (Nat.sub_le _ _) t.isLt))).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexact HS9
  isplitl [HS10]; · iexact HS10
  isplitl [HS11]; · iexact HS11
  isplitl [HS12]; · iexact HS12
  isplitl [HS13]; · iexact HS13
  iintro ⟨H0, H1, H2, H3, H4, H5, ⟨%e9, HS9⟩, ⟨%e10, HS10⟩, HS11, HS12, HS13⟩
  isplitl [HS9 HS10 HS11 HS12 HS13 Hg]
  · isplitl [HS9 HS10 HS11 HS12 HS13]
    · isplitl [HS9]
      · unfold owns; iexists _; isplitr
        swap; · iexact HS9
        ipureintro; exact View.read_writes_eq_canon _ _ _ (coverB9 (F := F) c _ _ _ _ _ _ _ _ _ _ _ _ _ _ _ _ _ _ _ _ _ _ _ _ _ _ _ _ _ _ _ _ _ _ _)
      isplitl [HS10]
      · unfold owns; iexists _; isplitr
        swap; · iexact HS10
        ipureintro; exact View.read_writes_eq_canon _ _ _ (coverB10 (F := F) c _ _ _ _ _ _ _ _ _ _ _ _ _ _ _ _ _ _ _ _ _ _ _ _ _ _ _ _ _ _ _ _ _ _ _)
      isplitl [HS11]
      · iexact HS11
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case C. -/
theorem sound_C (c : Dev nD) (t : Fin cfg0.N) (h : t.val % 8 = 3) :
    bodyPre m c t ⊢ wp frame (wpE (defs₀ (F := F)) Variants.none c none) Set.univ (bodyAt0 t) (fun _ => bodyPost m c t) := by
  have hz : t.val ≠ 0 := by omega
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_pos m c _ _ hz]
  rw [stateAt_pos m c t hz, stepAt_C m c t h]
  unfold PhiAfter
  have e1' : (t.val - 1) % 8 ≤ 3 := by omega
  have e2' : ¬ 3 ≤ (t.val - 1) % 8 := by omega
  have e3' : ¬ 4 ≤ (t.val - 1) % 8 := by omega
  have e1 : t.val % 8 ≤ 3 := by omega
  have e2 : 3 ≤ t.val % 8 := by omega
  have e3 : ¬ 4 ≤ t.val % 8 := by omega
  simp only [kn, if_pos e1', if_neg e2', if_neg e3', if_pos e1, if_pos e2, if_neg e3, stepC_m, stepC_l, stepC_ld, stepC_nu, stepC_ms, stepC_o4, stepC_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rC m c t h (stateAt m c (t.val - 1) (Nat.lt_of_le_of_lt (Nat.sub_le _ _) t.isLt))).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexact HS9
  isplitl [HS10]; · iexact HS10
  isplitl [HS11]; · iexact HS11
  isplitl [HS12]; · iexact HS12
  isplitl [HS13]; · iexact HS13
  iintro ⟨H0, H1, H2, H3, H4, H5, ⟨%e9, HS9⟩, ⟨%e10, HS10⟩, ⟨%e11, HS11⟩, HS12, HS13⟩
  isplitl [HS9 HS10 HS11 HS12 HS13 Hg]
  · isplitl [HS9 HS10 HS11 HS12 HS13]
    · isplitl [HS9]
      · unfold owns; iexists _; isplitr
        swap; · iexact HS9
        ipureintro; exact View.read_writes_eq_canon _ _ _ (coverC9 (F := F) c _ _ _ _ _ _ _ _ _ _ _ _ _ _ _ _ _ _ _ _ _ _ _ _ _ _ _ _ _ _ _ _ _ _ _)
      isplitl [HS10]
      · unfold owns; iexists _; isplitr
        swap; · iexact HS10
        ipureintro; exact View.read_writes_eq_canon _ _ _ (coverC10 (F := F) c _ _ _ _ _ _ _ _ _ _ _ _ _ _ _ _ _ _ _ _ _ _ _ _ _ _ _ _ _ _ _ _ _ _ _)
      isplitl [HS11]
      · unfold owns; iexists _; isplitr
        swap; · iexact HS11
        ipureintro; exact View.read_writes_eq_canon _ _ _ (coverC11 (F := F) c _ _ _ _ _ _ _ _ _ _ _ _ _ _ _ _ _ _ _ _ _ _ _ _ _ _ _ _ _ _ _ _ _ _ _)
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case D. -/
theorem sound_D (c : Dev nD) (t : Fin cfg0.N) (h : t.val % 8 = 4) :
    bodyPre m c t ⊢ wp frame (wpE (defs₀ (F := F)) Variants.none c none) Set.univ (bodyAt0 t) (fun _ => bodyPost m c t) := by
  have hz : t.val ≠ 0 := by omega
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_pos m c _ _ hz]
  rw [stateAt_pos m c t hz, stepAt_D m c t h]
  unfold PhiAfter
  have e1' : (t.val - 1) % 8 ≤ 3 := by omega
  have e2' : 3 ≤ (t.val - 1) % 8 := by omega
  have e3' : ¬ 4 ≤ (t.val - 1) % 8 := by omega
  have e1 : ¬ t.val % 8 ≤ 3 := by omega
  have e2 : 3 ≤ t.val % 8 := by omega
  have e3 : 4 ≤ t.val % 8 := by omega
  simp only [kn, if_pos e1', if_pos e2', if_neg e3', if_neg e1, if_pos e2, if_pos e3, stepD_m, stepD_l, stepD_ld, stepD_nu, stepD_ms, stepD_o4, stepD_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rD m c t h (stateAt m c (t.val - 1) (Nat.lt_of_le_of_lt (Nat.sub_le _ _) t.isLt))).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexact HS9
  isplitl [HS10]; · iexists _; iexact HS10
  isplitl [HS11]; · iexact HS11
  isplitl [HS12]; · iexact HS12
  isplitl [HS13]; · iexact HS13
  iintro ⟨H0, H1, H2, H3, H4, H5, HS9, HS10, HS11, ⟨%e12, HS12⟩, ⟨%e13, HS13⟩⟩
  isplitl [HS9 HS10 HS11 HS12 HS13 Hg]
  · isplitl [HS9 HS10 HS11 HS12 HS13]
    · isplitl [HS9]
      · iexact HS9
      isplitl [HS10]
      · iexact HS10
      isplitl [HS11]
      · iexact HS11
      isplitl [HS12]
      · unfold owns; iexists _; isplitr
        swap; · iexact HS12
        ipureintro; exact View.read_writes_eq_canon _ _ _ (coverD12 (F := F) c _ _ _ _ _ _ _ _ _ _ _ _ _ _ _ _ _ _ _ _ _ _ _ _ _ _ _ _ _ _ _ _ _ _ _)
      · unfold owns; iexists _; isplitr
        swap; · iexact HS13
        ipureintro; exact View.read_writes_eq_canon _ _ _ (coverD13 (F := F) c _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case E. -/
theorem sound_E (c : Dev nD) (t : Fin cfg0.N) (h : t.val % 8 = 5 ∨ t.val % 8 = 6) :
    bodyPre m c t ⊢ wp frame (wpE (defs₀ (F := F)) Variants.none c none) Set.univ (bodyAt0 t) (fun _ => bodyPost m c t) := by
  have hz : t.val ≠ 0 := by omega
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [Dat.leavesExact_idle (dats m 0 c) 4 t ((idle4 t).mpr (by omega)) (by rw [← Bool.not_eq_true]; exact fun hf => absurd ((flush0_4 t).mp hf) (by omega))]
  rw [Dat.leavesExact_idle (dats m 0 c) 5 t ((idle5 t).mpr (by omega)) (by rw [← Bool.not_eq_true]; exact fun hf => absurd ((flush0_5 t).mp hf) (by omega))]
  rw [PhiS_castSucc m c t, PhiS_pos m c _ _ hz]
  rw [stateAt_pos m c t hz, stepAt_E m c t h]
  unfold PhiAfter
  have e1' : ¬ (t.val - 1) % 8 ≤ 3 := by omega
  have e2' : 3 ≤ (t.val - 1) % 8 := by omega
  have e3' : 4 ≤ (t.val - 1) % 8 := by omega
  have e1 : ¬ t.val % 8 ≤ 3 := by omega
  have e2 : 3 ≤ t.val % 8 := by omega
  have e3 : 4 ≤ t.val % 8 := by omega
  simp only [kn, if_neg e1', if_pos e2', if_pos e3', if_neg e1, if_pos e2, if_pos e3, stepE_m, stepE_l, stepE_ld, stepE_nu, stepE_ms, stepE_o4, stepE_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rE m c t h (stateAt m c (t.val - 1) (Nat.lt_of_le_of_lt (Nat.sub_le _ _) t.isLt))).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS9]; · iexact HS9
  isplitl [HS10]; · iexact HS10
  isplitl [HS11]; · iexact HS11
  isplitl [HS12]; · iexact HS12
  isplitl [HS13]; · iexact HS13
  iintro ⟨H0, H1, H2, H3, H4, H5, HS9, HS10, HS11, ⟨%e12, HS12⟩, ⟨%e13, HS13⟩⟩
  isplitl [HS9 HS10 HS11 HS12 HS13 Hg]
  · isplitl [HS9 HS10 HS11 HS12 HS13]
    · isplitl [HS9]
      · iexact HS9
      isplitl [HS10]
      · iexact HS10
      isplitl [HS11]
      · iexact HS11
      isplitl [HS12]
      · unfold owns; iexists _; isplitr
        swap; · iexact HS12
        ipureintro; exact View.read_writes_eq_canon _ _ _ (coverE12 (F := F) c _ _ _ _ _ _ _ _ _ _ _ _ _ _ _ _ _ _ _ _ _ _ _ _ _ _ _ _ _ _ _ _ _ _ _ _ _)
      · unfold owns; iexists _; isplitr
        swap; · iexact HS13
        ipureintro; exact View.read_writes_eq_canon _ _ _ (coverE13 (F := F) c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The body at a point of case F. -/
theorem sound_F (c : Dev nD) (t : Fin cfg0.N) (h : t.val % 8 = 7) :
    bodyPre m c t ⊢ wp frame (wpE (defs₀ (F := F)) Variants.none c none) Set.univ (bodyAt0 t) (fun _ => bodyPost m c t) := by
  have hz : t.val ≠ 0 := by omega
  have hN : t.val < 136 := lt_of_lt_of_eq t.isLt (show cfg0.N = 136 from N_0)
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [show (dats m 0 c).leavesExact 4 t = owns (c : Thread nD τ) (ms4 t) fullShare ((dats m 0 c).after 4 t) from by
    unfold Dat.leavesExact; rw [show cfg0.idle 4 (grid0.coords t) = false from by
      rw [← Bool.not_eq_true]; exact fun hi => absurd ((idle4 t).mp hi) (by omega)], after0_4]
  rw [show (dats m 0 c).leavesExact 5 t = owns (c : Thread nD τ) (ms5 t) fullShare ((dats m 0 c).after 5 t) from by
    unfold Dat.leavesExact; rw [show cfg0.idle 5 (grid0.coords t) = false from by
      rw [← Bool.not_eq_true]; exact fun hi => absurd ((idle5 t).mp hi) (by omega)], after0_5]
  rw [PhiS_castSucc m c t, PhiS_pos m c _ _ hz]
  rw [stateAt_pos m c t hz, stepAt_F m c t h]
  unfold PhiAfter
  have e1' : ¬ (t.val - 1) % 8 ≤ 3 := by omega
  have e2' : 3 ≤ (t.val - 1) % 8 := by omega
  have e3' : 4 ≤ (t.val - 1) % 8 := by omega
  have e1 : ¬ t.val % 8 ≤ 3 := by omega
  have e2 : 3 ≤ t.val % 8 := by omega
  have e3 : 4 ≤ t.val % 8 := by omega
  simp only [kn, if_neg e1', if_pos e2', if_pos e3', if_neg e1, if_pos e2, if_pos e3, stepF_m, stepF_l, stepF_ld, stepF_nu, stepF_ms, stepF_o4, stepF_o5]
  iintro ⟨⟨⟨HS9, HS10, HS11, HS12, HS13⟩, Hg⟩, Ho, ⟨%d0, H0⟩, ⟨%d1, H1⟩, ⟨%d2, H2⟩, ⟨%d3, H3⟩, ⟨%d4, H4⟩, ⟨%d5, H5⟩⟩
  iapply ((rF m c t h (stateAt m c (t.val - 1) (Nat.lt_of_le_of_lt (Nat.sub_le _ _) t.isLt))).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS9]; · iexact HS9
  isplitl [HS10]; · iexact HS10
  isplitl [HS11]; · iexact HS11
  isplitl [HS12]; · iexact HS12
  isplitl [HS13]; · iexact HS13
  iintro ⟨H0, H1, H2, H3, ⟨%e7, H4⟩, ⟨%e8, H5⟩, HS9, HS10, HS11, ⟨%e12, HS12⟩, ⟨%e13, HS13⟩⟩
  isplitl [HS9 HS10 HS11 HS12 HS13 Hg]
  · isplitl [HS9 HS10 HS11 HS12 HS13]
    · isplitl [HS9]
      · iexact HS9
      isplitl [HS10]
      · iexact HS10
      isplitl [HS11]
      · iexact HS11
      isplitl [HS12]
      · unfold owns; iexists _; isplitr
        swap; · iexact HS12
        ipureintro; exact View.read_writes_eq_canon _ _ _ (coverF12 (F := F) c _ _ _ _ _ _ _ _ _ _ _ _ _ _ _ _ _ _ _ _ _ _ _ _ _ _ _ _ _ _ _ _ _ _ _ _ _)
      · unfold owns; iexists _; isplitr
        swap; · iexact HS13
        ipureintro; exact View.read_writes_eq_canon _ _ _ (coverF13 (F := F) c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (coverF7 (F := F) c _ _ _ _ _ _ _ _ _ _ _ _ _ _ _ _ _ _ _ _ _ _ _ _ _ _ _ _ _ _ _ _ _ _ _ _ _)
  unfold owns; iexists _; isplitr
  swap; · iexact H5
  ipureintro; exact View.read_writes_eq_canon _ _ _ (coverF8 (F := F) c _ _ _ _ _ _ _ _ _ _ _ _ _ _ _ _ _ _ _ _ _ _ _ _ _ _ _ _ _ _ _ _ _ _ _ _ _)

/-- The body at any point: by the point's position in its row block. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases hz : t.val = 0
    · exact sound_A0 m c t h0 hz
    · exact sound_A m c t h0 hz
  by_cases h1 : t.val % 8 = 1 ∨ t.val % 8 = 2
  · exact sound_B m c t h1
  by_cases h3 : t.val % 8 = 3
  · exact sound_C m c t h3
  by_cases h4 : t.val % 8 = 4
  · exact sound_D m c t h4
  by_cases h5 : t.val % 8 = 5 ∨ t.val % 8 = 6
  · exact sound_E m c t h5
  exact sound_F m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the named contents are forgotten. -/
theorem hout (c : Dev nD) : (dats m 0 c).Φ (Fin.last cfg0.N) ⊢ Pipeline.ΦA spec0 c := by
  have hN : cfg0.N = 136 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  unfold PhiAfter
  iintro ⟨⟨HS9, HS10, HS11, HS12, HS13⟩, Hg⟩
  isplitl [HS9 HS10 HS11 HS12 HS13]
  · isplitl [HS9]; · iexists _; iexact HS9
    isplitl [HS10]; · iapply (kn_weak c _ sc10 _); iexact HS10
    isplitl [HS11]; · iapply (kn_weak c _ sc11 _); iexact HS11
    isplitl [HS12]; · iapply (kn_weak c _ sc12 _); iexact HS12
    iapply (kn_weak c _ sc13 _); iexact HS13
  iexact Hg

set_option backward.isDefEq.respectTransparency.types false in
/-- From any memory with zero counters every weakly fair execution of @main terminates, every array of the pipeline ending
    at what the library computes from the proof data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.KI.Final.lean ====
/-
  The end of the program: the two output arrays after the run, and the closing host operations.

  The region writes each of its two `[4352, 1]` output arrays one `[256, 1]` block at a time: row block `i`
  is written back at the last of its eight grid points, point `8 i + 7`, and covers rows `256 i … 256 i + 255`.
  The seventeen blocks tile the array, so if the block left at point `8 i + 7` holds a row function `N` at
  rows `256 i + r`, the array ends holding `N` at every row. The host operations after the region divide
  the two arrays entry by entry, read the quotient as a vector, and close with the negated mean: that
  closing function is kept as one definition and never opened.
-/
import proofs.«108923_j8598524526701_2_alg».proof.Proof.KI.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Final

open Cert.KernelIdeal Cert.KernelIdeal.Gen Cert.KernelIdeal.Body
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ) (ρ : Dev nD → PrngReg)

/-! ## The output windows' blocks -/

/-- The grid has 136 points. -/
theorem N_eq : cfg0.N = 136 := N_0

/-- Output window 4's block at point `t` is row block `t / 8`, column block `0`. -/
theorem idx4 : ∀ t : Fin cfg0.N, win0_4.index t (0 : Fin 2) = t.val / 8 ∧ win0_4.index t (1 : Fin 2) = 0 :=
  (by decide +kernel : ∀ t : Fin grid0.N, _)

/-- Output window 5's block at point `t` is row block `t / 8`, column block `0`. -/
theorem idx5 : ∀ t : Fin cfg0.N, win0_5.index t (0 : Fin 2) = t.val / 8 ∧ win0_5.index t (1 : Fin 2) = 0 :=
  (by decide +kernel : ∀ t : Fin grid0.N, _)

/-- Row `r` of row block `t / 8` lies inside the array. -/
theorem blk_lt (t : Fin cfg0.N) (r : Fin 256) : t.val / 8 * 256 + r.val < 4352 := by
  have h1 : t.val < 136 := N_eq ▸ t.isLt
  have h2 := r.isLt
  omega

/-- A row function as an array of one column. -/
abbrev col (N : Fin 4352 → EReal) : S4352x1.Idx → EReal := fun i => N (i 0)

/-- The point that writes back the block holding row `r`: the last point of row block `r / 256`. -/
def pt (r : Fin 4352) : Fin cfg0.N := ⟨8 * (r.val / 256) + 7, by rw [N_eq]; have := r.isLt; omega⟩

theorem pt_val (r : Fin 4352) : (pt r).val = 8 * (r.val / 256) + 7 := rfl

/-! ## The output arrays after the run -/

section Arrays
variable (N : Dev nD → Fin 4352 → EReal)

/-- What point `t` writes back of output window 4 is its block of the row function, when the block the body
    leaves at each writing point holds the row function at that block's rows. -/
theorem flushed4_eq
    (hN : ∀ (c : Dev nD) (t : Fin cfg0.N), t.val % 8 = 7 → ∀ r : Fin 256,
      ((dats m 0 c).after 4 t : S256x1.Idx → EReal) (ix2 r (0 : Fin 1)) = N c ⟨t.val / 8 * 256 + r.val, blk_lt t r⟩)
    (c : Dev nD) (t : Fin cfg0.N) (hf : (cfg0.win 4).flush t = true) :
    (dats m 0 c).flushed 4 t = ((cfg0.win 4).blk t).view.read (Elt Ideal) (col (N c)) := by
  have h7 : t.val % 8 = 7 := (flush0_4 t).mp hf
  obtain ⟨e0, e1⟩ := idx4 t
  show (cfg0.win 4).cut (grid0.coords t) ((dats m 0 c).after 4 t) = _
  funext j
  have hy : ((cfg0.win 4).xinj (grid0.coords t) j : S256x1.Idx)
      = ix2 (((cfg0.win 4).xinj (grid0.coords t) j : S256x1.Idx) 0) (0 : Fin 1) :=
    (eq_ix2 _).trans (congrArg (ix2 _) (Fin.eq_zero _))
  refine (congrArg ((dats m 0 c).after 4 t : S256x1.Idx → EReal) hy).trans ?_
  refine (hN c t h7 _).trans ?_
  refine congrArg (N c) (Fin.ext ?_)
  show t.val / 8 * 256 + (j 0).val = win0_4.index t (0 : Fin 2) * 256 + 1 * (j 0).val
  rw [e0]
  omega

/-- Output array 4 after the run holds the row function at every row. -/
theorem final4
    (hN : ∀ (c : Dev nD) (t : Fin cfg0.N), t.val % 8 = 7 → ∀ r : Fin 256,
      ((dats m 0 c).after 4 t : S256x1.Idx → EReal) (ix2 r (0 : Fin 1)) = N c ⟨t.val / 8 * 256 + r.val, blk_lt t r⟩)
    (c : Dev nD) : ((dats m 0 c).arrAt 4 cfg0.N : S4352x1.Idx → EReal) = col (N c) :=
  (dats m 0 c).arrAt_eq_of_cover 4 (col (N c)) (flushed4_eq m N hN c) fun i => by
    obtain ⟨r0, hr0⟩ : ∃ r0 : Fin 4352, r0.val = ((i 0 : Fin 4352)).val := ⟨i 0, rfl⟩
    have hi := r0.isLt
    have hi1 : ((i 1 : Fin 1)).val < 1 := (i 1 : Fin 1).isLt
    obtain ⟨e0, e1⟩ := idx4 (pt r0)
    have hp : (pt r0).val = 8 * (r0.val / 256) + 7 := rfl
    refine ⟨pt r0, (flush0_4 _).mpr (by omega), ?_⟩
    show i ∈ ((View.whole main_v22_0).slice (win0_4.rect (pt r0))).set
    rw [View.set_slice_whole, Rect.mem_set_unit]
    intro a
    match a with
    | ⟨0, _⟩ =>
      show win0_4.index (pt r0) (0 : Fin 2) * 256 ≤ ((i 0 : Fin 4352)).val
        ∧ ((i 0 : Fin 4352)).val < win0_4.index (pt r0) (0 : Fin 2) * 256 + 256
      omega
    | ⟨1, _⟩ =>
      show win0_4.index (pt r0) (1 : Fin 2) * 1 ≤ ((i 1 : Fin 1)).val
        ∧ ((i 1 : Fin 1)).val < win0_4.index (pt r0) (1 : Fin 2) * 1 + 1
      omega

/-- Read at a row. -/
theorem final4_apply
    (hN : ∀ (c : Dev nD) (t : Fin cfg0.N), t.val % 8 = 7 → ∀ r : Fin 256,
      ((dats m 0 c).after 4 t : S256x1.Idx → EReal) (ix2 r (0 : Fin 1)) = N c ⟨t.val / 8 * 256 + r.val, blk_lt t r⟩)
    (c : Dev nD) (rr : Fin 4352) :
    ((dats m 0 c).arrAt 4 cfg0.N : S4352x1.Idx → EReal) (ix2 rr (0 : Fin 1)) = N c rr :=
  congrFun (final4 m N hN c) (ix2 rr (0 : Fin 1))

end Arrays

section Arrays5
variable (N : Dev nD → Fin 4352 → EReal)

/-- What point `t` writes back of output window 5 is its block of the row function, when the block the body
    leaves at each writing point holds the row function at that block's rows. -/
theorem flushed5_eq
    (hN : ∀ (c : Dev nD) (t : Fin cfg0.N), t.val % 8 = 7 → ∀ r : Fin 256,
      ((dats m 0 c).after 5 t : S256x1.Idx → EReal) (ix2 r (0 : Fin 1)) = N c ⟨t.val / 8 * 256 + r.val, blk_lt t r⟩)
    (c : Dev nD) (t : Fin cfg0.N) (hf : (cfg0.win 5).flush t = true) :
    (dats m 0 c).flushed 5 t = ((cfg0.win 5).blk t).view.read (Elt Ideal) (col (N c)) := by
  have h7 : t.val % 8 = 7 := (flush0_5 t).mp hf
  obtain ⟨e0, e1⟩ := idx5 t
  show (cfg0.win 5).cut (grid0.coords t) ((dats m 0 c).after 5 t) = _
  funext j
  have hy : ((cfg0.win 5).xinj (grid0.coords t) j : S256x1.Idx)
      = ix2 (((cfg0.win 5).xinj (grid0.coords t) j : S256x1.Idx) 0) (0 : Fin 1) :=
    (eq_ix2 _).trans (congrArg (ix2 _) (Fin.eq_zero _))
  refine (congrArg ((dats m 0 c).after 5 t : S256x1.Idx → EReal) hy).trans ?_
  refine (hN c t h7 _).trans ?_
  refine congrArg (N c) (Fin.ext ?_)
  show t.val / 8 * 256 + (j 0).val = win0_5.index t (0 : Fin 2) * 256 + 1 * (j 0).val
  rw [e0]
  omega

/-- Output array 5 after the run holds the row function at every row. -/
theorem final5
    (hN : ∀ (c : Dev nD) (t : Fin cfg0.N), t.val % 8 = 7 → ∀ r : Fin 256,
      ((dats m 0 c).after 5 t : S256x1.Idx → EReal) (ix2 r (0 : Fin 1)) = N c ⟨t.val / 8 * 256 + r.val, blk_lt t r⟩)
    (c : Dev nD) : ((dats m 0 c).arrAt 5 cfg0.N : S4352x1.Idx → EReal) = col (N c) :=
  (dats m 0 c).arrAt_eq_of_cover 5 (col (N c)) (flushed5_eq m N hN c) fun i => by
    obtain ⟨r0, hr0⟩ : ∃ r0 : Fin 4352, r0.val = ((i 0 : Fin 4352)).val := ⟨i 0, rfl⟩
    have hi := r0.isLt
    have hi1 : ((i 1 : Fin 1)).val < 1 := (i 1 : Fin 1).isLt
    obtain ⟨e0, e1⟩ := idx5 (pt r0)
    have hp : (pt r0).val = 8 * (r0.val / 256) + 7 := rfl
    refine ⟨pt r0, (flush0_5 _).mpr (by omega), ?_⟩
    show i ∈ ((View.whole main_v22_1).slice (win0_5.rect (pt r0))).set
    rw [View.set_slice_whole, Rect.mem_set_unit]
    intro a
    match a with
    | ⟨0, _⟩ =>
      show win0_5.index (pt r0) (0 : Fin 2) * 256 ≤ ((i 0 : Fin 4352)).val
        ∧ ((i 0 : Fin 4352)).val < win0_5.index (pt r0) (0 : Fin 2) * 256 + 256
      omega
    | ⟨1, _⟩ =>
      show win0_5.index (pt r0) (1 : Fin 2) * 1 ≤ ((i 1 : Fin 1)).val
        ∧ ((i 1 : Fin 1)).val < win0_5.index (pt r0) (1 : Fin 2) * 1 + 1
      omega

/-- Read at a row. -/
theorem final5_apply
    (hN : ∀ (c : Dev nD) (t : Fin cfg0.N), t.val % 8 = 7 → ∀ r : Fin 256,
      ((dats m 0 c).after 5 t : S256x1.Idx → EReal) (ix2 r (0 : Fin 1)) = N c ⟨t.val / 8 * 256 + r.val, blk_lt t r⟩)
    (c : Dev nD) (rr : Fin 4352) :
    ((dats m 0 c).arrAt 5 cfg0.N : S4352x1.Idx → EReal) (ix2 rr (0 : Fin 1)) = N c rr :=
  congrFun (final5 m N hN c) (ix2 rr (0 : Fin 1))

end Arrays5

/-! ## The host operations after the region -/

/-- The closing host operations as one function of the per-row quotient: times `-1`, summed over the 4352 rows,
    divided by 4352. -/
def tailK (q : FVec Ideal S4352 .f32) : FVec Ideal S_ .f32 :=
  Host.divf (Host.reduceAdd (mulf (broadcastInDim S4352 ![] bcast_S_S4352 (constant (F := Ideal) S_ .f32 0xBF800000#32)) q)
    (constant (F := Ideal) S_ .f32 0x00000000#32) reducesTo_S4352_S_d0 h_S_) (constant (F := Ideal) S_ .f32 0x45880000#32)

section Tail
variable (N Ms : Dev nD → Fin 4352 → EReal)

/-- The first output array as the host operations after the region find it. -/
theorem withArrays4
    (hN : ∀ (c : Dev nD) (t : Fin cfg0.N), t.val % 8 = 7 → ∀ r : Fin 256,
      ((dats m 0 c).after 4 t : S256x1.Idx → EReal) (ix2 r (0 : Fin 1)) = N c ⟨t.val / 8 * 256 + r.val, blk_lt t r⟩)
    (c : Dev nD) :
    (Pipeline.withArrays (cfgs 0).spec c (V0 m c) (fun w => (dats m 0 c).arrAt w (cfgs 0).N) (Proc.devRef .tc main_v22_0)
      : S4352x1.Idx → EReal) = col (N c) :=
  (Pipeline.withArrays_arr spec0 launch0.win.arr_inj c _ _ 4).trans (final4 m N hN c)

/-- The second output array as the host operations after the region find it. -/
theorem withArrays5
    (hM : ∀ (c : Dev nD) (t : Fin cfg0.N), t.val % 8 = 7 → ∀ r : Fin 256,
      ((dats m 0 c).after 5 t : S256x1.Idx → EReal) (ix2 r (0 : Fin 1)) = Ms c ⟨t.val / 8 * 256 + r.val, blk_lt t r⟩)
    (c : Dev nD) :
    (Pipeline.withArrays (cfgs 0).spec c (V0 m c) (fun w => (dats m 0 c).arrAt w (cfgs 0).N) (Proc.devRef .tc main_v22_1)
      : S4352x1.Idx → EReal) = col (Ms c) :=
  (Pipeline.withArrays_arr spec0 launch0.win.arr_inj c _ _ 5).trans (final5 m Ms hM c)

set_option maxHeartbeats 4000000 in
/-- The program's result: the closing function of the entrywise quotient of the two row functions. -/
theorem tail_v28
    (hN : ∀ (c : Dev nD) (t : Fin cfg0.N), t.val % 8 = 7 → ∀ r : Fin 256,
      ((dats m 0 c).after 4 t : S256x1.Idx → EReal) (ix2 r (0 : Fin 1)) = N c ⟨t.val / 8 * 256 + r.val, blk_lt t r⟩)
    (hM : ∀ (c : Dev nD) (t : Fin cfg0.N), t.val % 8 = 7 → ∀ r : Fin 256,
      ((dats m 0 c).after 5 t : S256x1.Idx → EReal) (ix2 r (0 : Fin 1)) = Ms c ⟨t.val / 8 * 256 + r.val, blk_lt t r⟩)
    (c : Dev nD) :
    (Pipeline.afterTail₀ cfgs (dats m) 0 (V0 m) [hostOps1] c main_v28 : S_.Idx → EReal)
      = tailK (fun i : S4352.Idx => Ideal.div (N c (i 0)) (Ms c (i 0))) := by
  unfold Pipeline.afterTail₀
  show StableHlo.after hostOps1 _ (Proc.devRef .tc main_v28) = _
  after_results
  change tailK _ = tailK _
  refine congrArg tailK (funext fun i => ?_)
  obtain ⟨r, rfl⟩ : ∃ r : Fin 4352, i = ix1 r := ⟨i 0, eq_ix1 i⟩
  have e4 := congrFun (withArrays4 m N hN c) (ix2 r (0 : Fin 1))
  have e5 := congrFun (withArrays5 m Ms hM c) (ix2 r (0 : Fin 1))
  show shapeCast S4352 (Host.divf _ _) shapeCasts_S4352x1_S4352 (ix1 r) = _
  refine (shapeCast_apply _ _ (ix1 r) (ix2 r (0 : Fin 1)) ?_).trans ?_
  · rw [Shape.rowMajor_val_two, Shape.rowMajor_val_one]
    show r.val * 1 + 0 = r.val
    omega
  exact congrArg₂ Ideal.div e4 e5

/-- The program's run in the shape the claim asks: its result three times over, and its arguments as launched. -/
theorem kernel_run
    (hN : ∀ (c : Dev nD) (t : Fin cfg0.N), t.val % 8 = 7 → ∀ r : Fin 256,
      ((dats m 0 c).after 4 t : S256x1.Idx → EReal) (ix2 r (0 : Fin 1)) = N c ⟨t.val / 8 * 256 + r.val, blk_lt t r⟩)
    (hM : ∀ (c : Dev nD) (t : Fin cfg0.N), t.val % 8 = 7 → ∀ r : Fin 256,
      ((dats m 0 c).after 5 t : S256x1.Idx → EReal) (ix2 r (0 : Fin 1)) = Ms c ⟨t.val / 8 * 256 + r.val, blk_lt t r⟩) :
    θ_run defs (onTc (τ := τ) (main (F := Ideal))) ⟨m, fun _ => 0, ρ⟩ (fun r => ∀ c : Dev nD,
      r.2.mem ((c.tc : Thread nD τ).loc main_v28) = tailK (fun i : S4352.Idx => Ideal.div (N c (i 0)) (Ms c (i 0)))
      ∧ r.2.mem ((c.tc : Thread nD τ).loc main_v28) = tailK (fun i : S4352.Idx => Ideal.div (N c (i 0)) (Ms c (i 0)))
      ∧ r.2.mem ((c.tc : Thread nD τ).loc main_v28) = tailK (fun i : S4352.Idx => Ideal.div (N c (i 0)) (Ms c (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    have e28 := ((h c).2 main_v28 (Pipeline.mem_restRefs_of main_v28 (by decide) (by decide))).trans (tail_v28 m N Ms hN hM c)
    ⟨e28, e28, e28,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Tail

end Cert.KernelIdeal.Final

end
-- ==== Proof.KI.Pieces.lean ====
/-
  What each control case leaves in the buffers it stores into, as the body's payloads of what it was given: the anchor block,
  the column tile and the label tile the point's loads read off the resident arrays, the anchor labels, and the carried state.
-/
import proofs.«108923_j8598524526701_2_alg».proof.Proof.KI.RunA
import proofs.«108923_j8598524526701_2_alg».proof.Proof.KI.RunB
import proofs.«108923_j8598524526701_2_alg».proof.Proof.KI.RunC
import proofs.«108923_j8598524526701_2_alg».proof.Proof.KI.RunD
import proofs.«108923_j8598524526701_2_alg».proof.Proof.KI.RunE
import proofs.«108923_j8598524526701_2_alg».proof.Proof.KI.RunF
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The column tile and the label tile a point's two sliced loads read off the resident contrast and label arrays. -/
abbrev ldC (x4 : Vec F S8704x128 .bf16) (i : grid0.Coords) : Vec F S2176x128 .bf16 :=
  View.ld x4 (Rect.unit (k0_off1 i) S2176x128.size (k0_off1_inb i))
abbrev ldL (x6 : Vec F S1x8704 .i32) (i : grid0.Coords) : Vec F S1x2176 .i32 :=
  View.ld x6 (Rect.unit (k0_off2 i) S1x2176.size (k0_off2_inb i))

theorem zero2 : (![0, 0] : Fin 2 → ℕ) = fun _ => 0 := funext fun a => by fin_cases a <;> rfl

set_option maxHeartbeats 1000000 in
theorem pieceA9 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
     :
    View.canon (runA (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6).1
      = k0_pay13 x3 (ldC x4 i) k0_pay5 := by
  unfold runA; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceA10 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
     :
    View.canon (runA (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6).2.1
      = k0_pay12 x3 (ldC x4 i) (ldL x6 i) x5 k0_pay5 k0_pay5 k0_pay6 := by
  unfold runA; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceB9 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) :
    View.canon (runB (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).1
      = k0_pay13 x3 (ldC x4 i) s9 := by
  unfold runB; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceB10 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : ¬cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) :
    View.canon (runB (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).2.1
      = k0_pay12 x3 (ldC x4 i) (ldL x6 i) x5 s9 s9 s10 := by
  unfold runB; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceC9 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) :
    View.canon (runC (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).1
      = k0_pay13 x3 (ldC x4 i) s9 := by
  unfold runC; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceC10 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) :
    View.canon (runC (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).2.1
      = k0_pay12 x3 (ldC x4 i) (ldL x6 i) x5 s9 s9 s10 := by
  unfold runC; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceC11 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : cond3 i) (hc4 : cond4 i) (hc5 : ¬cond5 i) (hc6 : ¬cond6 i)
    (x3 : Vec F S256x128 .bf16) (x4 : Vec F S8704x128 .bf16) (x5 : Vec F S256x1 .i32) (x6 : Vec F S1x8704 .i32)
    (s9 s10 : Vec F S256x1 .f32) :
    View.canon (runC (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s10).2.2.1
      = k0_pay1 (k0_pay12 x3 (ldC x4 i) (ldL x6 i) x5 s9 s9 s10) := by
  unfold runC; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceD12 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 : Vec F S256x1 .f32) :
    View.canon (runD (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11).1
      = k0_pay4 (BitVec.ofNat 32 (i 0).val) (Scalar.muli (BitVec.ofNat 32 (i 2).val) 2176#32) (k0_pay9 x3 (ldC x4 i)) (k0_pay10 (ldL x6 i) x5) s9 s11 k0_pay7 := by
  unfold runD; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceD13 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 : Vec F S256x1 .f32) :
    View.canon (runD (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11).2.1
      = k0_pay2 (k0_pay3 (BitVec.ofNat 32 (i 0).val) (Scalar.muli (BitVec.ofNat 32 (i 2).val) 2176#32) (k0_pay10 (ldL x6 i) x5)) k0_pay8 := by
  unfold runD; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceE12 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 s12 s13 : Vec F S256x1 .f32) :
    View.canon (runE (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).1
      = k0_pay4 (BitVec.ofNat 32 (i 0).val) (Scalar.muli (BitVec.ofNat 32 (i 2).val) 2176#32) (k0_pay9 x3 (ldC x4 i)) (k0_pay10 (ldL x6 i) x5) s9 s11 s12 := by
  unfold runE; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceE13 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : ¬cond6 i)
    (x3 : Vec F S256x128 .bf16) (x4 : Vec F S8704x128 .bf16) (x5 : Vec F S256x1 .i32) (x6 : Vec F S1x8704 .i32)
    (s9 s11 s12 s13 : Vec F S256x1 .f32) :
    View.canon (runE (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.1
      = k0_pay2 (k0_pay3 (BitVec.ofNat 32 (i 0).val) (Scalar.muli (BitVec.ofNat 32 (i 2).val) 2176#32) (k0_pay10 (ldL x6 i) x5)) s13 := by
  unfold runE; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceF12 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) :
    View.canon (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).1
      = k0_pay4 (BitVec.ofNat 32 (i 0).val) (Scalar.muli (BitVec.ofNat 32 (i 2).val) 2176#32) (k0_pay9 x3 (ldC x4 i)) (k0_pay10 (ldL x6 i) x5) s9 s11 s12 := by
  unfold runF; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceF13 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) :
    View.canon (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.1
      = k0_pay2 (k0_pay3 (BitVec.ofNat 32 (i 0).val) (Scalar.muli (BitVec.ofNat 32 (i 2).val) 2176#32) (k0_pay10 (ldL x6 i) x5)) s13 := by
  unfold runF; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceF7 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) :
    View.canon (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.2.1
      = k0_pay4 (BitVec.ofNat 32 (i 0).val) (Scalar.muli (BitVec.ofNat 32 (i 2).val) 2176#32) (k0_pay9 x3 (ldC x4 i)) (k0_pay10 (ldL x6 i) x5) s9 s11 s12 := by
  unfold runF; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

set_option maxHeartbeats 1000000 in
theorem pieceF8 (c : Dev nD) (i : grid0.Coords) (arg3 : Memref sig .tc .vmem S256x128 .bf16) (harg3 : arg3.IsWhole) (arg4 : Memref sig .tc .vmem S8704x128 .bf16) (harg4 : arg4.IsWhole) (arg5 : Memref sig .tc .vmem S256x1 .i32) (harg5 : arg5.IsWhole) (arg6 : Memref sig .tc .vmem S1x8704 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole)
    (hc1 : ¬cond1 i) (hc2 : ¬cond2 i) (hc3 : ¬cond3 i) (hc4 : ¬cond4 i) (hc5 : cond5 i) (hc6 : cond6 i)
    (x3 : Vec F S256x128 .bf16) (x4 : Vec F S8704x128 .bf16) (x5 : Vec F S256x1 .i32) (x6 : Vec F S1x8704 .i32)
    (s9 s11 s12 s13 : Vec F S256x1 .f32) :
    View.canon (runF (F := F) c i arg3 harg3 arg4 harg4 arg5 harg5 arg6 harg6 arg7 harg7 arg8 harg8 arg9 harg9 arg10 harg10 arg11 harg11 arg12 harg12 arg13 harg13 hc1 hc2 hc3 hc4 hc5 hc6 x3 x4 x5 x6 s9 s11 s12 s13).2.2.2.1
      = k0_pay2 (k0_pay3 (BitVec.ofNat 32 (i 0).val) (Scalar.muli (BitVec.ofNat 32 (i 2).val) 2176#32) (k0_pay10 (ldL x6 i) x5)) s13 := by
  unfold runF; dsimp only; sl_unfold_run_names
  simp only [View.canon_cons_unit_zero (S := S256x1) zero2, View.readCov_unit_zero (S := S256x1) _ zero2, View.readAt_eq_ld,
    harg3.read_unread, harg4.read_unread, harg5.read_unread, harg6.read_unread, harg9.read_unread, harg10.read_unread,
    harg11.read_unread, harg12.read_unread, harg13.read_unread, View.ld_unit_zero (S := S256x1) zero2, View.ld_unit_zero (S := S256x128) zero2]
  try rfl

end Cert.KernelIdeal.Body

end
-- ==== Proof.KI.BlockReads.lean ====
/-
  What each input window's block is at a grid point, and what the body's two tile loads read.

  The grid has 17 × 2 × 4 points in row-major order: point `t` is row block `t / 8`, phase `(t / 4) % 2`, column tile
  `t % 4`. The anchors' and the anchor labels' windows move with the row block, 256 rows at a time; the contrast
  features' and the contrast labels' windows are their whole arrays at every point. Inside the body a column tile is
  loaded from the whole contrast arrays at the offset `2176` times the column tile.
-/
import proofs.«108923_j8598524526701_2_alg».proof.Proof.Gen.KernelIdeal.Frame
import Idealize.ShloMosaic.Lib.Pipeline.Value
import Idealize.ShloMosaic.Lib.ValueIdx

set_option maxRecDepth 16384

noncomputable section

namespace Cert.KernelIdeal.BlockReads

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

/-! ## The grid's coordinates and the windows' block indices, decided once over the grid -/

/-- The grid has 136 points. -/
theorem t_lt (t : Fin cfg0.N) : t.val < 136 := lt_of_lt_of_eq t.isLt N_0

/-- Point `t` is row block `t / 8`, phase `(t / 4) % 2`, column tile `t % 4`. -/
theorem coords_val : ∀ t : Fin cfg0.N, ((grid0.coords t) 0).val = t.val / 8
    ∧ ((grid0.coords t) 1).val = (t.val / 4) % 2 ∧ ((grid0.coords t) 2).val = t.val % 4 :=
  (by decide +kernel : ∀ t : Fin grid0.N, _)

/-- The anchors' and the anchor labels' windows are at block `t / 8` along the rows; the contrast windows are at
    block zero on both axes. -/
theorem idx_facts : ∀ t : Fin cfg0.N, win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0 :=
  (by decide +kernel : ∀ t : Fin grid0.N, _)

/-- Row `r` of row block `t / 8` is a row of the 4352-row arrays. -/
theorem row_lt (t : Fin cfg0.N) (r : Fin 256) : (t.val / 8) * 256 + r.val < 4352 := by
  have h := t_lt t
  have := r.isLt
  omega

/-! ## The windows' blocks read off their arrays -/

section Blocks
variable (m : (ℓ : Loc nD τ sig) → Buf (Elt F) ℓ)

/-- The anchors' block at point `t`: rows `256 (t / 8)` onward of the anchors' array. -/
theorem blk0 (c : Dev nD) (t : Fin cfg0.N) (r : Fin 256) (k : Fin 128) :
    (iblk m c 0 t : Vec F S256x128 .bf16) (ix2 r k)
      = V m c main_v18 (ix2 (⟨(t.val / 8) * 256 + r.val, row_lt t r⟩ : Fin 4352) k) := by
  obtain ⟨e0, e1, -⟩ := idx_facts t
  show V m c main_v18 (((cfg0.win 0).blk t).view.emb (ix2 r k)) = _
  have h : ((cfg0.win 0).blk t).view.emb (ix2 r k) = ix2 (⟨(t.val / 8) * 256 + r.val, row_lt t r⟩ : Fin 4352) k := by
    funext a; apply Fin.ext
    match a with
    | ⟨0, _⟩ => show win0_0.index t (0 : Fin 2) * 256 + 1 * r.val = (t.val / 8) * 256 + r.val; omega
    | ⟨1, _⟩ => show win0_0.index t (1 : Fin 2) * 128 + 1 * k.val = k.val; omega
  rw [h]

/-- The contrast features' block at every point is the whole array. -/
theorem blk1 (c : Dev nD) (t : Fin cfg0.N) (cc : Fin 8704) (k : Fin 128) :
    (iblk m c 1 t : Vec F S8704x128 .bf16) (ix2 cc k) = V m c main_v17 (ix2 cc k) := by
  obtain ⟨-, -, e0, e1, -⟩ := idx_facts t
  show V m c main_v17 (((cfg0.win 1).blk t).view.emb (ix2 cc k)) = _
  have h : ((cfg0.win 1).blk t).view.emb (ix2 cc k) = ix2 cc k := by
    funext a; apply Fin.ext
    match a with
    | ⟨0, _⟩ => show win0_1.index t (0 : Fin 2) * 8704 + 1 * cc.val = cc.val; omega
    | ⟨1, _⟩ => show win0_1.index t (1 : Fin 2) * 128 + 1 * k.val = k.val; omega
  rw [h]

/-- The anchor labels' block at point `t`: rows `256 (t / 8)` onward of the anchor labels' column. -/
theorem blk2 (c : Dev nD) (t : Fin cfg0.N) (r : Fin 256) :
    (iblk m c 2 t : Vec F S256x1 .i32) (ix2 r (0 : Fin 1))
      = V m c main_v20 (ix2 (⟨(t.val / 8) * 256 + r.val, row_lt t r⟩ : Fin 4352) (0 : Fin 1)) := by
  obtain ⟨-, -, -, -, e0, e1, -⟩ := idx_facts t
  show V m c main_v20 (((cfg0.win 2).blk t).view.emb (ix2 r (0 : Fin 1))) = _
  have h : ((cfg0.win 2).blk t).view.emb (ix2 r (0 : Fin 1))
      = ix2 (⟨(t.val / 8) * 256 + r.val, row_lt t r⟩ : Fin 4352) (0 : Fin 1) := by
    funext a; apply Fin.ext
    match a with
    | ⟨0, _⟩ => show win0_2.index t (0 : Fin 2) * 256 + 1 * r.val = (t.val / 8) * 256 + r.val; omega
    | ⟨1, _⟩ => show win0_2.index t (1 : Fin 2) * 1 + 1 * 0 = 0; omega
  rw [h]

/-- The contrast labels' block at every point is the whole row. -/
theorem blk3 (c : Dev nD) (t : Fin cfg0.N) (cc : Fin 8704) :
    (iblk m c 3 t : Vec F S1x8704 .i32) (ix2 (0 : Fin 1) cc) = V m c main_v21 (ix2 (0 : Fin 1) cc) := by
  obtain ⟨-, -, -, -, -, -, e0, e1⟩ := idx_facts t
  show V m c main_v21 (((cfg0.win 3).blk t).view.emb (ix2 (0 : Fin 1) cc)) = _
  have h : ((cfg0.win 3).blk t).view.emb (ix2 (0 : Fin 1) cc) = ix2 (0 : Fin 1) cc := by
    funext a; apply Fin.ext
    match a with
    | ⟨0, _⟩ => show win0_3.index t (0 : Fin 2) * 1 + 1 * 0 = 0; omega
    | ⟨1, _⟩ => show win0_3.index t (1 : Fin 2) * 8704 + 1 * cc.val = cc.val; omega
  rw [h]

end Blocks

/-! ## The body's two tile loads -/

/-- The offset word of column tile `j` is the natural `2176 j`. -/
theorem off_val : ∀ i : grid0.Coords, k0_off1 i (0 : Fin 2) = (i 2).val * 2176 ∧ k0_off1 i (1 : Fin 2) = 0
    ∧ k0_off2 i (0 : Fin 2) = 0 ∧ k0_off2 i (1 : Fin 2) = (i 2).val * 2176 := by decide +kernel

/-- Column `q` of column tile `i 2` is a column of the long axis. -/
theorem col_lt (i : grid0.Coords) (q : Fin 2176) : (i 2).val * 2176 + q.val < 8704 := by
  have h : (i 2).val < 4 := (i 2).isLt
  have := q.isLt
  omega

/-- The contrast features' tile load reads rows `2176 (i 2)` onward of the contents. -/
theorem tileC (x4 : Vec F S8704x128 .bf16) (i : grid0.Coords)
    (inb : ∀ a, (k0_off1 i) a + S2176x128.size a ≤ S8704x128.size a) (q : Fin 2176) (k : Fin 128) :
    View.ld x4 (Rect.unit (k0_off1 i) S2176x128.size inb) (ix2 q k)
      = x4 (ix2 (⟨(i 2).val * 2176 + q.val, col_lt i q⟩ : Fin 8704) k) := by
  obtain ⟨e0, e1, -⟩ := off_val i
  show x4 ((Rect.unit (s := S8704x128) (k0_off1 i) S2176x128.size inb).idx (ix2 q k)) = _
  refine congrArg x4 (funext fun a => Fin.ext ?_)
  match a with
  | ⟨0, _⟩ => show k0_off1 i (0 : Fin 2) + 1 * q.val = (i 2).val * 2176 + q.val; omega
  | ⟨1, _⟩ => show k0_off1 i (1 : Fin 2) + 1 * k.val = k.val; omega

/-- The contrast labels' tile load reads columns `2176 (i 2)` onward of the contents. -/
theorem tileL (x6 : Vec F S1x8704 .i32) (i : grid0.Coords)
    (inb : ∀ a, (k0_off2 i) a + S1x2176.size a ≤ S1x8704.size a) (q : Fin 2176) :
    View.ld x6 (Rect.unit (k0_off2 i) S1x2176.size inb) (ix2 (0 : Fin 1) q)
      = x6 (ix2 (0 : Fin 1) (⟨(i 2).val * 2176 + q.val, col_lt i q⟩ : Fin 8704)) := by
  obtain ⟨-, -, e0, e1⟩ := off_val i
  show x6 ((Rect.unit (s := S1x8704) (k0_off2 i) S1x2176.size inb).idx (ix2 (0 : Fin 1) q)) = _
  refine congrArg x6 (funext fun a => Fin.ext ?_)
  match a with
  | ⟨0, _⟩ => show k0_off2 i (0 : Fin 2) + 1 * 0 = 0; omega
  | ⟨1, _⟩ => show k0_off2 i (1 : Fin 2) + 1 * q.val = (i 2).val * 2176 + q.val; omega

end Cert.KernelIdeal.BlockReads

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.KI.Pay.lean ====
/-
  The kernel body's values read at an index, at the ideal instance.

  Each payload of the kernel body is a vector built from the values loaded before it by pointwise arithmetic,
  layout operations (a cast to the same shape, a keep-dimension cast of a row vector to a column, a broadcast of
  a column or of a row over a matrix, a transpose), one matrix product, and lane reductions (a sum, a maximum).
  Read at one index, every one of them is a closed expression on the extended reals in the operands read at
  indices: the lemmas below state that expression for each payload, over variables of the literal vector types
  and explicit coordinates.
-/
import proofs.«108923_j8598524526701_2_alg».proof.Proof.Gen.KernelIdeal.Skeleton
import proofs.«108923_j8598524526701_2_alg».proof.Proof.LibMatmulNN
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.PayAt

open Cert.KernelIdeal Cert.KernelIdeal.Gen Idealize.ShloMosaic Idealize.ShloMosaic.ValueIdx

/-! ## Three keep-dimension layout forms read at an index -/

section Layout
variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The scaled similarity tile -/

/-- The similarity tile at `(r, q)`: the inner product of row `r` of the anchors with row `q` of the contrast
    features (the transpose puts the contrast features' rows on the product's columns), times the named scale. -/
theorem pay9_apply (A : Vec Ideal S256x128 .bf16) (C : Vec Ideal S2176x128 .bf16) (r : Fin 256) (q : Fin 2176) :
    k0_pay9 (F := Ideal) A C (ix2 r q)
      = (∑ k : Fin 128, A (ix2 r k) * C (ix2 q k)) * Named.named (F := Ideal) κ "inv_temp" (φ := .f32) 0x41649249#32 := by
  unfold k0_pay9
  rw [mulf_apply, broadcast_apply]
  refine congrArg (· * _) ?_
  refine (Cert.LibMatmulNN.matmul_zero_apply' dot_S256x128_S128x2176_S256x2176_1_0_0_1_n_n rfl rfl rfl rfl rfl rfl none _ _ r q).trans ?_
  refine Finset.sum_congr rfl fun k _ => ?_
  rw [shapeCast_self, transpose_ix2_apply, shapeCast_self]

/-! ## The label-equality mask -/

/-- An integer comparison of two vectors at an index compares the elements. -/
theorem cmpi_apply {s : Shape} {w : ℕ} (p : CmpIPredicate) (x y : IVec s w) (i : s.Idx) :
    cmpi p x y i = IntOp.cmpi p (x i) (y i) := rfl

/-- The equality comparison of two words is the bit `1` exactly when they are equal. -/
theorem cmpi_eq_ite {w : ℕ} (x y : BitVec w) : IntOp.cmpi .eq x y = if x = y then 1#1 else 0#1 := by
  show BitVec.ofBool (x == y) = _
  by_cases h : x = y
  · rw [if_pos h, h, beq_self_eq_true]; rfl
  · rw [if_neg h, beq_eq_false_iff_ne.mpr h]; rfl

/-- The mask at `(r, q)`: the bit `1` exactly when anchor `r`'s label is contrast column `q`'s label. -/
theorem pay10_apply (clab : Vec Ideal S1x2176 .i32) (alab : Vec Ideal S256x1 .i32) (r : Fin 256) (q : Fin 2176) :
    k0_pay10 (F := Ideal) clab alab (ix2 r q)
      = if (alab (ix2 r (0 : Fin 1)) : BitVec 32) = clab (ix2 (0 : Fin 1) q) then 1#1 else 0#1 := by
  unfold k0_pay10
  rw [cmpi_apply, broadcastTo_a1_ab_apply, broadcastTo_1b_ab_apply, shapeCast_self, shapeCast_self]
  exact cmpi_eq_ite _ _

/-! ## The running row maximum -/

/-- The f32 pattern of minus infinity is the bottom of the extended reals. -/
theorem ofBits_neg_inf_f32 : Ideal.ofBits .f32 0xFF800000#32 = ⊥ := by
  simp [Ideal.ofBits, Ideal.ieee]

/-- A lane maximum of a `256 × 2176` tile from minus infinity, read at row `r`: the supremum of the row. -/
theorem rowMax_apply (src : FVec Ideal S256x2176 .f32) (h : S256x2176.Reduces [1] S256) (hφ : FKind.Formats .f32)
    (hacc : (0xFF800000#32 : BitVec 32) = FKind.maximumf.neutral .f32 hφ) (r : Fin 256) :
    multiReduction (F := Ideal) .maximumf [1] S256 src 0xFF800000#32 h hφ hacc (ix1 r)
      = Finset.univ.sup fun q : Fin 2176 => src (ix2 r q) := by
  refine (Ideal.multiReduction_maximumf_single src _ h hφ hacc (ix1 r)).trans ?_
  show Finset.fold max (Ideal.ofBits .f32 0xFF800000#32) (fun q : Fin 2176 => src (h.lift (ix1 r) q)) Finset.univ = _
  rw [ofBits_neg_inf_f32]
  have e : ∀ q : Fin 2176, h.lift (ix1 r) q = ix2 r q := fun q =>
    funext fun a => Fin.ext (by match a with | ⟨0, _⟩ => rfl | ⟨1, _⟩ => rfl)
  simp only [e]
  rfl

/-- The new running maximum of row `r`: the larger of the old one and the row's supremum over the tile. -/
theorem pay11_apply (A : Vec Ideal S256x128 .bf16) (C : Vec Ideal S2176x128 .bf16) (m : Vec Ideal S256x1 .f32)
    (r : Fin 256) :
    k0_pay11 (F := Ideal) A C m (ix2 r (0 : Fin 1))
      = max (m (ix2 r (0 : Fin 1))) (Finset.univ.sup fun q : Fin 2176 => k0_pay9 (F := Ideal) A C (ix2 r q)) := by
  unfold k0_pay11
  rw [maximumf_apply, shapeCast_a_a1_apply]
  exact congrArg (max _) (rowMax_apply _ _ _ _ r)

/-- The stored running maximum is the new running maximum. -/
theorem pay13_apply (A : Vec Ideal S256x128 .bf16) (C : Vec Ideal S2176x128 .bf16) (m : Vec Ideal S256x1 .f32)
    (r : Fin 256) :
    k0_pay13 (F := Ideal) A C m (ix2 r (0 : Fin 1)) = k0_pay11 (F := Ideal) A C m (ix2 r (0 : Fin 1)) := by
  unfold k0_pay13
  rw [shapeCast_self]

/-! ## The running sum of exponentials -/

/-- An exponential of a vector at an index is the exponential of the element. -/
theorem exp_apply {s : Shape} {φ : FTy} (a : FVec Ideal s φ) (i : s.Idx) : exp a i = Ideal.exp (a i) := rfl

/-- A logarithm of a vector at an index is the logarithm of the element. -/
theorem log_apply {s : Shape} {φ : FTy} (a : FVec Ideal s φ) (i : s.Idx) : log a i = Ideal.log (a i) := rfl

/-- A select on the bit of a decidable proposition is the `if` on the proposition. -/
theorem select_ite {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-- A lane sum of a `256 × 2176` tile from zero, read at row `r`: the sum of the row. -/
theorem rowSum_apply (src : FVec Ideal S256x2176 .f32) (h : S256x2176.Reduces [1] S256) (hφ : FKind.Formats .f32)
    (hacc : (0x00000000#32 : BitVec 32) = FKind.add.neutral .f32 hφ) (r : Fin 256) :
    multiReduction (F := Ideal) .add [1] S256 src 0x00000000#32 h hφ hacc (ix1 r) = ∑ q : Fin 2176, src (ix2 r q) := by
  refine (Ideal.multiReduction_add_single src _ h hφ hacc (ix1 r)).trans ?_
  show ∑ q : Fin 2176, src (h.lift (ix1 r) q) = _
  refine Finset.sum_congr rfl fun q _ => congrArg src ?_
  exact funext fun a => Fin.ext (by match a with | ⟨0, _⟩ => rfl | ⟨1, _⟩ => rfl)

/-- The new running sum of row `r`: the old one rescaled to the new maximum, plus the tile's exponentials against
    the new maximum over the columns whose label differs from the anchor's. -/
theorem pay12_apply (A : Vec Ideal S256x128 .bf16) (C : Vec Ideal S2176x128 .bf16) (clab : Vec Ideal S1x2176 .i32)
    (alab : Vec Ideal S256x1 .i32) (m m' l : Vec Ideal S256x1 .f32) (r : Fin 256) :
    k0_pay12 (F := Ideal) A C clab alab m m' l (ix2 r (0 : Fin 1))
      = Ideal.exp (m' (ix2 r (0 : Fin 1)) - k0_pay11 (F := Ideal) A C m (ix2 r (0 : Fin 1))) * l (ix2 r (0 : Fin 1))
        + ∑ q : Fin 2176,
            Ideal.exp (k0_pay9 (F := Ideal) A C (ix2 r q) - k0_pay11 (F := Ideal) A C m (ix2 r (0 : Fin 1)))
              * (if (alab (ix2 r (0 : Fin 1)) : BitVec 32) = clab (ix2 (0 : Fin 1) q) then (0 : EReal) else 1) := by
  unfold k0_pay12
  rw [shapeCast_self, addf_apply, mulf_apply, exp_apply, subf_apply, shapeCast_a_a1_apply]
  refine congrArg (HAdd.hAdd (α := EReal) (β := EReal) _) ?_
  refine (rowSum_apply _ _ _ _ r).trans ?_
  refine Finset.sum_congr rfl fun q _ => ?_
  rw [mulf_apply, exp_apply, subf_apply, broadcastTo_a1_ab_apply, select_apply, broadcast_apply, broadcast_apply,
    pay10_apply, select_ite]
  show _ * (if _ then Ideal.ofBits .f32 0x00000000#32 else Ideal.ofBits .f32 0x3F800000#32) = _
  rw [Ideal.ofBits_zero_f32, Ideal.ofBits_one_f32]

/-! ## The logarithm of the final sum -/

/-- The stored logarithm at row `r`. -/
theorem pay1_apply (l : Vec Ideal S256x1 .f32) (r : Fin 256) :
    k0_pay1 (F := Ideal) l (ix2 r (0 : Fin 1)) = Ideal.log (l (ix2 r (0 : Fin 1))) := by
  unfold k0_pay1
  rw [shapeCast_self, log_apply]

/-! ## The positive mask and the masked log-probability sums -/

/-- An integer sum of two vectors at an index adds the elements. -/
theorem addi_apply {s : Shape} {w : ℕ} (x y : IVec s w) (i : s.Idx) : addi x y i = IntOp.addi (x i) (y i) := rfl

/-- A bitwise conjunction of two vectors at an index conjoins the elements. -/
theorem andi_apply {s : Shape} {w : ℕ} (x y : IVec s w) (i : s.Idx) : andi x y i = IntOp.andi (x i) (y i) := rfl

/-- The conjunction of two truth bits is the bit of the conjunction. -/
theorem andi_ofBool (a b : Bool) : IntOp.andi (BitVec.ofBool a) (BitVec.ofBool b) = BitVec.ofBool (a && b) := by
  cases a <;> cases b <;> rfl

/-- A select on a truth bit is the `if` on the truth value. -/
theorem select_ofBool {α : Type} (c : Bool) (a b : α) :
    Scalar.select (BitVec.ofBool c) a b = if c = true then a else b := by
  cases c
  · exact (select_zero a b).trans (if_neg (by decide)).symm
  · exact (select_one a b).trans (if_pos rfl).symm

/-- The global row of tile row `r` at row-block word `arg0`, as the 32-bit word the kernel computes. -/
def rowWord (arg0 : BitVec 32) (r : Fin 256) : BitVec 32 := BitVec.ofNat 32 r.val + (3841#32 + arg0 * 256#32)

/-- The global column of tile column `q` at column offset word `v11`, as the 32-bit word the kernel computes. -/
def colWord (v11 : BitVec 32) (q : Fin 2176) : BitVec 32 := BitVec.ofNat 32 q.val + v11

/-- The positive mask at `(r, q)`: zero where the labels differ; where they agree, one off the diagonal of global
    row and column, and on the diagonal one exactly when the global row lies in `[4352, 8192)` (signed). -/
theorem pay3_apply (arg0 v11 : BitVec 32) (v28 : IVec S256x2176 1) (r : Fin 256) (q : Fin 2176) :
    k0_pay3 (F := Ideal) arg0 v11 v28 (ix2 r q)
      = if v28 (ix2 r q) = 1#1 then
          (if rowWord arg0 r = colWord v11 q then
            (if ((4352#32 : BitVec 32).sle (rowWord arg0 r) && (rowWord arg0 r).slt 8192#32) = true then (1 : EReal) else 0)
           else 1)
        else 0 := by
  unfold k0_pay3
  simp only [select_apply, broadcast_apply, cmpi_apply, andi_apply, addi_apply]
  rw [iota_single_apply, iota_single_apply]
  have hrow : IntOp.addi (BitVec.ofNat 32 (ix2 r q 0).val) (Scalar.addi (3841#32) (Scalar.muli arg0 256#32))
      = rowWord arg0 r := rfl
  have hcol : IntOp.addi (BitVec.ofNat 32 (ix2 r q 1).val) v11 = colWord v11 q := rfl
  rw [hrow, hcol, cmpi_eq_ite, select_ite]
  show (if v28 (ix2 r q) = 1 then
      (if rowWord arg0 r = colWord v11 q then
        Scalar.select (IntOp.andi (BitVec.ofBool ((4352#32 : BitVec 32).sle (rowWord arg0 r)))
            (BitVec.ofBool ((rowWord arg0 r).slt 8192#32)))
          (Ideal.ofBits .f32 0x3F800000#32) (Ideal.ofBits .f32 0x00000000#32)
       else Ideal.ofBits .f32 0x3F800000#32)
    else Ideal.ofBits .f32 0x00000000#32) = _
  rw [andi_ofBool, select_ofBool, Ideal.ofBits_one_f32, Ideal.ofBits_zero_f32]
  rfl

/-- The new masked log-probability sum of row `r`: the old one plus, over the tile's columns, the positive mask times
    the log-probability clipped at zero from above. -/
theorem pay4_apply (arg0 v11 : BitVec 32) (v23 : FVec Ideal S256x2176 .f32) (v28 : IVec S256x2176 1)
    (m ld nu : Vec Ideal S256x1 .f32) (r : Fin 256) :
    k0_pay4 (F := Ideal) arg0 v11 v23 v28 m ld nu (ix2 r (0 : Fin 1))
      = nu (ix2 r (0 : Fin 1))
        + ∑ q : Fin 2176, k0_pay3 (F := Ideal) arg0 v11 v28 (ix2 r q)
            * min 0 ((v23 (ix2 r q) - m (ix2 r (0 : Fin 1))) - ld (ix2 r (0 : Fin 1))) := by
  unfold k0_pay4
  rw [shapeCast_self, addf_apply, shapeCast_a_a1_apply]
  refine congrArg (HAdd.hAdd (α := EReal) (β := EReal) _) ?_
  refine (rowSum_apply _ _ _ _ r).trans ?_
  refine Finset.sum_congr rfl fun q _ => ?_
  rw [mulf_apply, minimumf_apply, subf_apply, subf_apply, broadcastTo_a1_ab_apply, broadcastTo_a1_ab_apply,
    broadcast_apply]
  show _ * min (Ideal.ofBits .f32 0x00000000#32) _ = _
  rw [Ideal.ofBits_zero_f32]

/-- The new positive count of row `r`: the old one plus the row sum of the positive mask. -/
theorem pay2_apply (v73 : FVec Ideal S256x2176 .f32) (ms : Vec Ideal S256x1 .f32) (r : Fin 256) :
    k0_pay2 (F := Ideal) v73 ms (ix2 r (0 : Fin 1)) = ms (ix2 r (0 : Fin 1)) + ∑ q : Fin 2176, v73 (ix2 r q) := by
  unfold k0_pay2
  rw [shapeCast_self, addf_apply, shapeCast_a_a1_apply]
  exact congrArg (HAdd.hAdd (α := EReal) (β := EReal) _) (rowSum_apply _ _ _ _ r)

/-! ## The initial values of the scratch columns -/

/-- The running maximum starts at minus infinity. -/
theorem pay5_apply (i : S256x1.Idx) : k0_pay5 (F := Ideal) i = ⊥ := by
  unfold k0_pay5
  rw [shapeCast_self, broadcast_apply]
  exact ofBits_neg_inf_f32

/-- The running sum of exponentials starts at zero. -/
theorem pay6_apply (i : S256x1.Idx) : k0_pay6 (F := Ideal) i = 0 := by
  unfold k0_pay6
  rw [shapeCast_self, broadcast_apply]
  exact Ideal.ofBits_zero_f32

/-- The masked log-probability sum starts at zero. -/
theorem pay7_apply (i : S256x1.Idx) : k0_pay7 (F := Ideal) i = 0 := by
  unfold k0_pay7
  rw [shapeCast_self, broadcast_apply]
  exact Ideal.ofBits_zero_f32

/-- The positive count starts at zero. -/
theorem pay8_apply (i : S256x1.Idx) : k0_pay8 (F := Ideal) i = 0 := by
  unfold k0_pay8
  rw [shapeCast_self, broadcast_apply]
  exact Ideal.ofBits_zero_f32

end Cert.KernelIdeal.PayAt

end
-- ==== Proof.KI.PayNat.lean ====
/-
  The positive mask read at an index, at a grid point given by naturals.

  The kernel computes the global row and the global column of a tile entry as 32-bit words. At the grid's points
  the words are those of small naturals, so that the equality of the two words is the equality of the naturals and
  the signed comparisons with 4352 and 8192 are the comparisons of naturals.
-/
import proofs.«108923_j8598524526701_2_alg».proof.Proof.KI.Pay

noncomputable section

open scoped BigOperators

namespace Cert.KernelIdeal.PayAt

open Cert.KernelIdeal Cert.KernelIdeal.Gen Idealize.ShloMosaic Idealize.ShloMosaic.ValueIdx

/-- With the row-block word the word of a natural `i`, the global row word is the word of `r + (3841 + i * 256)`. -/
theorem rowWord_ofNat (i : ℕ) (r : Fin 256) :
    rowWord (BitVec.ofNat 32 i) r = BitVec.ofNat 32 (r.val + (3841 + i * 256)) := by
  unfold rowWord
  rw [BitVec.ofNat_add, BitVec.ofNat_add, BitVec.ofNat_mul]

/-- With the column offset the word of `j` times 2176, the global column word is the word of `q + j * 2176`. -/
theorem colWord_ofNat (j : ℕ) (q : Fin 2176) :
    colWord (BitVec.ofNat 32 j * 2176#32) q = BitVec.ofNat 32 (q.val + j * 2176) := by
  unfold colWord
  rw [BitVec.ofNat_add, BitVec.ofNat_mul]

/-- Two words of naturals below `2 ^ 32` are equal exactly when the naturals are. -/
theorem ofNat_eq_iff {a b : ℕ} (ha : a < 4294967296) (hb : b < 4294967296) :
    BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- The word of a natural below `2 ^ 31` read as a signed integer is the natural. -/
theorem toInt_ofNat_small {n : ℕ} (hn : n < 2147483648) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1]
  split <;> omega

/-- The positive mask at the grid point whose row block is `i` and whose column offset is `j` tiles, in naturals:
    zero where the labels differ; where they agree, one off the diagonal `global row = global column`, and on it one
    exactly when the global row lies in `[4352, 8192)`. -/
theorem pay3_apply_nat (i j : ℕ) (v28 : IVec S256x2176 1) (r : Fin 256) (q : Fin 2176)
    (hi : r.val + (3841 + i * 256) < 2147483648) (hj : q.val + j * 2176 < 4294967296) :
    k0_pay3 (F := Ideal) (BitVec.ofNat 32 i) (BitVec.ofNat 32 j * 2176#32) v28 (ix2 r q)
      = if v28 (ix2 r q) = 1#1 then
          (if r.val + (3841 + i * 256) = q.val + j * 2176 then
            (if 4352 ≤ r.val + (3841 + i * 256) ∧ r.val + (3841 + i * 256) < 8192 then (1 : EReal) else 0)
           else 1)
        else 0 := by
  rw [pay3_apply, rowWord_ofNat, colWord_ofNat]
  have hs : (((4352#32 : BitVec 32).sle (BitVec.ofNat 32 (r.val + (3841 + i * 256)))
        && (BitVec.ofNat 32 (r.val + (3841 + i * 256))).slt 8192#32) = true)
      ↔ (4352 ≤ r.val + (3841 + i * 256) ∧ r.val + (3841 + i * 256) < 8192) := by
    have h1 : (4352#32 : BitVec 32).toInt = 4352 := by decide
    have h2 : (8192#32 : BitVec 32).toInt = 8192 := by decide
    rw [Bool.and_eq_true, BitVec.sle, BitVec.slt, decide_eq_true_iff, decide_eq_true_iff, toInt_ofNat_small hi, h1, h2]
    omega
  simp only [ofNat_eq_iff (show r.val + (3841 + i * 256) < 4294967296 by omega) hj, hs]

/-- The same at the grid's own words: row block `i` of 17 and column tile `j` of 4, the column offset being the
    product word the kernel computes. -/
theorem pay3_apply_grid (i : Fin 17) (j : Fin 4) (v28 : IVec S256x2176 1) (r : Fin 256) (q : Fin 2176) :
    k0_pay3 (F := Ideal) (BitVec.ofNat 32 i.val) (Scalar.muli (BitVec.ofNat 32 j.val) 2176#32) v28 (ix2 r q)
      = if v28 (ix2 r q) = 1#1 then
          (if r.val + (3841 + i.val * 256) = q.val + j.val * 2176 then
            (if 4352 ≤ r.val + (3841 + i.val * 256) ∧ r.val + (3841 + i.val * 256) < 8192 then (1 : EReal) else 0)
           else 1)
        else 0 :=
  pay3_apply_nat i.val j.val v28 r q (by have := i.isLt; have := r.isLt; omega) (by have := j.isLt; have := q.isLt; omega)

end Cert.KernelIdeal.PayAt

end
-- ==== Proof.LibOnlineSoftmax.lean ====
/-
  Online softmax, tile by tile.

  A row of scores is visited in `n` tiles of `K` columns. The running maximum starts at
  `-∞` and absorbs each tile's maximum; the running sum starts at `0`, is rescaled by
  `exp (old maximum - new maximum)` at each tile and then absorbs the tile's weighted
  exponentials taken against the new maximum. This file proves that after `n` tiles the
  pair equals the one-shot maximum of all visited scores and the one-shot weighted sum
  of exponentials against that maximum, and that both are finite reals. It also holds
  the regrouping of a sum, and of a supremum, over one long axis of `n * K` positions
  into `n` tiles of `K`.

  Values are extended reals; `Ideal.exp` sends `-∞` to `0`, so the first rescaling,
  against the starting maximum `-∞`, multiplies the starting sum `0` by `0`.
-/
import Idealize.ShloMosaic.PureOps.Ideal
import Mathlib.Algebra.BigOperators.Fin
import Mathlib.Logic.Equiv.Fin.Basic
import Mathlib.Data.Finset.Lattice.Fold

open Idealize.ShloMosaic
open scoped BigOperators

namespace Cert.Lib.OnlineSoftmax

/-! ### Coercion of a finite real sum -/

/-- The extended real of a finite sum of reals is the sum of the extended reals. -/
theorem coe_finset_sum {ι : Type*} (s : Finset ι) (f : ι → ℝ) :
    ((∑ i ∈ s, f i : ℝ) : EReal) = ∑ i ∈ s, ((f i : ℝ) : EReal) := by
  classical
  refine Finset.induction_on s ?_ ?_
  · simp
  · intro i s hi ih
    rw [Finset.sum_insert hi, Finset.sum_insert hi, EReal.coe_add, ih]

/-- One weighted exponential term with a real score, a real maximum and a real weight is
    the extended real of the real term. -/
theorem term_coe (x M y : ℝ) :
    Ideal.exp (((x : ℝ) : EReal) - ((M : ℝ) : EReal)) * ((y : ℝ) : EReal)
      = ((Real.exp (x - M) * y : ℝ) : EReal) := by
  rw [← EReal.coe_sub, Ideal.exp_coe, ← EReal.coe_mul]

section Run
variable {K : ℕ} (a w : ℕ → Fin K → ℝ)

/-- The running maximum after `j` tiles: `-∞` before the first tile, then the larger of
    the previous value and the tile's maximum. -/
noncomputable def runMax : ℕ → EReal
  | 0 => ⊥
  | j+1 => max (runMax j) (Finset.univ.sup fun q : Fin K => ((a j q : ℝ) : EReal))

/-- The running sum after `j` tiles: `0` before the first tile, then the previous value
    rescaled from the old maximum to the new one, plus the tile's weighted exponentials
    against the new maximum. -/
noncomputable def runSum : ℕ → EReal
  | 0 => 0
  | j+1 => Ideal.exp (runMax a j - runMax a (j+1)) * runSum j
            + ∑ q : Fin K, Ideal.exp (((a j q : ℝ) : EReal) - runMax a (j+1)) * ((w j q : ℝ) : EReal)

@[simp] theorem runMax_zero : runMax a 0 = ⊥ := rfl

/-- One step of the running maximum. -/
theorem runMax_succ (j : ℕ) :
    runMax a (j+1) = max (runMax a j) (Finset.univ.sup fun q : Fin K => ((a j q : ℝ) : EReal)) := rfl

@[simp] theorem runSum_zero : runSum a w 0 = 0 := rfl

/-- One step of the running sum. -/
theorem runSum_succ (j : ℕ) :
    runSum a w (j+1) = Ideal.exp (runMax a j - runMax a (j+1)) * runSum a w j
      + ∑ q : Fin K, Ideal.exp (((a j q : ℝ) : EReal) - runMax a (j+1)) * ((w j q : ℝ) : EReal) := rfl

/-- The running maximum after `n` tiles is the maximum over all visited tiles of the
    tile maxima. -/
theorem runMax_eq (n : ℕ) :
    runMax a n = (Finset.range n).sup fun j => Finset.univ.sup fun q : Fin K => ((a j q : ℝ) : EReal) := by
  induction n with
  | zero => simp
  | succ n ih =>
    rw [runMax_succ, Finset.range_add_one, Finset.sup_insert, ih]
    exact max_comm _ _

/-- With at least one column per tile and at least one tile visited, the running maximum
    is a real number, it bounds every visited score, and some visited score attains it. -/
theorem runMax_real_attained (hK : 0 < K) (n : ℕ) (hn : 0 < n) :
    ∃ M : ℝ, runMax a n = (M : EReal) ∧ (∀ j < n, ∀ q, a j q ≤ M) ∧ ∃ j < n, ∃ q, a j q = M := by
  obtain ⟨j, hj, hjeq⟩ := Finset.exists_mem_eq_sup (Finset.range n) ⟨0, Finset.mem_range.2 hn⟩
    (fun j => Finset.univ.sup fun q : Fin K => ((a j q : ℝ) : EReal))
  obtain ⟨q, -, hq⟩ := Finset.exists_mem_eq_sup (Finset.univ : Finset (Fin K))
    ⟨⟨0, hK⟩, Finset.mem_univ _⟩ (fun q : Fin K => ((a j q : ℝ) : EReal))
  have hM : runMax a n = ((a j q : ℝ) : EReal) := (runMax_eq a n).trans (hjeq.trans hq)
  refine ⟨a j q, hM, ?_, j, Finset.mem_range.1 hj, q, rfl⟩
  intro j' hj' q'
  rw [← EReal.coe_le_coe_iff, ← hM, runMax_eq]
  exact le_trans
    (Finset.le_sup (f := fun q : Fin K => ((a j' q : ℝ) : EReal)) (Finset.mem_univ q'))
    (Finset.le_sup (f := fun j => Finset.univ.sup fun q : Fin K => ((a j q : ℝ) : EReal))
      (Finset.mem_range.2 hj'))

/-- With at least one column per tile and at least one tile visited, the running maximum
    is a real number that bounds every visited score. -/
theorem runMax_real (hK : 0 < K) (n : ℕ) (hn : 0 < n) :
    ∃ M : ℝ, runMax a n = (M : EReal) ∧ ∀ j < n, ∀ q, a j q ≤ M := by
  obtain ⟨M, hM, hle, -⟩ := runMax_real_attained a hK n hn
  exact ⟨M, hM, hle⟩

/-- The one-shot weighted sum of real exponentials of the first `n` tiles against a real
    reference point `M`. -/
noncomputable def realSum (M : ℝ) (n : ℕ) : ℝ :=
  ∑ j ∈ Finset.range n, ∑ q : Fin K, Real.exp (a j q - M) * w j q

/-- Against a real reference point, the one-shot sum of extended-real terms is the
    extended real of the real one-shot sum. -/
theorem sum_coe (M : ℝ) (n : ℕ) :
    (∑ j ∈ Finset.range n, ∑ q : Fin K,
        Ideal.exp (((a j q : ℝ) : EReal) - ((M : ℝ) : EReal)) * ((w j q : ℝ) : EReal))
      = ((realSum a w M n : ℝ) : EReal) := by
  unfold realSum
  rw [coe_finset_sum]
  refine Finset.sum_congr rfl fun j _ => ?_
  rw [coe_finset_sum]
  exact Finset.sum_congr rfl fun q _ => term_coe _ _ _

/-- Moving the reference point from `M` to `M'` multiplies the real one-shot sum by
    `exp (M - M')`: this is `exp (M - M') * exp (x - M) = exp (x - M')` term by term. -/
theorem realSum_shift (M M' : ℝ) (n : ℕ) :
    Real.exp (M - M') * realSum a w M n = realSum a w M' n := by
  unfold realSum
  rw [Finset.mul_sum]
  refine Finset.sum_congr rfl fun j _ => ?_
  rw [Finset.mul_sum]
  refine Finset.sum_congr rfl fun q _ => ?_
  have h : M - M' + (a j q - M) = a j q - M' := by ring
  rw [← mul_assoc, ← Real.exp_add, h]

/-- With nonnegative weights the real one-shot sum is nonnegative. -/
theorem realSum_nonneg (M : ℝ) (n : ℕ) (hw : ∀ j < n, ∀ q, 0 ≤ w j q) :
    0 ≤ realSum a w M n :=
  Finset.sum_nonneg fun j hj => Finset.sum_nonneg fun q _ =>
    mul_nonneg (Real.exp_pos _).le (hw j (Finset.mem_range.1 hj) q)

/-- The running sum after `n` tiles is the one-shot weighted sum of exponentials of all
    visited scores against the running maximum after `n` tiles. At the first tile the
    old maximum is `-∞` and the rescaling factor `exp (-∞ - real)` is `0` against the sum
    `0`; at every later tile both maxima are real and the rescaling is the shift of the
    reference point in the reals. -/
theorem runSum_eq (hK : 0 < K) (n : ℕ) :
    runSum a w n = ∑ j ∈ Finset.range n, ∑ q : Fin K,
      Ideal.exp (((a j q : ℝ) : EReal) - runMax a n) * ((w j q : ℝ) : EReal) := by
  induction n with
  | zero => simp
  | succ n ih =>
    rw [runSum_succ, Finset.sum_range_succ, ih]
    refine congrArg₂ (· + ·) ?_ rfl
    rcases Nat.eq_zero_or_pos n with h0 | hpos
    · subst h0
      simp
    · obtain ⟨M, hM, -⟩ := runMax_real a hK n hpos
      obtain ⟨M', hM', -⟩ := runMax_real a hK (n+1) (Nat.succ_pos n)
      rw [hM, hM', sum_coe a w M n, sum_coe a w M' n, ← EReal.coe_sub, Ideal.exp_coe,
        ← EReal.coe_mul, realSum_shift]

/-- When the running maximum after `n` tiles is the real `M`, the running sum is the
    extended real of the real one-shot sum against `M`. -/
theorem runSum_eq_coe (hK : 0 < K) (n : ℕ) (M : ℝ) (hM : runMax a n = (M : EReal)) :
    runSum a w n = ((realSum a w M n : ℝ) : EReal) := by
  rw [runSum_eq a w hK, hM, sum_coe]

/-- The running sum is a finite real, nonnegative when the visited weights are. -/
theorem runSum_real_nonneg (hK : 0 < K) (n : ℕ) :
    ∃ s : ℝ, runSum a w n = (s : EReal) ∧ ((∀ j < n, ∀ q, 0 ≤ w j q) → 0 ≤ s) := by
  rcases Nat.eq_zero_or_pos n with h0 | hpos
  · subst h0
    exact ⟨0, by simp, fun _ => le_rfl⟩
  · obtain ⟨M, hM, -⟩ := runMax_real a hK n hpos
    exact ⟨realSum a w M n, runSum_eq_coe a w hK n M hM, fun hw => realSum_nonneg a w M n hw⟩

/-- The running sum is a finite real. -/
theorem runSum_real (hK : 0 < K) (n : ℕ) : ∃ s : ℝ, runSum a w n = (s : EReal) := by
  obtain ⟨s, hs, -⟩ := runSum_real_nonneg a w hK n
  exact ⟨s, hs⟩

end Run

/-! ### One long axis of `n * K` positions as `n` tiles of `K` -/

/-- Position `q` of tile `j` lies inside the long axis. -/
theorem tile_lt {n K : ℕ} (j : Fin n) (q : Fin K) : j.val * K + q.val < n * K :=
  calc j.val * K + q.val < j.val * K + K := Nat.add_lt_add_left q.isLt _
    _ = (j.val + 1) * K := (Nat.succ_mul _ _).symm
    _ ≤ n * K := Nat.mul_le_mul_right K j.isLt

/-- Every position of the long axis is position `q` of tile `j` for some `j` and `q`
    (quotient and remainder by `K`). -/
theorem tile_decomp {n K : ℕ} (c : Fin (n * K)) :
    ∃ (j : Fin n) (q : Fin K), c = ⟨j.val * K + q.val, tile_lt j q⟩ := by
  have hK : 0 < K := by
    rcases Nat.eq_zero_or_pos K with h | h
    · exact absurd c.isLt (by simp [h])
    · exact h
  refine ⟨⟨c.val / K, (Nat.div_lt_iff_lt_mul hK).2 c.isLt⟩, ⟨c.val % K, Nat.mod_lt _ hK⟩, Fin.ext ?_⟩
  show c.val = c.val / K * K + c.val % K
  exact (Nat.div_add_mod' c.val K).symm

/-- A sum over the long axis is the sum over tiles of the sums inside each tile. -/
theorem sum_tiles {n K : ℕ} {M : Type*} [AddCommMonoid M] (f : Fin (n * K) → M) :
    ∑ c : Fin (n * K), f c
      = ∑ j : Fin n, ∑ q : Fin K, f ⟨j.val * K + q.val, tile_lt j q⟩ := by
  refine Eq.trans ?_ (Fintype.sum_prod_type'
    (fun (j : Fin n) (q : Fin K) => f ⟨j.val * K + q.val, tile_lt j q⟩))
  refine (Fintype.sum_equiv finProdFinEquiv
    (fun p : Fin n × Fin K => f ⟨p.1.val * K + p.2.val, tile_lt p.1 p.2⟩) f fun p => ?_).symm
  refine congrArg f (Fin.ext ?_)
  show p.1.val * K + p.2.val = p.2.val + K * p.1.val
  ring

/-- The sum over the long axis against a family indexed by tile number and position. -/
theorem sum_tiles_of {n K : ℕ} {M : Type*} [AddCommMonoid M] (f : Fin (n * K) → M)
    (F : ℕ → Fin K → M)
    (h : ∀ (j : Fin n) (q : Fin K), f ⟨j.val * K + q.val, tile_lt j q⟩ = F j.val q) :
    ∑ c : Fin (n * K), f c = ∑ j ∈ Finset.range n, ∑ q : Fin K, F j q := by
  rw [sum_tiles, Finset.sum_range]
  exact Finset.sum_congr rfl fun j _ => Finset.sum_congr rfl fun q _ => h j q

/-- The same regrouping for a function of a natural-number position, over ranges. -/
theorem sum_tiles_range {n K : ℕ} {M : Type*} [AddCommMonoid M] (f : ℕ → M) :
    ∑ c ∈ Finset.range (n * K), f c
      = ∑ j ∈ Finset.range n, ∑ q ∈ Finset.range K, f (j * K + q) := by
  rw [Finset.sum_range, sum_tiles, Finset.sum_range]
  refine Finset.sum_congr rfl fun j _ => ?_
  rw [Finset.sum_range]

/-- A supremum over the long axis is the supremum over tiles of the suprema inside each
    tile. -/
theorem sup_tiles {n K : ℕ} {α : Type*} [SemilatticeSup α] [OrderBot α] (g : Fin (n * K) → α) :
    Finset.univ.sup g
      = Finset.univ.sup fun j : Fin n => Finset.univ.sup fun q : Fin K =>
          g ⟨j.val * K + q.val, tile_lt j q⟩ := by
  apply le_antisymm
  · refine Finset.sup_le fun c _ => ?_
    obtain ⟨j, q, hc⟩ := tile_decomp c
    subst hc
    exact le_trans
      (Finset.le_sup (f := fun q : Fin K => g ⟨j.val * K + q.val, tile_lt j q⟩) (Finset.mem_univ q))
      (Finset.le_sup (f := fun j : Fin n => Finset.univ.sup fun q : Fin K =>
          g ⟨j.val * K + q.val, tile_lt j q⟩) (Finset.mem_univ j))
  · exact Finset.sup_le fun j _ => Finset.sup_le fun q _ => Finset.le_sup (Finset.mem_univ _)

/-- A supremum over the first `n` naturals is the supremum over `Fin n`. -/
theorem sup_range_eq_sup_fin {α : Type*} [SemilatticeSup α] [OrderBot α] (n : ℕ) (F : ℕ → α) :
    (Finset.range n).sup F = Finset.univ.sup fun j : Fin n => F j.val := by
  apply le_antisymm
  · exact Finset.sup_le fun j hj =>
      Finset.le_sup (f := fun j : Fin n => F j.val)
        (Finset.mem_univ (⟨j, Finset.mem_range.1 hj⟩ : Fin n))
  · exact Finset.sup_le fun j _ => Finset.le_sup (f := F) (Finset.mem_range.2 j.isLt)

/-- The supremum over the long axis against a family indexed by tile number and
    position. -/
theorem sup_tiles_of {n K : ℕ} {α : Type*} [SemilatticeSup α] [OrderBot α] (g : Fin (n * K) → α)
    (G : ℕ → Fin K → α)
    (h : ∀ (j : Fin n) (q : Fin K), g ⟨j.val * K + q.val, tile_lt j q⟩ = G j.val q) :
    Finset.univ.sup g = (Finset.range n).sup fun j => Finset.univ.sup fun q : Fin K => G j q := by
  rw [sup_tiles, sup_range_eq_sup_fin]
  exact Finset.sup_congr rfl fun j _ => Finset.sup_congr rfl fun q _ => h j q

/-! ### The tiled recurrences against one long row -/

section Long
variable {n K : ℕ} (a w : ℕ → Fin K → ℝ) (x y : Fin (n * K) → ℝ)

/-- When the tiles are the consecutive blocks of a long row `x`, the running maximum after
    all `n` tiles is the maximum of the long row. -/
theorem runMax_eq_long
    (ha : ∀ (j : Fin n) (q : Fin K), a j.val q = x ⟨j.val * K + q.val, tile_lt j q⟩) :
    runMax a n = Finset.univ.sup fun c : Fin (n * K) => ((x c : ℝ) : EReal) := by
  rw [runMax_eq]
  exact (sup_tiles_of (fun c : Fin (n * K) => ((x c : ℝ) : EReal))
    (fun j q => ((a j q : ℝ) : EReal))
    (fun j q => congrArg (fun r : ℝ => (r : EReal)) (ha j q).symm)).symm

/-- When the tiles are the consecutive blocks of a long row of scores `x` and of weights
    `y`, the running sum after all `n` tiles is the weighted sum of exponentials of the
    long row against its maximum. -/
theorem runSum_eq_long (hK : 0 < K)
    (ha : ∀ (j : Fin n) (q : Fin K), a j.val q = x ⟨j.val * K + q.val, tile_lt j q⟩)
    (hw : ∀ (j : Fin n) (q : Fin K), w j.val q = y ⟨j.val * K + q.val, tile_lt j q⟩) :
    runSum a w n = ∑ c : Fin (n * K),
      Ideal.exp (((x c : ℝ) : EReal) - Finset.univ.sup fun c : Fin (n * K) => ((x c : ℝ) : EReal))
        * ((y c : ℝ) : EReal) := by
  rw [runSum_eq a w hK, ← runMax_eq_long a x ha]
  exact (sum_tiles_of
    (fun c : Fin (n * K) => Ideal.exp (((x c : ℝ) : EReal) - runMax a n) * ((y c : ℝ) : EReal))
    (fun j q => Ideal.exp (((a j q : ℝ) : EReal) - runMax a n) * ((w j q : ℝ) : EReal))
    (fun j q => by beta_reduce; rw [ha j q, hw j q])).symm

/-- The same with the maximum named as a real `M`: the running sum is the extended real of
    the real weighted sum of exponentials of the long row against `M`. -/
theorem runSum_eq_long_coe (hK : 0 < K)
    (ha : ∀ (j : Fin n) (q : Fin K), a j.val q = x ⟨j.val * K + q.val, tile_lt j q⟩)
    (hw : ∀ (j : Fin n) (q : Fin K), w j.val q = y ⟨j.val * K + q.val, tile_lt j q⟩)
    (M : ℝ) (hM : runMax a n = (M : EReal)) :
    runSum a w n = ((∑ c : Fin (n * K), Real.exp (x c - M) * y c : ℝ) : EReal) := by
  rw [runSum_eq_coe a w hK n M hM]
  refine congrArg (fun r : ℝ => (r : EReal)) ?_
  unfold realSum
  exact (sum_tiles_of (fun c : Fin (n * K) => Real.exp (x c - M) * y c)
    (fun j q => Real.exp (a j q - M) * w j q)
    (fun j q => by beta_reduce; rw [ha j q, hw j q])).symm

end Long

end Cert.Lib.OnlineSoftmax
-- ==== Proof.Consts.lean ====
/-
  The float constants the two programs spell, as the extended reals their patterns denote,
  and the kernel's named reciprocal temperature. One module states them all: the patterns
  are unfolded here, once, and every other module reads the constants from here.

  The reference divides by the temperature `f32(0.07) = 9395241 / 2^27`; the kernel multiplies
  by the named constant `"inv_temp"`, to which the table of named constants `κ` gives the exact reciprocal
  `2^27 / 9395241`. Division by a nonzero real is the product with its reciprocal on every
  extended real, so the two meet (`div_temp`).
-/
import Idealize.ShloMosaic.PureOps.Ideal
import Idealize.ShloMosaic.PureOps.IdealRules
import proofs.«108923_j8598524526701_2_alg».proof.KernelIdeal

noncomputable section

namespace Cert.Consts

open Idealize.ShloMosaic

/-- The pattern of `+∞` denotes `⊤`. -/
theorem ofBits_pos_inf : Ideal.ofBits .f32 0x7F800000#32 = ⊤ := by
  simp [Ideal.ofBits, Ideal.ieee]

/-- The pattern of `-∞` denotes `⊥`. -/
theorem ofBits_neg_inf : Ideal.ofBits .f32 0xFF800000#32 = ⊥ := by
  simp [Ideal.ofBits, Ideal.ieee]

/-- `+0.0` denotes `0`. -/
theorem ofBits_zero : Ideal.ofBits .f32 0#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `-1.0` denotes `-1`. -/
theorem ofBits_neg_one : Ideal.ofBits .f32 0xBF800000#32 = -1 := by
  simp [Ideal.ofBits, Ideal.ieee, -EReal.coe_mul]; norm_num

/-- `4352.0` denotes the real `4352`. -/
theorem ofBits_4352 : Ideal.ofBits .f32 0x45880000#32 = ((4352 : ℝ) : EReal) := by
  simp [Ideal.ofBits, Ideal.ieee, -EReal.coe_mul]; norm_num

/-- The reference's temperature `f32(0.07)` denotes the dyadic rational `9395241 / 2^27`. -/
theorem ofBits_temp : Ideal.ofBits .f32 0x3D8F5C29#32 = ((9395241 / 134217728 : ℝ) : EReal) := by
  simp [Ideal.ofBits, Ideal.ieee, -EReal.coe_mul]; norm_num

/-- The kernel's named reciprocal temperature denotes the rational `2^27 / 9395241`: the
    value the table of named constants `κ` gives the name. -/
theorem inv_temp :
    Named.named (F := Ideal) Cert.KernelIdeal.κ "inv_temp" (φ := .f32) 0x41649249#32
      = ((134217728 / 9395241 : ℝ) : EReal) :=
  IdealRules.named_const.ideal_named_scalar _ _ _ _ rfl

/-- Dividing by the reference's temperature is multiplying by the kernel's named reciprocal,
    on every extended real. -/
theorem div_temp (x : EReal) :
    Ideal.div x (Ideal.ofBits .f32 0x3D8F5C29#32)
      = x * Named.named (F := Ideal) Cert.KernelIdeal.κ "inv_temp" (φ := .f32) 0x41649249#32 := by
  have h : (1 / (9395241 / 134217728) : ℝ) = 134217728 / 9395241 := by norm_num
  rw [ofBits_temp, inv_temp, Ideal.div_coe (by norm_num : (9395241 / 134217728 : ℝ) ≠ 0), h]

end Cert.Consts

end
-- ==== Proof.KI.RowBlock.lean ====
/-
  One row block of the kernel body as a pure recurrence over the payloads, and its closed form.

  A row block visits its four column tiles twice. The first sweep carries, for each of the 256 rows, a running
  maximum of the scaled similarities (from minus infinity) and a running sum of exponentials over the columns whose
  label differs from the row's (from zero), each tile rescaling the sum to the new maximum: the online softmax.
  After it the logarithm of the sum is taken. The second sweep carries the sum of the positive mask times the
  clipped log-probability, and the sum of the positive mask, both from zero.

  With real entries in the anchor rows and in the four tiles, the first sweep ends at the maximum of the row's
  scores over all four tiles and at the one-shot sum of the exponentials against that maximum; the second sweep's
  two sums are additive over the tiles on the extended reals with no finiteness needed.
-/
import proofs.«108923_j8598524526701_2_alg».proof.Proof.KI.Pay
import proofs.«108923_j8598524526701_2_alg».proof.Proof.KI.PayNat
import proofs.«108923_j8598524526701_2_alg».proof.Proof.LibOnlineSoftmax
import proofs.«108923_j8598524526701_2_alg».proof.Proof.Consts

noncomputable section

open scoped BigOperators

namespace Cert.KernelIdeal.RowBlock

open Cert.KernelIdeal Cert.KernelIdeal.Gen Cert.KernelIdeal.PayAt Idealize.ShloMosaic Idealize.ShloMosaic.ValueIdx
open Cert.Lib.OnlineSoftmax

/-! ## The eight steps -/

section Steps
variable (A : Vec Ideal S256x128 .bf16) (Ct : Fin 4 → Vec Ideal S2176x128 .bf16)
  (clt : Fin 4 → Vec Ideal S1x2176 .i32) (alab : Vec Ideal S256x1 .i32) (i : Fin 17)

/-- The running maximum before the first tile. -/
def m0 : FVec Ideal S256x1 .f32 := k0_pay5 (F := Ideal)
/-- The running sum before the first tile. -/
def l0 : FVec Ideal S256x1 .f32 := k0_pay6 (F := Ideal)

/-- The running sum after tile 0 (from the old maximum and the old sum). -/
def l1 : FVec Ideal S256x1 .f32 := k0_pay12 (F := Ideal) A (Ct 0) (clt 0) alab m0 m0 l0
/-- The running maximum after tile 0. -/
def m1 : FVec Ideal S256x1 .f32 := k0_pay13 (F := Ideal) A (Ct 0) m0
/-- The running sum after tile 1. -/
def l2 : FVec Ideal S256x1 .f32 := k0_pay12 (F := Ideal) A (Ct 1) (clt 1) alab (m1 A Ct) (m1 A Ct) (l1 A Ct clt alab)
/-- The running maximum after tile 1. -/
def m2 : FVec Ideal S256x1 .f32 := k0_pay13 (F := Ideal) A (Ct 1) (m1 A Ct)
/-- The running sum after tile 2. -/
def l3 : FVec Ideal S256x1 .f32 := k0_pay12 (F := Ideal) A (Ct 2) (clt 2) alab (m2 A Ct) (m2 A Ct) (l2 A Ct clt alab)
/-- The running maximum after tile 2. -/
def m3 : FVec Ideal S256x1 .f32 := k0_pay13 (F := Ideal) A (Ct 2) (m2 A Ct)
/-- The running sum after tile 3: the first sweep's sum. -/
def l4 : FVec Ideal S256x1 .f32 := k0_pay12 (F := Ideal) A (Ct 3) (clt 3) alab (m3 A Ct) (m3 A Ct) (l3 A Ct clt alab)
/-- The running maximum after tile 3: the first sweep's maximum. -/
def m4 : FVec Ideal S256x1 .f32 := k0_pay13 (F := Ideal) A (Ct 3) (m3 A Ct)

/-- The logarithm of the first sweep's sum. -/
def ld : FVec Ideal S256x1 .f32 := k0_pay1 (F := Ideal) (l4 A Ct clt alab)

/-- The masked log-probability sum before the first tile of the second sweep. -/
def nu0 : FVec Ideal S256x1 .f32 := k0_pay7 (F := Ideal)
/-- The positive count before the first tile of the second sweep. -/
def ms0 : FVec Ideal S256x1 .f32 := k0_pay8 (F := Ideal)

/-- The masked log-probability sum after tile 0 of the second sweep. -/
def nu1 : FVec Ideal S256x1 .f32 :=
  k0_pay4 (F := Ideal) (BitVec.ofNat 32 i.val) (Scalar.muli (BitVec.ofNat 32 (0 : Fin 4).val) 2176#32)
    (k0_pay9 (F := Ideal) A (Ct 0)) (k0_pay10 (F := Ideal) (clt 0) alab) (m4 A Ct) (ld A Ct clt alab) nu0
/-- The positive count after tile 0 of the second sweep. -/
def ms1 : FVec Ideal S256x1 .f32 :=
  k0_pay2 (F := Ideal) (k0_pay3 (F := Ideal) (BitVec.ofNat 32 i.val) (Scalar.muli (BitVec.ofNat 32 (0 : Fin 4).val) 2176#32)
    (k0_pay10 (F := Ideal) (clt 0) alab)) ms0
/-- The masked log-probability sum after tile 1 of the second sweep. -/
def nu2 : FVec Ideal S256x1 .f32 :=
  k0_pay4 (F := Ideal) (BitVec.ofNat 32 i.val) (Scalar.muli (BitVec.ofNat 32 (1 : Fin 4).val) 2176#32)
    (k0_pay9 (F := Ideal) A (Ct 1)) (k0_pay10 (F := Ideal) (clt 1) alab) (m4 A Ct) (ld A Ct clt alab) (nu1 A Ct clt alab i)
/-- The positive count after tile 1 of the second sweep. -/
def ms2 : FVec Ideal S256x1 .f32 :=
  k0_pay2 (F := Ideal) (k0_pay3 (F := Ideal) (BitVec.ofNat 32 i.val) (Scalar.muli (BitVec.ofNat 32 (1 : Fin 4).val) 2176#32)
    (k0_pay10 (F := Ideal) (clt 1) alab)) (ms1 clt alab i)
/-- The masked log-probability sum after tile 2 of the second sweep. -/
def nu3 : FVec Ideal S256x1 .f32 :=
  k0_pay4 (F := Ideal) (BitVec.ofNat 32 i.val) (Scalar.muli (BitVec.ofNat 32 (2 : Fin 4).val) 2176#32)
    (k0_pay9 (F := Ideal) A (Ct 2)) (k0_pay10 (F := Ideal) (clt 2) alab) (m4 A Ct) (ld A Ct clt alab) (nu2 A Ct clt alab i)
/-- The positive count after tile 2 of the second sweep. -/
def ms3 : FVec Ideal S256x1 .f32 :=
  k0_pay2 (F := Ideal) (k0_pay3 (F := Ideal) (BitVec.ofNat 32 i.val) (Scalar.muli (BitVec.ofNat 32 (2 : Fin 4).val) 2176#32)
    (k0_pay10 (F := Ideal) (clt 2) alab)) (ms2 clt alab i)
/-- The masked log-probability sum after tile 3: the second sweep's first result. -/
def nu4 : FVec Ideal S256x1 .f32 :=
  k0_pay4 (F := Ideal) (BitVec.ofNat 32 i.val) (Scalar.muli (BitVec.ofNat 32 (3 : Fin 4).val) 2176#32)
    (k0_pay9 (F := Ideal) A (Ct 3)) (k0_pay10 (F := Ideal) (clt 3) alab) (m4 A Ct) (ld A Ct clt alab) (nu3 A Ct clt alab i)
/-- The positive count after tile 3: the second sweep's second result. -/
def ms4 : FVec Ideal S256x1 .f32 :=
  k0_pay2 (F := Ideal) (k0_pay3 (F := Ideal) (BitVec.ofNat 32 i.val) (Scalar.muli (BitVec.ofNat 32 (3 : Fin 4).val) 2176#32)
    (k0_pay10 (F := Ideal) (clt 3) alab)) (ms3 clt alab i)

/-! ## The quantities of the closed form -/

/-- The scaled similarity of row `r` with column `q` of tile `j`. -/
def z (r : Fin 256) (j : Fin 4) (q : Fin 2176) : EReal :=
  (∑ k : Fin 128, A (ix2 r k) * Ct j (ix2 q k)) * Named.named (F := Ideal) κ "inv_temp" (φ := .f32) 0x41649249#32

/-- The weight of column `q` of tile `j` in row `r`'s sum of exponentials: zero where the labels agree. -/
def lmW (r : Fin 256) (j : Fin 4) (q : Fin 2176) : EReal :=
  if (alab (ix2 r (0 : Fin 1)) : BitVec 32) = clt j (ix2 (0 : Fin 1) q) then 0 else 1

/-- The positive mask of row `r` of row block `i` at column `q` of tile `j`: zero where the labels differ; where
    they agree, one off the diagonal of global row and global column, and on it one exactly when the global row
    lies in `[4352, 8192)`. -/
def maskW (r : Fin 256) (j : Fin 4) (q : Fin 2176) : EReal :=
  if (alab (ix2 r (0 : Fin 1)) : BitVec 32) = clt j (ix2 (0 : Fin 1) q) then
    (if r.val + (3841 + i.val * 256) = q.val + j.val * 2176 then
      (if 4352 ≤ r.val + (3841 + i.val * 256) ∧ r.val + (3841 + i.val * 256) < 8192 then 1 else 0)
     else 1)
  else 0

/-! ## One step of each sweep at a row -/

/-- One step of the running maximum. -/
theorem stepM (r : Fin 256) (j : Fin 4) (m : Vec Ideal S256x1 .f32) :
    k0_pay13 (F := Ideal) A (Ct j) m (ix2 r (0 : Fin 1))
      = max (m (ix2 r (0 : Fin 1))) (Finset.univ.sup fun q : Fin 2176 => z A Ct r j q) := by
  rw [pay13_apply, pay11_apply]
  exact congrArg (max _) (Finset.sup_congr rfl fun q _ => pay9_apply A (Ct j) r q)

/-- One step of the running sum, against the new maximum. -/
theorem stepL (r : Fin 256) (j : Fin 4) (m l : Vec Ideal S256x1 .f32) :
    k0_pay12 (F := Ideal) A (Ct j) (clt j) alab m m l (ix2 r (0 : Fin 1))
      = Ideal.exp (m (ix2 r (0 : Fin 1)) - k0_pay13 (F := Ideal) A (Ct j) m (ix2 r (0 : Fin 1))) * l (ix2 r (0 : Fin 1))
        + ∑ q : Fin 2176, Ideal.exp (z A Ct r j q - k0_pay13 (F := Ideal) A (Ct j) m (ix2 r (0 : Fin 1)))
            * lmW clt alab r j q := by
  rw [pay12_apply, pay13_apply]
  refine congrArg (HAdd.hAdd (α := EReal) (β := EReal) _) (Finset.sum_congr rfl fun q _ => ?_)
  rw [pay9_apply]
  rfl

/-- The positive mask payload on the label-equality mask payload is the positive mask. -/
theorem mask_eq (r : Fin 256) (j : Fin 4) (q : Fin 2176) :
    k0_pay3 (F := Ideal) (BitVec.ofNat 32 i.val) (Scalar.muli (BitVec.ofNat 32 j.val) 2176#32)
        (k0_pay10 (F := Ideal) (clt j) alab) (ix2 r q)
      = maskW clt alab i r j q := by
  rw [pay3_apply_grid, pay10_apply]
  by_cases h : (alab (ix2 r (0 : Fin 1)) : BitVec 32) = clt j (ix2 (0 : Fin 1) q) <;> simp [maskW, h]

/-- One step of the masked log-probability sum. -/
theorem stepNu (r : Fin 256) (j : Fin 4) (m ld' nu : Vec Ideal S256x1 .f32) :
    k0_pay4 (F := Ideal) (BitVec.ofNat 32 i.val) (Scalar.muli (BitVec.ofNat 32 j.val) 2176#32)
        (k0_pay9 (F := Ideal) A (Ct j)) (k0_pay10 (F := Ideal) (clt j) alab) m ld' nu (ix2 r (0 : Fin 1))
      = nu (ix2 r (0 : Fin 1))
        + ∑ q : Fin 2176, maskW clt alab i r j q
            * min 0 ((z A Ct r j q - m (ix2 r (0 : Fin 1))) - ld' (ix2 r (0 : Fin 1))) := by
  rw [pay4_apply]
  refine congrArg (HAdd.hAdd (α := EReal) (β := EReal) _) (Finset.sum_congr rfl fun q _ => ?_)
  rw [mask_eq, pay9_apply]
  rfl

/-- One step of the positive count. -/
theorem stepMs (r : Fin 256) (j : Fin 4) (ms : Vec Ideal S256x1 .f32) :
    k0_pay2 (F := Ideal) (k0_pay3 (F := Ideal) (BitVec.ofNat 32 i.val) (Scalar.muli (BitVec.ofNat 32 j.val) 2176#32)
        (k0_pay10 (F := Ideal) (clt j) alab)) ms (ix2 r (0 : Fin 1))
      = ms (ix2 r (0 : Fin 1)) + ∑ q : Fin 2176, maskW clt alab i r j q := by
  rw [pay2_apply]
  exact congrArg (HAdd.hAdd (α := EReal) (β := EReal) _)
    (Finset.sum_congr rfl fun q _ => mask_eq clt alab i r j q)

end Steps

/-! ## The first sweep is the online softmax -/

section FirstSweep
variable (A : Vec Ideal S256x128 .bf16) (Ct : Fin 4 → Vec Ideal S2176x128 .bf16)
  (clt : Fin 4 → Vec Ideal S1x2176 .i32) (alab : Vec Ideal S256x1 .i32)

/-- A family over four tiles read at every natural tile number, zero past the fourth. -/
def liftN (f : Fin 4 → Fin 2176 → ℝ) (j : ℕ) (q : Fin 2176) : ℝ := if h : j < 4 then f ⟨j, h⟩ q else 0

/-- At a tile number below four it is the family. -/
theorem liftN_val (f : Fin 4 → Fin 2176 → ℝ) (j : Fin 4) (q : Fin 2176) : liftN f j.val q = f j q := by
  unfold liftN
  rw [dif_pos j.isLt]

/-- With real entries the scaled similarities of a row are real. -/
theorem exists_real_scores (hA : ∀ idx, ∃ x : ℝ, A idx = ((x : ℝ) : EReal))
    (hC : ∀ j idx, ∃ x : ℝ, Ct j idx = ((x : ℝ) : EReal)) (r : Fin 256) :
    ∃ a' : ℕ → Fin 2176 → ℝ, ∀ (j : Fin 4) (q : Fin 2176), z A Ct r j q = ((a' j.val q : ℝ) : EReal) := by
  choose a ha using hA
  choose c hc using hC
  refine ⟨liftN fun j q => (∑ k : Fin 128, a (ix2 r k) * c j (ix2 q k)) * (134217728 / 9395241), fun j q => ?_⟩
  rw [liftN_val]
  unfold z
  have hs : (∑ k : Fin 128, A (ix2 r k) * Ct j (ix2 q k))
      = ((∑ k : Fin 128, a (ix2 r k) * c j (ix2 q k) : ℝ) : EReal) := by
    rw [coe_finset_sum]
    exact Finset.sum_congr rfl fun k _ => by rw [ha, hc, EReal.coe_mul]
  rw [hs, Cert.Consts.inv_temp, ← EReal.coe_mul]

/-- The weights of the sum of exponentials are the reals zero and one. -/
theorem exists_real_weights (r : Fin 256) :
    ∃ w' : ℕ → Fin 2176 → ℝ, (∀ (j : Fin 4) (q : Fin 2176), lmW clt alab r j q = ((w' j.val q : ℝ) : EReal))
      ∧ ∀ j q, 0 ≤ w' j q := by
  refine ⟨liftN fun j q => if (alab (ix2 r (0 : Fin 1)) : BitVec 32) = clt j (ix2 (0 : Fin 1) q) then 0 else 1,
    fun j q => ?_, fun j q => ?_⟩
  · rw [liftN_val]
    unfold lmW
    split
    · exact EReal.coe_zero.symm
    · exact EReal.coe_one.symm
  · unfold liftN
    split
    · beta_reduce
      split
      · exact le_rfl
      · exact zero_le_one
    · exact le_rfl

/-- One step of the running maximum follows the recurrence. -/
theorem stepM_run (a' : ℕ → Fin 2176 → ℝ) (r : Fin 256)
    (hz : ∀ (j : Fin 4) (q : Fin 2176), z A Ct r j q = ((a' j.val q : ℝ) : EReal))
    (j : Fin 4) (m : Vec Ideal S256x1 .f32) (hm : m (ix2 r (0 : Fin 1)) = runMax a' j.val) :
    k0_pay13 (F := Ideal) A (Ct j) m (ix2 r (0 : Fin 1)) = runMax a' (j.val + 1) := by
  rw [stepM, runMax_succ, hm]
  exact congrArg (max _) (Finset.sup_congr rfl fun q _ => hz j q)

/-- One step of the running sum follows the recurrence. -/
theorem stepL_run (a' w' : ℕ → Fin 2176 → ℝ) (r : Fin 256)
    (hz : ∀ (j : Fin 4) (q : Fin 2176), z A Ct r j q = ((a' j.val q : ℝ) : EReal))
    (hw : ∀ (j : Fin 4) (q : Fin 2176), lmW clt alab r j q = ((w' j.val q : ℝ) : EReal))
    (j : Fin 4) (m l : Vec Ideal S256x1 .f32) (hm : m (ix2 r (0 : Fin 1)) = runMax a' j.val)
    (hl : l (ix2 r (0 : Fin 1)) = runSum a' w' j.val) :
    k0_pay12 (F := Ideal) A (Ct j) (clt j) alab m m l (ix2 r (0 : Fin 1)) = runSum a' w' (j.val + 1) := by
  rw [stepL, stepM_run A Ct a' r hz j m hm, runSum_succ, hm, hl]
  refine congrArg (HAdd.hAdd (α := EReal) (β := EReal) _) (Finset.sum_congr rfl fun q _ => ?_)
  rw [hz, hw]

/-- The four running maxima of a row are the recurrence's. -/
theorem max_sweep (a' : ℕ → Fin 2176 → ℝ) (r : Fin 256)
    (hz : ∀ (j : Fin 4) (q : Fin 2176), z A Ct r j q = ((a' j.val q : ℝ) : EReal)) :
    m1 A Ct (ix2 r (0 : Fin 1)) = runMax a' 1 ∧ m2 A Ct (ix2 r (0 : Fin 1)) = runMax a' 2
      ∧ m3 A Ct (ix2 r (0 : Fin 1)) = runMax a' 3 ∧ m4 A Ct (ix2 r (0 : Fin 1)) = runMax a' 4 := by
  have h0 : m0 (ix2 r (0 : Fin 1)) = runMax a' (0 : Fin 4).val := pay5_apply _
  have h1 : m1 A Ct (ix2 r (0 : Fin 1)) = runMax a' (1 : Fin 4).val := stepM_run A Ct a' r hz 0 m0 h0
  have h2 : m2 A Ct (ix2 r (0 : Fin 1)) = runMax a' (2 : Fin 4).val := stepM_run A Ct a' r hz 1 (m1 A Ct) h1
  have h3 : m3 A Ct (ix2 r (0 : Fin 1)) = runMax a' (3 : Fin 4).val := stepM_run A Ct a' r hz 2 (m2 A Ct) h2
  have h4 : m4 A Ct (ix2 r (0 : Fin 1)) = runMax a' 4 := stepM_run A Ct a' r hz 3 (m3 A Ct) h3
  exact ⟨h1, h2, h3, h4⟩

/-- The first sweep's sum of a row is the recurrence's after four tiles. -/
theorem sum_sweep (a' w' : ℕ → Fin 2176 → ℝ) (r : Fin 256)
    (hz : ∀ (j : Fin 4) (q : Fin 2176), z A Ct r j q = ((a' j.val q : ℝ) : EReal))
    (hw : ∀ (j : Fin 4) (q : Fin 2176), lmW clt alab r j q = ((w' j.val q : ℝ) : EReal)) :
    l4 A Ct clt alab (ix2 r (0 : Fin 1)) = runSum a' w' 4 := by
  obtain ⟨h1, h2, h3, -⟩ := max_sweep A Ct a' r hz
  have g0 : m0 (ix2 r (0 : Fin 1)) = runMax a' (0 : Fin 4).val := pay5_apply _
  have k0 : l0 (ix2 r (0 : Fin 1)) = runSum a' w' (0 : Fin 4).val := pay6_apply _
  have k1 : l1 A Ct clt alab (ix2 r (0 : Fin 1)) = runSum a' w' (1 : Fin 4).val :=
    stepL_run A Ct clt alab a' w' r hz hw 0 m0 l0 g0 k0
  have k2 : l2 A Ct clt alab (ix2 r (0 : Fin 1)) = runSum a' w' (2 : Fin 4).val :=
    stepL_run A Ct clt alab a' w' r hz hw 1 (m1 A Ct) (l1 A Ct clt alab) h1 k1
  have k3 : l3 A Ct clt alab (ix2 r (0 : Fin 1)) = runSum a' w' (3 : Fin 4).val :=
    stepL_run A Ct clt alab a' w' r hz hw 2 (m2 A Ct) (l2 A Ct clt alab) h2 k2
  exact stepL_run A Ct clt alab a' w' r hz hw 3 (m3 A Ct) (l3 A Ct clt alab) h3 k3

variable (hA : ∀ idx, ∃ x : ℝ, A idx = ((x : ℝ) : EReal)) (hC : ∀ j idx, ∃ x : ℝ, Ct j idx = ((x : ℝ) : EReal))
include hA hC

/-- THE FIRST SWEEP'S MAXIMUM of row `r`: the maximum of the row's scaled similarities over the four tiles. -/
theorem m4_eq (r : Fin 256) :
    m4 A Ct (ix2 r (0 : Fin 1))
      = Finset.univ.sup fun j : Fin 4 => Finset.univ.sup fun q : Fin 2176 => z A Ct r j q := by
  obtain ⟨a', hz⟩ := exists_real_scores A Ct hA hC r
  rw [(max_sweep A Ct a' r hz).2.2.2, runMax_eq, sup_range_eq_sup_fin]
  exact Finset.sup_congr rfl fun j _ => Finset.sup_congr rfl fun q _ => (hz j q).symm

/-- It is a real number. -/
theorem m4_real (r : Fin 256) : ∃ M : ℝ, m4 A Ct (ix2 r (0 : Fin 1)) = ((M : ℝ) : EReal) := by
  obtain ⟨a', hz⟩ := exists_real_scores A Ct hA hC r
  obtain ⟨M, hM, -⟩ := runMax_real a' (by norm_num : 0 < 2176) 4 (by norm_num)
  exact ⟨M, (max_sweep A Ct a' r hz).2.2.2.trans hM⟩

/-- THE FIRST SWEEP'S SUM of row `r`: the sum over the four tiles of the exponentials of the scaled similarities
    against the first sweep's maximum, over the columns whose label differs from the row's. -/
theorem l4_eq (r : Fin 256) :
    l4 A Ct clt alab (ix2 r (0 : Fin 1))
      = ∑ j : Fin 4, ∑ q : Fin 2176,
          Ideal.exp (z A Ct r j q - m4 A Ct (ix2 r (0 : Fin 1))) * lmW clt alab r j q := by
  obtain ⟨a', hz⟩ := exists_real_scores A Ct hA hC r
  obtain ⟨w', hw, -⟩ := exists_real_weights clt alab r
  rw [sum_sweep A Ct clt alab a' w' r hz hw, (max_sweep A Ct a' r hz).2.2.2,
    runSum_eq a' w' (by norm_num : 0 < 2176) 4, Finset.sum_range]
  exact Finset.sum_congr rfl fun j _ => Finset.sum_congr rfl fun q _ => by rw [hz, hw]

/-- It is a real number that is not negative. -/
theorem l4_real_nonneg (r : Fin 256) :
    ∃ s : ℝ, l4 A Ct clt alab (ix2 r (0 : Fin 1)) = ((s : ℝ) : EReal) ∧ 0 ≤ s := by
  obtain ⟨a', hz⟩ := exists_real_scores A Ct hA hC r
  obtain ⟨w', hw, hw0⟩ := exists_real_weights clt alab r
  obtain ⟨s, hs, hnn⟩ := runSum_real_nonneg a' w' (by norm_num : 0 < 2176) 4
  exact ⟨s, (sum_sweep A Ct clt alab a' w' r hz hw).trans hs, hnn fun j _ q => hw0 j q⟩

end FirstSweep

/-! ## The second sweep adds over the tiles -/

section SecondSweep
variable (A : Vec Ideal S256x128 .bf16) (Ct : Fin 4 → Vec Ideal S2176x128 .bf16)
  (clt : Fin 4 → Vec Ideal S1x2176 .i32) (alab : Vec Ideal S256x1 .i32) (i : Fin 17)

/-- THE MASKED LOG-PROBABILITY SUM of row `r`: over the four tiles, the positive mask times the log-probability
    (the scaled similarity less the first sweep's maximum less the logarithm of the first sweep's sum) clipped at
    zero from above. -/
theorem nu4_eq (r : Fin 256) :
    nu4 A Ct clt alab i (ix2 r (0 : Fin 1))
      = ∑ j : Fin 4, ∑ q : Fin 2176, maskW clt alab i r j q
          * min 0 ((z A Ct r j q - m4 A Ct (ix2 r (0 : Fin 1))) - Ideal.log (l4 A Ct clt alab (ix2 r (0 : Fin 1)))) := by
  have hld : ld A Ct clt alab (ix2 r (0 : Fin 1)) = Ideal.log (l4 A Ct clt alab (ix2 r (0 : Fin 1))) :=
    pay1_apply _ r
  have h0 : nu0 (ix2 r (0 : Fin 1)) = 0 := pay7_apply _
  rw [Fin.sum_univ_four]
  unfold nu4; rw [stepNu]
  unfold nu3; rw [stepNu]
  unfold nu2; rw [stepNu]
  unfold nu1; rw [stepNu]
  rw [h0, zero_add, hld]

/-- THE POSITIVE COUNT of row `r`: the sum of the positive mask over the four tiles. -/
theorem ms4_eq (r : Fin 256) :
    ms4 clt alab i (ix2 r (0 : Fin 1)) = ∑ j : Fin 4, ∑ q : Fin 2176, maskW clt alab i r j q := by
  have h0 : ms0 (ix2 r (0 : Fin 1)) = 0 := pay8_apply _
  rw [Fin.sum_univ_four]
  unfold ms4; rw [stepMs]
  unfold ms3; rw [stepMs]
  unfold ms2; rw [stepMs]
  unfold ms1; rw [stepMs]
  rw [h0, zero_add]

end SecondSweep

end Cert.KernelIdeal.RowBlock

end
-- ==== Proof.KI.RowLong.lean ====
/-
  One row block's closed form over the one long column axis and the global row.

  The four column tiles of a row block are the consecutive blocks of the contrast array's 8704 rows, and the row
  block's 256 anchor rows are 256 consecutive rows of the same array, from global row `3841 + 256 i`. Read so, the
  scaled similarity of a tile entry is the scaled inner product of two rows of the one array, the label of a row or
  of a column is the label at its position modulo 4352, and the sums over four tiles of 2176 columns are sums over
  the one axis of 8704 columns: the first sweep's maximum and sum, the masked log-probability sum and the positive
  count of a row are functions of the whole array, the labels and the global row alone.
-/
import proofs.«108923_j8598524526701_2_alg».proof.Proof.KI.RowBlock
import proofs.«108923_j8598524526701_2_alg».proof.Proof.LibOnlineSoftmax
import proofs.«108923_j8598524526701_2_alg».proof.Proof.Consts

noncomputable section

open scoped BigOperators

namespace Cert.KernelIdeal.RowLong

open Cert.KernelIdeal Cert.KernelIdeal.Gen Cert.KernelIdeal.PayAt Cert.KernelIdeal.RowBlock
open Idealize.ShloMosaic Idealize.ShloMosaic.ValueIdx Cert.Lib.OnlineSoftmax

/-! ## The global row, the long column, and the regrouping of the long axis -/

/-- The global row of row `r` of row block `i`. -/
def gRow (i : Fin 17) (r : Fin 256) : Fin 8704 :=
  ⟨r.val + 3841 + i.val * 256, by have := i.isLt; have := r.isLt; omega⟩

/-- The long-axis column of column `q` of tile `j`. -/
def gCol (j : Fin 4) (q : Fin 2176) : Fin 8704 :=
  ⟨j.val * 2176 + q.val, by have := j.isLt; have := q.isLt; omega⟩

theorem gRow_val (i : Fin 17) (r : Fin 256) : (gRow i r).val = r.val + 3841 + i.val * 256 := rfl
theorem gCol_val (j : Fin 4) (q : Fin 2176) : (gCol j q).val = j.val * 2176 + q.val := rfl

/-- A sum over the long axis is the sum over the four tiles of the sums inside each tile. -/
theorem sum_tiles4 {M : Type*} [AddCommMonoid M] (f : Fin 8704 → M) :
    ∑ c : Fin 8704, f c = ∑ j : Fin 4, ∑ q : Fin 2176, f (gCol j q) :=
  sum_tiles (n := 4) (K := 2176) f

/-- A supremum over the long axis is the supremum over the four tiles of the suprema inside each tile. -/
theorem sup_tiles4 {α : Type*} [SemilatticeSup α] [OrderBot α] (g : Fin 8704 → α) :
    Finset.univ.sup g = Finset.univ.sup fun j : Fin 4 => Finset.univ.sup fun q : Fin 2176 => g (gCol j q) :=
  sup_tiles (n := 4) (K := 2176) g

/-! ## The row quantities as functions of the whole array, the labels and the global row -/

section Defs
variable (X : FVec Ideal S8704x128 .f32) (lab : IVec S4352 32)

/-- The scaled inner product of rows `Rr` and `c` of the array. -/
def adcK (Rr c : Fin 8704) : EReal :=
  (∑ k : Fin 128, X (ix2 Rr k) * X (ix2 c k)) * Named.named (F := Ideal) κ "inv_temp" (φ := .f32) 0x41649249#32

/-- Its maximum over the columns. -/
def MxK (Rr : Fin 8704) : EReal := Finset.univ.sup fun c : Fin 8704 => adcK X Rr c

/-- Row `Rr` and column `c` carry the same label: the labels at their positions modulo 4352 agree. -/
abbrev eqL (Rr c : Fin 8704) : Prop :=
  lab (ix1 (⟨Rr.val % 4352, Nat.mod_lt _ (by norm_num)⟩ : Fin 4352))
    = lab (ix1 (⟨c.val % 4352, Nat.mod_lt _ (by norm_num)⟩ : Fin 4352))

/-- The weight of column `c` in row `Rr`'s sum of exponentials: zero where the labels agree. -/
def lmK (Rr c : Fin 8704) : EReal := if eqL lab Rr c then 0 else 1

/-- The positive mask: zero where the labels differ; where they agree, one off the diagonal, and on it one exactly
    when the row lies in `[4352, 8192)`. -/
def maskK (Rr c : Fin 8704) : EReal :=
  if eqL lab Rr c then
    (if Rr.val = c.val then (if 4352 ≤ Rr.val ∧ Rr.val < 8192 then 1 else 0) else 1)
  else 0

/-- The sum of exponentials against the maximum over the columns whose label differs. -/
def lsK (Rr : Fin 8704) : EReal := ∑ c : Fin 8704, Ideal.exp (adcK X Rr c - MxK X Rr) * lmK lab Rr c

/-- The masked sum of the log-probabilities clipped at zero from above. -/
def numK (Rr : Fin 8704) : EReal :=
  ∑ c : Fin 8704, maskK lab Rr c * min 0 ((adcK X Rr c - MxK X Rr) - Ideal.log (lsK X lab Rr))

/-- The number of positives. -/
def msK (Rr : Fin 8704) : EReal := ∑ c : Fin 8704, maskK lab Rr c

end Defs

/-! ## The row block read from the whole array -/

section Read
variable (A : Vec Ideal S256x128 .bf16) (Ct : Fin 4 → Vec Ideal S2176x128 .bf16)
  (clt : Fin 4 → Vec Ideal S1x2176 .i32) (alab : Vec Ideal S256x1 .i32) (i : Fin 17)
  (X : FVec Ideal S8704x128 .f32) (lab : IVec S4352 32)

/-- A tile entry's scaled similarity is the scaled inner product of the two rows of the array. -/
theorem z_eq (hA : ∀ (r : Fin 256) (k : Fin 128), A (ix2 r k) = X (ix2 (gRow i r) k))
    (hC : ∀ (j : Fin 4) (q : Fin 2176) (k : Fin 128), Ct j (ix2 q k) = X (ix2 (gCol j q) k))
    (r : Fin 256) (j : Fin 4) (q : Fin 2176) :
    z A Ct r j q = adcK X (gRow i r) (gCol j q) := by
  unfold z adcK
  refine congrArg (fun t : EReal => t * _) (Finset.sum_congr rfl fun k _ => ?_)
  rw [hA, hC]

/-- With real entries in the array, the anchor rows read from it have real entries. -/
theorem realA (hX : ∀ idx, ∃ x : ℝ, X idx = ((x : ℝ) : EReal))
    (hA : ∀ (r : Fin 256) (k : Fin 128), A (ix2 r k) = X (ix2 (gRow i r) k)) :
    ∀ idx, ∃ x : ℝ, A idx = ((x : ℝ) : EReal) := by
  intro idx
  obtain ⟨p, k, rfl⟩ : ∃ (p : Fin 256) (k : Fin 128), idx = ix2 p k := ⟨idx 0, idx 1, eq_ix2 idx⟩
  obtain ⟨x, hx⟩ := hX (ix2 (gRow i p) k)
  exact ⟨x, (hA p k).trans hx⟩

/-- And so have the tiles. -/
theorem realC (hX : ∀ idx, ∃ x : ℝ, X idx = ((x : ℝ) : EReal))
    (hC : ∀ (j : Fin 4) (q : Fin 2176) (k : Fin 128), Ct j (ix2 q k) = X (ix2 (gCol j q) k)) :
    ∀ j idx, ∃ x : ℝ, Ct j idx = ((x : ℝ) : EReal) := by
  intro j idx
  obtain ⟨p, k, rfl⟩ : ∃ (p : Fin 2176) (k : Fin 128), idx = ix2 p k := ⟨idx 0, idx 1, eq_ix2 idx⟩
  obtain ⟨x, hx⟩ := hX (ix2 (gCol j p) k)
  exact ⟨x, (hC j p k).trans hx⟩

/-- The weight of a tile entry is the weight of its row and column. -/
theorem lmW_eq
    (hal : ∀ r : Fin 256, (alab (ix2 r (0 : Fin 1)) : BitVec 32)
      = lab (ix1 (⟨(gRow i r).val % 4352, Nat.mod_lt _ (by norm_num)⟩ : Fin 4352)))
    (hcl : ∀ (j : Fin 4) (q : Fin 2176), (clt j (ix2 (0 : Fin 1) q) : BitVec 32)
      = lab (ix1 (⟨(gCol j q).val % 4352, Nat.mod_lt _ (by norm_num)⟩ : Fin 4352)))
    (r : Fin 256) (j : Fin 4) (q : Fin 2176) :
    lmW clt alab r j q = lmK lab (gRow i r) (gCol j q) := by
  unfold lmW lmK
  rw [hal r, hcl j q]

/-- The positive mask of a tile entry is the positive mask of its row and column. -/
theorem maskW_eq
    (hal : ∀ r : Fin 256, (alab (ix2 r (0 : Fin 1)) : BitVec 32)
      = lab (ix1 (⟨(gRow i r).val % 4352, Nat.mod_lt _ (by norm_num)⟩ : Fin 4352)))
    (hcl : ∀ (j : Fin 4) (q : Fin 2176), (clt j (ix2 (0 : Fin 1) q) : BitVec 32)
      = lab (ix1 (⟨(gCol j q).val % 4352, Nat.mod_lt _ (by norm_num)⟩ : Fin 4352)))
    (r : Fin 256) (j : Fin 4) (q : Fin 2176) :
    maskW clt alab i r j q = maskK lab (gRow i r) (gCol j q) := by
  have e1 : (r.val + (3841 + i.val * 256) = q.val + j.val * 2176) ↔ ((gRow i r).val = (gCol j q).val) := by
    rw [gRow_val, gCol_val]; omega
  have e2 : (4352 ≤ r.val + (3841 + i.val * 256) ∧ r.val + (3841 + i.val * 256) < 8192)
      ↔ (4352 ≤ (gRow i r).val ∧ (gRow i r).val < 8192) := by
    rw [gRow_val]; omega
  unfold maskW maskK
  rw [hal r, hcl j q]
  simp only [e1, e2]

variable (hX : ∀ idx, ∃ x : ℝ, X idx = ((x : ℝ) : EReal))
  (hA : ∀ (r : Fin 256) (k : Fin 128), A (ix2 r k) = X (ix2 (gRow i r) k))
  (hC : ∀ (j : Fin 4) (q : Fin 2176) (k : Fin 128), Ct j (ix2 q k) = X (ix2 (gCol j q) k))
  (hal : ∀ r : Fin 256, (alab (ix2 r (0 : Fin 1)) : BitVec 32)
    = lab (ix1 (⟨(gRow i r).val % 4352, Nat.mod_lt _ (by norm_num)⟩ : Fin 4352)))
  (hcl : ∀ (j : Fin 4) (q : Fin 2176), (clt j (ix2 (0 : Fin 1) q) : BitVec 32)
    = lab (ix1 (⟨(gCol j q).val % 4352, Nat.mod_lt _ (by norm_num)⟩ : Fin 4352)))

include hX hA hC in
/-- The first sweep's maximum of row `r` is the maximum of the global row's scaled inner products. -/
theorem m4_long (r : Fin 256) : m4 A Ct (ix2 r (0 : Fin 1)) = MxK X (gRow i r) := by
  rw [m4_eq A Ct (realA A i X hX hA) (realC Ct X hX hC) r]
  unfold MxK
  rw [sup_tiles4]
  exact Finset.sup_congr rfl fun j _ => Finset.sup_congr rfl fun q _ => z_eq A Ct i X hA hC r j q

include hX hA hC hal hcl in
/-- The first sweep's sum of row `r` is the global row's sum of exponentials. -/
theorem l4_long (r : Fin 256) : l4 A Ct clt alab (ix2 r (0 : Fin 1)) = lsK X lab (gRow i r) := by
  rw [l4_eq A Ct clt alab (realA A i X hX hA) (realC Ct X hX hC) r, m4_long A Ct i X hX hA hC r]
  unfold lsK
  rw [sum_tiles4]
  exact Finset.sum_congr rfl fun j _ => Finset.sum_congr rfl fun q _ => by
    rw [z_eq A Ct i X hA hC r j q, lmW_eq clt alab i lab hal hcl r j q]

include hX hA hC hal hcl in
/-- THE MASKED LOG-PROBABILITY SUM of row `r` of row block `i` is the global row's. -/
theorem nu4_long (r : Fin 256) : nu4 A Ct clt alab i (ix2 r (0 : Fin 1)) = numK X lab (gRow i r) := by
  rw [nu4_eq, m4_long A Ct i X hX hA hC r, l4_long A Ct clt alab i X lab hX hA hC hal hcl r]
  unfold numK
  rw [sum_tiles4]
  exact Finset.sum_congr rfl fun j _ => Finset.sum_congr rfl fun q _ => by
    rw [z_eq A Ct i X hA hC r j q, maskW_eq clt alab i lab hal hcl r j q]

include hal hcl in
/-- THE POSITIVE COUNT of row `r` of row block `i` is the global row's. -/
theorem ms4_long (r : Fin 256) : ms4 clt alab i (ix2 r (0 : Fin 1)) = msK lab (gRow i r) := by
  rw [ms4_eq]
  unfold msK
  rw [sum_tiles4]
  exact Finset.sum_congr rfl fun j _ => Finset.sum_congr rfl fun q _ => maskW_eq clt alab i lab hal hcl r j q

end Read

end Cert.KernelIdeal.RowLong

end
-- ==== Proof.Finite.lean ====
/-
  From the precondition to the real numbers. The precondition says, of each of the three
  float inputs, that every entry has absolute value below `+∞` (one `and`-reduction of the
  comparisons over all axes, the three results joined by `and`). On the extended reals
  `max x (-x) < ⊤` excludes `⊤` and `⊥`, so every entry is a real number.
-/
import proofs.«108923_j8598524526701_2_alg».proof.Pre_finite_inputs
import proofs.«108923_j8598524526701_2_alg».proof.Proof.Gen.Pre_finite_inputs
import proofs.«108923_j8598524526701_2_alg».proof.Proof.Consts
import Idealize.ShloMosaic.Lib.ReduceAll
import Idealize.ShloMosaic.Lib.ValueIdx

noncomputable section

namespace Cert.Finite

open Idealize.ShloMosaic Cert.Pre_finite_inputs

/-- The shape of rank zero has one index. -/
instance : Subsingleton S_.Idx := ⟨fun _ _ => funext fun d => d.elim0⟩

/-- An extended real whose absolute value compares below `+∞` is a real number. -/
theorem real_of_abs_lt_inf (x : EReal)
    (h : Ideal.cmp .olt (max x (-x)) (Ideal.ofBits .f32 0x7F800000#32) = 1#1) :
    ∃ r : ℝ, x = (r : EReal) := by
  rw [Cert.Consts.ofBits_pos_inf] at h
  have hlt : max x (-x) < ⊤ := by
    by_contra hn
    simp [Ideal.cmp, hn] at h
  induction x using EReal.rec with
  | bot => simp at hlt
  | top => simp at hlt
  | coe r => exact ⟨r, rfl⟩

/-- Under the precondition every entry of each of the three float inputs is a real number. -/
theorem finite_of_pre [Facts] (a0 : FVec Ideal S256x2x128 .f32) (a1 : IVec S256 32)
    (a2 a3 : FVec Ideal S4096x128 .f32) (a4 : IVec S4096 32)
    (h : fn (F := Ideal) a0 a1 a2 a3 a4 = fun _ => 1#1) :
    (∀ i, ∃ x : ℝ, a0 i = (x : EReal)) ∧ (∀ i, ∃ x : ℝ, a2 i = (x : EReal))
      ∧ (∀ i, ∃ x : ℝ, a3 i = (x : EReal)) := by
  have h0 := congrFun h ValueIdx.ix0
  dsimp only [fn] at h0
  change IntOp.andi (IntOp.andi _ _) _ = 1#1 at h0
  obtain ⟨h01, h3⟩ := IntOp.andi_eq_one.1 h0
  obtain ⟨h0', h2⟩ := IntOp.andi_eq_one.1 h01
  refine ⟨fun i => ?_, fun i => ?_, fun i => ?_⟩
  · exact real_of_abs_lt_inf (a0 i) (Host.reduce_andi_all _ _ _ _ _ h0' i)
  · exact real_of_abs_lt_inf (a2 i) (Host.reduce_andi_all _ _ _ _ _ h2 i)
  · exact real_of_abs_lt_inf (a3 i) (Host.reduce_andi_all _ _ _ _ _ h3 i)

end Cert.Finite

end
-- ==== Proof.KI.HostPrep.lean ====
/-
  The arrays the kernel region is handed, in terms of the program's arguments.

  Before its one region the program assembles, from the two views `[256, 2, 128]` of a batch and two
  queues `[4096, 128]`, the `[8704, 128]` matrix of all features: the batch split into its two views
  (rows `0 … 255` and `256 … 511` of the `[512, 128]` reshape), each view written over the first 256 rows
  of one queue, the other view appended, and the two halves laid end to end; and from the labels of the
  queue `[4096]` and of the batch `[256]` the `[4352]` label vector, likewise. The region's four arrays
  are re-indexings of these two: the anchor rows are rows `3841 … 8192` of the features, the column labels
  the label vector twice over, the anchor labels rows `3841 … 8192` of that.

  Every step only moves entries (a reshape, a slice, a concatenation, a format change that is the
  identity on the extended reals, a scatter whose entry is an entry of its operand or of its updates),
  so the features' entries are real numbers once the arguments' are.
-/
import proofs.«108923_j8598524526701_2_alg».proof.Proof.Gen.KernelIdeal.Frame
import proofs.«108923_j8598524526701_2_alg».proof.Proof.Finite
import proofs.«108923_j8598524526701_2_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HostPrep

open Cert.KernelIdeal Cert.KernelIdeal.Gen Idealize.ShloMosaic Idealize.ShloMosaic.TcCoe
open Idealize.ShloMosaic.ValueIdx

/-! ## Operations that only move entries -/

section Moves
variable {α : Type}

/-- A property kept by every step of a left fold holds of the fold's result. -/
theorem foldl_inv {β γ : Type} (Q : β → Prop) (f : β → γ → β) (hf : ∀ b g, Q b → Q (f b g)) :
    ∀ (l : List γ) (b : β), Q b → Q (l.foldl f b)
  | [], _, hb => hb
  | g :: l, b, hb => foldl_inv Q f hf l (f b g) (hf b g hb)

/-- A scatter whose body returns the update: each entry of the result is an entry of the operand or
    of the updates, so what holds of all of those holds of every entry of the result. -/
theorem scatter_set_forall {s si u : Shape} {w : Nat} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  refine foldl_inv (fun r : s.Idx → α => ∀ i, P (r i)) _ (fun r n hr => ?_) _ x hx i
  intro i'
  generalize d.resultIdx? (u.rowMajor.symm n) idx = g
  cases g with
  | none => exact hr i'
  | some j =>
    show P (if i' = j then upd (u.rowMajor.symm n) else r i')
    split
    · exact hu _
    · exact hr i'

/-- Each entry of a concatenation is an entry of one of the pieces. -/
theorem concatenate_forall {t : Shape} (a : Fin t.rank) (xs : List ((s : Shape) × (s.Idx → α)))
    (h : Shape.Concatenates (xs.map (·.1)) t a) (P : α → Prop) (hall : ∀ p ∈ xs, ∀ i, P (p.2 i)) (j : t.Idx) :
    P (concatenate t a xs h j) := by
  unfold concatenate
  exact hall _ (List.getElem_mem _) _

/-- The same for two pieces. -/
theorem concatenate_pair_forall {t s₁ s₂ : Shape} (a : Fin t.rank) (x₁ : s₁.Idx → α) (x₂ : s₂.Idx → α)
    (h : Shape.Concatenates [s₁, s₂] t a) (P : α → Prop) (h₁ : ∀ i, P (x₁ i)) (h₂ : ∀ i, P (x₂ i)) (j : t.Idx) :
    P (concatenate t a [⟨s₁, x₁⟩, ⟨s₂, x₂⟩] h j) := by
  refine concatenate_forall a [⟨s₁, x₁⟩, ⟨s₂, x₂⟩] h P (fun p hp => ?_) j
  rcases List.mem_cons.1 hp with rfl | hp
  · exact h₁
  · rcases List.mem_cons.1 hp with rfl | hp
    · exact h₂
    · exact absurd hp (List.not_mem_nil)

/-- A vector of 4352 entries laid twice end to end, read at position `cc`: the entry at `cc mod 4352`. -/
theorem twice_apply (L : S4352.Idx → α) (cc : Fin 8704) :
    concatenate S8704 0 [⟨S4352, L⟩, ⟨S4352, L⟩] concatenates_S4352_S4352_S8704_d0 (ix1 cc)
      = L (ix1 ⟨cc.val % 4352, Nat.mod_lt _ (by decide)⟩) := by
  by_cases hlt : cc.val < 4352
  · refine concatenate_pair_apply_left (0 : Fin S8704.rank) L L concatenates_S4352_S4352_S8704_d0 (ix1 cc) rfl _ ?_
    intro b
    match b with
    | ⟨0, _⟩ => exact Nat.mod_eq_of_lt hlt
  · refine concatenate_pair_apply_right (0 : Fin S8704.rank) L L concatenates_S4352_S4352_S8704_d0 (ix1 cc) rfl rfl _ ?_ ?_
    · intro b hb
      match b, hb with
      | ⟨0, _⟩, hb => exact absurd rfl hb
    · show cc.val % 4352 + 4352 = cc.val
      have := cc.isLt
      omega

end Moves

/-- On the extended reals a change to a narrower float format is the identity. -/
theorem truncf_ideal {s : Shape} {φ : FTy} (ψ : FTy) (x : FVec Ideal s φ) (h : ψ.bits < φ.bits) :
    truncf ψ x h = x := rfl

/-- An extended real that is a real number. -/
def IsReal (e : EReal) : Prop := ∃ x : ℝ, e = (x : EReal)

/-! ## The features and the labels as functions of the arguments -/

/-- The batch's two views one under the other: `[256, 2, 128]` as `[512, 128]`. -/
def rowsOf (a0 : FVec Ideal S256x2x128 .f32) : FVec Ideal S512x128 .f32 :=
  shapeCast S512x128 a0 shapeCasts_S256x2x128_S512x128

/-- Rows `0 … 255` of that. -/
def viewA (a0 : FVec Ideal S256x2x128 .f32) : FVec Ideal S256x128 .f32 :=
  extractStridedSlice S256x128 ![0, 0] (rowsOf a0) slices_S512x128_S256x128_0_0

/-- Rows `256 … 511` of that. -/
def viewB (a0 : FVec Ideal S256x2x128 .f32) : FVec Ideal S256x128 .f32 :=
  extractStridedSlice S256x128 ![256, 0] (rowsOf a0) slices_S512x128_S256x128_256_0

/-- The start index of the three scatters: one word, zero. -/
def zeroIdx : IVec S1 32 := broadcastInDim S1 ![] bcast_S_S1 (constantI S_ 32 0#32)

/-- The `[8704, 128]` features as the program assembles them (each piece through the format change
    to the narrower float type). -/
def XkOf (a0 : FVec Ideal S256x2x128 .f32) (a2 a3 : FVec Ideal S4096x128 .f32) : FVec Ideal S8704x128 .bf16 :=
  concatenate S8704x128 0
    [⟨S4352x128, concatenate S4352x128 0
        [⟨S4096x128, truncf .bf16 (Host.scatter scatter_S4096x128_S1_S256x128_01_n_0_0 (fun _ b => b) a2 zeroIdx (viewB a0)) bitsLt_bf16_f32⟩,
         ⟨S256x128, truncf .bf16 (viewA a0) bitsLt_bf16_f32⟩]
        concatenates_S4096x128_S256x128_S4352x128_d0⟩,
     ⟨S4352x128, concatenate S4352x128 0
        [⟨S4096x128, truncf .bf16 (Host.scatter scatter_S4096x128_S1_S256x128_01_n_0_0 (fun _ b => b) a3 zeroIdx (viewA a0)) bitsLt_bf16_f32⟩,
         ⟨S256x128, truncf .bf16 (viewB a0) bitsLt_bf16_f32⟩]
        concatenates_S4096x128_S256x128_S4352x128_d0⟩]
    concatenates_S4352x128_S4352x128_S8704x128_d0

/-- The same assembly with no format change. -/
def XkPlainOf (a0 : FVec Ideal S256x2x128 .f32) (a2 a3 : FVec Ideal S4096x128 .f32) : FVec Ideal S8704x128 .f32 :=
  concatenate S8704x128 0
    [⟨S4352x128, concatenate S4352x128 0
        [⟨S4096x128, Host.scatter scatter_S4096x128_S1_S256x128_01_n_0_0 (fun _ b => b) a2 zeroIdx (viewB a0)⟩,
         ⟨S256x128, viewA a0⟩]
        concatenates_S4096x128_S256x128_S4352x128_d0⟩,
     ⟨S4352x128, concatenate S4352x128 0
        [⟨S4096x128, Host.scatter scatter_S4096x128_S1_S256x128_01_n_0_0 (fun _ b => b) a3 zeroIdx (viewA a0)⟩,
         ⟨S256x128, viewB a0⟩]
        concatenates_S4096x128_S256x128_S4352x128_d0⟩]
    concatenates_S4352x128_S4352x128_S8704x128_d0

/-- The `[4352]` labels: the batch's labels written over the first 256 of the queue's, the batch's appended. -/
def labOf (a1 : IVec S256 32) (a4 : IVec S4096 32) : IVec S4352 32 :=
  concatenate S4352 0
    [⟨S4096, Host.scatter scatter_S4096_S1_S256_0_n_0_0 (fun _ b => b) a4 zeroIdx a1⟩, ⟨S256, a1⟩]
    concatenates_S4096_S256_S4352_d0

/-- On the extended reals the format change is the identity: the two assemblies are one function. -/
theorem XkOf_eq_plain (a0 : FVec Ideal S256x2x128 .f32) (a2 a3 : FVec Ideal S4096x128 .f32) :
    XkOf a0 a2 a3 = XkPlainOf a0 a2 a3 := by
  unfold XkOf XkPlainOf
  simp only [truncf_ideal]

/-- Every entry of the features is a real number once every entry of the three arguments is. -/
theorem XkOf_real (a0 : FVec Ideal S256x2x128 .f32) (a2 a3 : FVec Ideal S4096x128 .f32)
    (h0 : ∀ i, ∃ x : ℝ, a0 i = (x : EReal)) (h2 : ∀ i, ∃ x : ℝ, a2 i = (x : EReal))
    (h3 : ∀ i, ∃ x : ℝ, a3 i = (x : EReal)) (idx : S8704x128.Idx) :
    ∃ x : ℝ, XkOf a0 a2 a3 idx = (x : EReal) := by
  have h2' : ∀ i, IsReal (a2 i) := h2
  have h3' : ∀ i, IsReal (a3 i) := h3
  have hA : ∀ i, IsReal (viewA a0 i) := fun i => h0 _
  have hB : ∀ i, IsReal (viewB a0 i) := fun i => h0 _
  rw [XkOf_eq_plain]
  have key : IsReal (XkPlainOf a0 a2 a3 idx) :=
    concatenate_pair_forall _ _ _ _ IsReal
      (concatenate_pair_forall _ _ _ _ IsReal (scatter_set_forall _ IsReal _ _ _ h2' hB) hA)
      (concatenate_pair_forall _ _ _ _ IsReal (scatter_set_forall _ IsReal _ _ _ h3' hA) hB) idx
  exact key

/-! ## The region's arrays -/

variable (m : (ℓ : Loc nD τ sig) → Buf (Elt Ideal) ℓ) (c : Dev nD)

/-- The features on core `c`, over its arguments as launched. -/
def Xk : FVec Ideal S8704x128 .bf16 :=
  XkOf (m ((c : Thread nD τ).loc main_arg0)) (m ((c : Thread nD τ).loc main_arg2)) (m ((c : Thread nD τ).loc main_arg3))

/-- The labels on core `c`, over its arguments as launched. -/
def labk : IVec S4352 32 :=
  labOf (m ((c : Thread nD τ).loc main_arg1)) (m ((c : Thread nD τ).loc main_arg4))

/-- The same features with no format change. -/
def XkPlain : FVec Ideal S8704x128 .f32 :=
  XkPlainOf (m ((c : Thread nD τ).loc main_arg0)) (m ((c : Thread nD τ).loc main_arg2)) (m ((c : Thread nD τ).loc main_arg3))

/-- On core `c` the two assemblies are one function. -/
theorem Xk_eq_plain : Xk m c = XkPlain m c := XkOf_eq_plain _ _ _

/-- Row `r + 3841` lies inside the features. -/
theorem anchor_lt (r : Fin 4352) : r.val + 3841 < 8704 := by
  have := r.isLt
  omega

set_option maxHeartbeats 4000000 in
/-- The contrast array is the features. -/
theorem V_v17 : (V m c main_v17 : S8704x128.Idx → EReal) = Xk m c := by
  show StableHlo.after hostOps0 (fun b => m (c, b)) (Proc.devRef .tc main_v17) = _
  after_results
  rfl

set_option maxHeartbeats 4000000 in
/-- The anchor array is rows `3841 … 8192` of the features. -/
theorem V_v18 : (V m c main_v18 : S4352x128.Idx → EReal)
    = extractStridedSlice S4352x128 ![3841, 0] (Xk m c) slices_S8704x128_S4352x128_3841_0 := by
  show StableHlo.after hostOps0 (fun b => m (c, b)) (Proc.devRef .tc main_v18) = _
  after_results
  rfl

set_option maxHeartbeats 4000000 in
/-- The column labels are the labels twice over, as one row. -/
theorem V_v21 : (V m c main_v21 : S1x8704.Idx → BitVec 32)
    = shapeCast S1x8704 (concatenate S8704 0 [⟨S4352, labk m c⟩, ⟨S4352, labk m c⟩] concatenates_S4352_S4352_S8704_d0)
        shapeCasts_S8704_S1x8704 := by
  show StableHlo.after hostOps0 (fun b => m (c, b)) (Proc.devRef .tc main_v21) = _
  after_results
  rfl

set_option maxHeartbeats 4000000 in
/-- The anchor labels are positions `3841 … 8192` of the labels twice over, as one column. -/
theorem V_v20 : (V m c main_v20 : S4352x1.Idx → BitVec 32)
    = shapeCast S4352x1 (extractStridedSlice S4352 ![3841]
        (concatenate S8704 0 [⟨S4352, labk m c⟩, ⟨S4352, labk m c⟩] concatenates_S4352_S4352_S8704_d0)
        slices_S8704_S4352_3841) shapeCasts_S4352_S4352x1 := by
  show StableHlo.after hostOps0 (fun b => m (c, b)) (Proc.devRef .tc main_v20) = _
  after_results
  rfl

/-- Entry `(r, k)` of the anchor array is entry `(r + 3841, k)` of the features. -/
theorem V_v18_apply (r : Fin 4352) (k : Fin 128) :
    (V m c main_v18 : S4352x128.Idx → EReal) (ix2 r k) = Xk m c (ix2 ⟨r.val + 3841, anchor_lt r⟩ k) := by
  rw [V_v18]
  exact slice2_axis0_apply 3841 (Xk m c) slices_S8704x128_S4352x128_3841_0 r k ⟨r.val + 3841, anchor_lt r⟩
    (Nat.add_comm _ _)

/-- Column `cc` of the column labels is label `cc mod 4352`. -/
theorem V_v21_apply (cc : Fin 8704) :
    (V m c main_v21 : S1x8704.Idx → BitVec 32) (ix2 (0 : Fin 1) cc)
      = labk m c (ix1 ⟨cc.val % 4352, Nat.mod_lt _ (by decide)⟩) := by
  rw [V_v21]
  refine (shapeCast_a_1a_apply _ _ (0 : Fin 1) cc).trans ?_
  exact twice_apply (labk m c) cc

/-- Row `r` of the anchor labels is label `(r + 3841) mod 4352`. -/
theorem V_v20_apply (r : Fin 4352) :
    (V m c main_v20 : S4352x1.Idx → BitVec 32) (ix2 r (0 : Fin 1))
      = labk m c (ix1 ⟨(r.val + 3841) % 4352, Nat.mod_lt _ (by decide)⟩) := by
  rw [V_v20]
  refine (shapeCast_apply _ _ (ix2 r (0 : Fin 1)) (ix1 r) ?_).trans ?_
  · rw [Shape.rowMajor_val_two, Shape.rowMajor_val_one]
    show r.val = r.val * 1 + 0
    omega
  refine (extractStridedSlice_apply _ _ _ (ix1 r) (ix1 ⟨r.val + 3841, anchor_lt r⟩) ?_).trans ?_
  · intro a
    match a with
    | ⟨0, _⟩ => exact Nat.add_comm _ _
  exact twice_apply (labk m c) ⟨r.val + 3841, anchor_lt r⟩

/-- Under the precondition every entry of the features is a real number. -/
theorem Xk_real [Cert.Pre_finite_inputs.Facts]
    (hpre : Cert.Pre_finite_inputs.fn (F := Ideal) (m ((c : Thread nD τ).loc main_arg0))
      (m ((c : Thread nD τ).loc main_arg1)) (m ((c : Thread nD τ).loc main_arg2))
      (m ((c : Thread nD τ).loc main_arg3)) (m ((c : Thread nD τ).loc main_arg4)) = fun _ => 1#1)
    (idx : S8704x128.Idx) : ∃ x : ℝ, Xk m c idx = (x : EReal) := by
  obtain ⟨h0, h2, h3⟩ := Cert.Finite.finite_of_pre _ _ _ _ _ hpre
  exact XkOf_real _ _ _ h0 h2 h3 idx

end Cert.KernelIdeal.HostPrep

end
-- ==== Proof.KI.Value.lean ====
/-
  The value invariant of the kernel body over the grid, and what the written-back blocks hold.

  A row block's eight points are the two sweeps over its four column tiles. The anchors' block and the anchor
  labels' block are the same at all eight points; the column tile and the label tile a point loads depend on the
  point's column tile alone. So after each point the carried state is the pure row-block recurrence stopped at
  that point: through the first sweep the running maximum and the running sum after the tiles visited, at its end
  the logarithm too, through the second sweep the two accumulators after the tiles visited; the last point also
  copies the accumulators into the two output blocks. Read from the whole feature array and the label vector,
  the output blocks hold the global rows' masked log-probability sums and positive counts.
-/
import proofs.«108923_j8598524526701_2_alg».proof.Proof.KI.State
import proofs.«108923_j8598524526701_2_alg».proof.Proof.KI.Pieces
import proofs.«108923_j8598524526701_2_alg».proof.Proof.KI.BlockReads
import proofs.«108923_j8598524526701_2_alg».proof.Proof.KI.RowBlock
import proofs.«108923_j8598524526701_2_alg».proof.Proof.KI.RowLong
import proofs.«108923_j8598524526701_2_alg».proof.Proof.KI.HostPrep

set_option maxRecDepth 16384

noncomputable section

namespace Cert.KernelIdeal.ValueInv

open Cert.KernelIdeal Cert.KernelIdeal.Gen Cert.KernelIdeal.Body Cert.KernelIdeal.BlockReads
open Cert.KernelIdeal.RowBlock Cert.KernelIdeal.RowLong Cert.KernelIdeal.HostPrep
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-! ## The row blocks' and the column tiles' data, through canonical points -/

/-- A natural below 136 is a point of the grid. -/
theorem lt_N {n : ℕ} (h : n < 136) : n < cfg0.N := lt_of_lt_of_eq h N_0.symm

/-- The first point of row block `ib`. -/
def ptR (ib : Fin 17) : Fin cfg0.N := ⟨8 * ib.val, lt_N (by have := ib.isLt; omega)⟩

/-- The point of the first row block at column tile `j`. -/
def ptC (j : Fin 4) : Fin cfg0.N := ⟨j.val, lt_N (by have := j.isLt; omega)⟩

theorem ptR_val (ib : Fin 17) : (ptR ib).val = 8 * ib.val := rfl
theorem ptC_val (j : Fin 4) : (ptC j).val = j.val := rfl

/-- The anchor rows of row block `ib`. -/
def Ag (ib : Fin 17) : Vec Ideal S256x128 .bf16 := iblk m c 0 (ptR ib)

/-- The anchor labels of row block `ib`. -/
def alg (ib : Fin 17) : Vec Ideal S256x1 .i32 := iblk m c 2 (ptR ib)

/-- Column tile `j` of the contrast features. -/
def Cg (j : Fin 4) : Vec Ideal S2176x128 .bf16 := ldC (iblk m c 1 (ptC j)) (grid0.coords (ptC j))

/-- Column tile `j` of the contrast labels. -/
def clg (j : Fin 4) : Vec Ideal S1x2176 .i32 := ldL (iblk m c 3 (ptC j)) (grid0.coords (ptC j))

/-! ## Constancy: a point's blocks and tiles are its row block's and its column tile's -/

/-- The anchors' block at a point is its row block's. -/
theorem blkA_eq (t : Fin cfg0.N) (ib : Fin 17) (hib : ib.val = t.val / 8) :
    (iblk m c 0 t : Vec Ideal S256x128 .bf16) = Ag m c ib := by
  funext y
  obtain ⟨r, k, rfl⟩ : ∃ (r : Fin 256) (k : Fin 128), y = ix2 r k := ⟨y 0, y 1, eq_ix2 y⟩
  unfold Ag
  rw [blk0 m c t r k, blk0 m c (ptR ib) r k]
  exact congrArg (fun x : Fin 4352 => V m c main_v18 (ix2 x k)) (Fin.ext (by
    show t.val / 8 * 256 + r.val = (ptR ib).val / 8 * 256 + r.val
    rw [ptR_val]; omega))

/-- The anchor labels' block at a point is its row block's. -/
theorem blkL_eq (t : Fin cfg0.N) (ib : Fin 17) (hib : ib.val = t.val / 8) :
    (iblk m c 2 t : Vec Ideal S256x1 .i32) = alg m c ib := by
  funext y
  obtain ⟨r, u, rfl⟩ : ∃ (r : Fin 256) (u : Fin 1), y = ix2 r u := ⟨y 0, y 1, eq_ix2 y⟩
  obtain rfl : u = 0 := Subsingleton.elim _ _
  unfold alg
  rw [blk2 m c t r, blk2 m c (ptR ib) r]
  exact congrArg (fun x : Fin 4352 => V m c main_v20 (ix2 x (0 : Fin 1))) (Fin.ext (by
    show t.val / 8 * 256 + r.val = (ptR ib).val / 8 * 256 + r.val
    rw [ptR_val]; omega))

/-- The column tile a point loads is its column tile's. -/
theorem tileC_eq (t : Fin cfg0.N) (j : Fin 4) (hj : j.val = t.val % 4) :
    ldC (iblk m c 1 t) (grid0.coords t) = Cg m c j := by
  funext y
  obtain ⟨q, k, rfl⟩ : ∃ (q : Fin 2176) (k : Fin 128), y = ix2 q k := ⟨y 0, y 1, eq_ix2 y⟩
  unfold Cg
  have e1 := tileC (iblk m c 1 t : Vec Ideal S8704x128 .bf16) (grid0.coords t) (k0_off1_inb _) q k
  have e2 := tileC (iblk m c 1 (ptC j) : Vec Ideal S8704x128 .bf16) (grid0.coords (ptC j)) (k0_off1_inb _) q k
  refine e1.trans (Eq.trans ?_ e2.symm)
  rw [blk1 m c t, blk1 m c (ptC j)]
  exact congrArg (fun x : Fin 8704 => V m c main_v17 (ix2 x k)) (Fin.ext (by
    show ((grid0.coords t) 2).val * 2176 + q.val = ((grid0.coords (ptC j)) 2).val * 2176 + q.val
    rw [(coords_val t).2.2, (coords_val (ptC j)).2.2, ptC_val]
    have := j.isLt; omega))

/-- The label tile a point loads is its column tile's. -/
theorem tileL_eq (t : Fin cfg0.N) (j : Fin 4) (hj : j.val = t.val % 4) :
    ldL (iblk m c 3 t) (grid0.coords t) = clg m c j := by
  funext y
  obtain ⟨u, q, rfl⟩ : ∃ (u : Fin 1) (q : Fin 2176), y = ix2 u q := ⟨y 0, y 1, eq_ix2 y⟩
  obtain rfl : u = 0 := Subsingleton.elim _ _
  unfold clg
  have e1 := tileL (iblk m c 3 t : Vec Ideal S1x8704 .i32) (grid0.coords t) (k0_off2_inb _) q
  have e2 := tileL (iblk m c 3 (ptC j) : Vec Ideal S1x8704 .i32) (grid0.coords (ptC j)) (k0_off2_inb _) q
  refine e1.trans (Eq.trans ?_ e2.symm)
  rw [blk3 m c t, blk3 m c (ptC j)]
  exact congrArg (fun x : Fin 8704 => V m c main_v21 (ix2 (0 : Fin 1) x)) (Fin.ext (by
    show ((grid0.coords t) 2).val * 2176 + q.val = ((grid0.coords (ptC j)) 2).val * 2176 + q.val
    rw [(coords_val t).2.2, (coords_val (ptC j)).2.2, ptC_val]
    have := j.isLt; omega))

/-- The row-block word of a point is its row block's. -/
theorem word0_eq (t : Fin cfg0.N) (ib : Fin 17) (hib : ib.val = t.val / 8) :
    BitVec.ofNat 32 ((grid0.coords t) 0).val = BitVec.ofNat 32 ib.val := by
  rw [(coords_val t).1, hib]

/-- The column-tile word of a point is its column tile's. -/
theorem word2_eq (t : Fin cfg0.N) (j : Fin 4) (hj : j.val = t.val % 4) :
    BitVec.ofNat 32 ((grid0.coords t) 2).val = BitVec.ofNat 32 j.val := by
  rw [(coords_val t).2.2, hj]

/-! ## One point's step, by its case -/

/-- The first point of a row block: the maximum and the sum after the first tile, from minus infinity and zero. -/
theorem caseA (t : Fin cfg0.N) (h : t.val % 8 = 0) (ib : Fin 17) (hib : ib.val = t.val / 8) (j : Fin 4)
    (hj : j.val = t.val % 4) (S : St Ideal) :
    (stepAt m c t S).m = k0_pay13 (F := Ideal) (Ag m c ib) (Cg m c j) (k0_pay5 (F := Ideal))
      ∧ (stepAt m c t S).l
        = k0_pay12 (F := Ideal) (Ag m c ib) (Cg m c j) (clg m c j) (alg m c ib) (k0_pay5 (F := Ideal)) (k0_pay5 (F := Ideal)) (k0_pay6 (F := Ideal)) := by
  rw [stepAt_A m c t h]
  constructor
  · show View.canon (rA m c t h).1 = _
    unfold rA
    rw [pieceA9, blkA_eq m c t ib hib, tileC_eq m c t j hj]
  · show View.canon (rA m c t h).2.1 = _
    unfold rA
    rw [pieceA10, blkA_eq m c t ib hib, tileC_eq m c t j hj, tileL_eq m c t j hj, blkL_eq m c t ib hib]

/-- A later point of the first sweep: the maximum and the sum after one more tile, from the state found. -/
theorem caseB (t : Fin cfg0.N) (h : t.val % 8 = 1 ∨ t.val % 8 = 2) (ib : Fin 17) (hib : ib.val = t.val / 8)
    (j : Fin 4) (hj : j.val = t.val % 4) (S : St Ideal) :
    (stepAt m c t S).m = k0_pay13 (F := Ideal) (Ag m c ib) (Cg m c j) S.m
      ∧ (stepAt m c t S).l
        = k0_pay12 (F := Ideal) (Ag m c ib) (Cg m c j) (clg m c j) (alg m c ib) S.m S.m S.l := by
  rw [stepAt_B m c t h]
  constructor
  · show View.canon (rB m c t h S).1 = _
    unfold rB
    rw [pieceB9, blkA_eq m c t ib hib, tileC_eq m c t j hj]
  · show View.canon (rB m c t h S).2.1 = _
    unfold rB
    rw [pieceB10, blkA_eq m c t ib hib, tileC_eq m c t j hj, tileL_eq m c t j hj, blkL_eq m c t ib hib]

/-- The last point of the first sweep: as a later point, and the logarithm of the new sum. -/
theorem caseC (t : Fin cfg0.N) (h : t.val % 8 = 3) (ib : Fin 17) (hib : ib.val = t.val / 8)
    (j : Fin 4) (hj : j.val = t.val % 4) (S : St Ideal) :
    (stepAt m c t S).m = k0_pay13 (F := Ideal) (Ag m c ib) (Cg m c j) S.m
      ∧ (stepAt m c t S).l
        = k0_pay12 (F := Ideal) (Ag m c ib) (Cg m c j) (clg m c j) (alg m c ib) S.m S.m S.l
      ∧ (stepAt m c t S).ld
        = k0_pay1 (F := Ideal) (k0_pay12 (F := Ideal) (Ag m c ib) (Cg m c j) (clg m c j) (alg m c ib) S.m S.m S.l) := by
  rw [stepAt_C m c t h]
  refine ⟨?_, ?_, ?_⟩
  · show View.canon (rC m c t h S).1 = _
    unfold rC
    rw [pieceC9, blkA_eq m c t ib hib, tileC_eq m c t j hj]
  · show View.canon (rC m c t h S).2.1 = _
    unfold rC
    rw [pieceC10, blkA_eq m c t ib hib, tileC_eq m c t j hj, tileL_eq m c t j hj, blkL_eq m c t ib hib]
  · show View.canon (rC m c t h S).2.2.1 = _
    unfold rC
    rw [pieceC11, blkA_eq m c t ib hib, tileC_eq m c t j hj, tileL_eq m c t j hj, blkL_eq m c t ib hib]

/-- The first point of the second sweep: the two accumulators after the first tile, from zero; the maximum and
    the logarithm are kept. -/
theorem caseD (t : Fin cfg0.N) (h : t.val % 8 = 4) (ib : Fin 17) (hib : ib.val = t.val / 8)
    (j : Fin 4) (hj : j.val = t.val % 4) (S : St Ideal) :
    (stepAt m c t S).m = S.m ∧ (stepAt m c t S).ld = S.ld
      ∧ (stepAt m c t S).nu
        = k0_pay4 (F := Ideal) (BitVec.ofNat 32 ib.val) (Scalar.muli (BitVec.ofNat 32 j.val) 2176#32)
            (k0_pay9 (F := Ideal) (Ag m c ib) (Cg m c j)) (k0_pay10 (F := Ideal) (clg m c j) (alg m c ib)) S.m S.ld (k0_pay7 (F := Ideal))
      ∧ (stepAt m c t S).ms
        = k0_pay2 (F := Ideal) (k0_pay3 (F := Ideal) (BitVec.ofNat 32 ib.val) (Scalar.muli (BitVec.ofNat 32 j.val) 2176#32)
            (k0_pay10 (F := Ideal) (clg m c j) (alg m c ib))) (k0_pay8 (F := Ideal)) := by
  rw [stepAt_D m c t h]
  refine ⟨rfl, rfl, ?_, ?_⟩
  · show View.canon (rD m c t h S).1 = _
    unfold rD
    rw [pieceD12, blkA_eq m c t ib hib, tileC_eq m c t j hj, tileL_eq m c t j hj, blkL_eq m c t ib hib,
      word0_eq t ib hib, word2_eq t j hj]
  · show View.canon (rD m c t h S).2.1 = _
    unfold rD
    rw [pieceD13, tileL_eq m c t j hj, blkL_eq m c t ib hib, word0_eq t ib hib, word2_eq t j hj]

/-- A later point of the second sweep: the two accumulators after one more tile, from the state found. -/
theorem caseE (t : Fin cfg0.N) (h : t.val % 8 = 5 ∨ t.val % 8 = 6) (ib : Fin 17) (hib : ib.val = t.val / 8)
    (j : Fin 4) (hj : j.val = t.val % 4) (S : St Ideal) :
    (stepAt m c t S).m = S.m ∧ (stepAt m c t S).ld = S.ld
      ∧ (stepAt m c t S).nu
        = k0_pay4 (F := Ideal) (BitVec.ofNat 32 ib.val) (Scalar.muli (BitVec.ofNat 32 j.val) 2176#32)
            (k0_pay9 (F := Ideal) (Ag m c ib) (Cg m c j)) (k0_pay10 (F := Ideal) (clg m c j) (alg m c ib)) S.m S.ld S.nu
      ∧ (stepAt m c t S).ms
        = k0_pay2 (F := Ideal) (k0_pay3 (F := Ideal) (BitVec.ofNat 32 ib.val) (Scalar.muli (BitVec.ofNat 32 j.val) 2176#32)
            (k0_pay10 (F := Ideal) (clg m c j) (alg m c ib))) S.ms := by
  rw [stepAt_E m c t h]
  refine ⟨rfl, rfl, ?_, ?_⟩
  · show View.canon (rE m c t h S).1 = _
    unfold rE
    rw [pieceE12, blkA_eq m c t ib hib, tileC_eq m c t j hj, tileL_eq m c t j hj, blkL_eq m c t ib hib,
      word0_eq t ib hib, word2_eq t j hj]
  · show View.canon (rE m c t h S).2.1 = _
    unfold rE
    rw [pieceE13, tileL_eq m c t j hj, blkL_eq m c t ib hib, word0_eq t ib hib, word2_eq t j hj]

/-- The last point of a row block: as a later point of the second sweep, and the two accumulators copied into the
    output blocks. -/
theorem caseF (t : Fin cfg0.N) (h : t.val % 8 = 7) (ib : Fin 17) (hib : ib.val = t.val / 8)
    (j : Fin 4) (hj : j.val = t.val % 4) (S : St Ideal) :
    (stepAt m c t S).m = S.m ∧ (stepAt m c t S).ld = S.ld
      ∧ (stepAt m c t S).nu
        = k0_pay4 (F := Ideal) (BitVec.ofNat 32 ib.val) (Scalar.muli (BitVec.ofNat 32 j.val) 2176#32)
            (k0_pay9 (F := Ideal) (Ag m c ib) (Cg m c j)) (k0_pay10 (F := Ideal) (clg m c j) (alg m c ib)) S.m S.ld S.nu
      ∧ (stepAt m c t S).ms
        = k0_pay2 (F := Ideal) (k0_pay3 (F := Ideal) (BitVec.ofNat 32 ib.val) (Scalar.muli (BitVec.ofNat 32 j.val) 2176#32)
            (k0_pay10 (F := Ideal) (clg m c j) (alg m c ib))) S.ms
      ∧ (stepAt m c t S).o4
        = k0_pay4 (F := Ideal) (BitVec.ofNat 32 ib.val) (Scalar.muli (BitVec.ofNat 32 j.val) 2176#32)
            (k0_pay9 (F := Ideal) (Ag m c ib) (Cg m c j)) (k0_pay10 (F := Ideal) (clg m c j) (alg m c ib)) S.m S.ld S.nu
      ∧ (stepAt m c t S).o5
        = k0_pay2 (F := Ideal) (k0_pay3 (F := Ideal) (BitVec.ofNat 32 ib.val) (Scalar.muli (BitVec.ofNat 32 j.val) 2176#32)
            (k0_pay10 (F := Ideal) (clg m c j) (alg m c ib))) S.ms := by
  rw [stepAt_F m c t h]
  refine ⟨rfl, rfl, ?_, ?_, ?_, ?_⟩
  · show View.canon (rF m c t h S).1 = _
    unfold rF
    rw [pieceF12, blkA_eq m c t ib hib, tileC_eq m c t j hj, tileL_eq m c t j hj, blkL_eq m c t ib hib,
      word0_eq t ib hib, word2_eq t j hj]
  · show View.canon (rF m c t h S).2.1 = _
    unfold rF
    rw [pieceF13, tileL_eq m c t j hj, blkL_eq m c t ib hib, word0_eq t ib hib, word2_eq t j hj]
  · show View.canon (rF m c t h S).2.2.1 = _
    unfold rF
    rw [pieceF7, blkA_eq m c t ib hib, tileC_eq m c t j hj, tileL_eq m c t j hj, blkL_eq m c t ib hib,
      word0_eq t ib hib, word2_eq t j hj]
  · show View.canon (rF m c t h S).2.2.2.1 = _
    unfold rF
    rw [pieceF8, tileL_eq m c t j hj, blkL_eq m c t ib hib, word0_eq t ib hib, word2_eq t j hj]

/-! ## The invariant -/

/-- What the carried state is after a point of row block `ib` at position `p` of the row block's eight: the pure
    row-block recurrence on the row block's anchors and the four column tiles, stopped at that position. -/
structure Inv (ib : Fin 17) (p : ℕ) (S : St Ideal) : Prop where
  p0 : p = 0 → S.m = RowBlock.m1 (Ag m c ib) (Cg m c)
    ∧ S.l = RowBlock.l1 (Ag m c ib) (Cg m c) (clg m c) (alg m c ib)
  p1 : p = 1 → S.m = RowBlock.m2 (Ag m c ib) (Cg m c)
    ∧ S.l = RowBlock.l2 (Ag m c ib) (Cg m c) (clg m c) (alg m c ib)
  p2 : p = 2 → S.m = RowBlock.m3 (Ag m c ib) (Cg m c)
    ∧ S.l = RowBlock.l3 (Ag m c ib) (Cg m c) (clg m c) (alg m c ib)
  p3 : p = 3 → S.m = RowBlock.m4 (Ag m c ib) (Cg m c)
    ∧ S.l = RowBlock.l4 (Ag m c ib) (Cg m c) (clg m c) (alg m c ib)
    ∧ S.ld = RowBlock.ld (Ag m c ib) (Cg m c) (clg m c) (alg m c ib)
  p4 : p = 4 → S.m = RowBlock.m4 (Ag m c ib) (Cg m c)
    ∧ S.ld = RowBlock.ld (Ag m c ib) (Cg m c) (clg m c) (alg m c ib)
    ∧ S.nu = RowBlock.nu1 (Ag m c ib) (Cg m c) (clg m c) (alg m c ib) ib
    ∧ S.ms = RowBlock.ms1 (clg m c) (alg m c ib) ib
  p5 : p = 5 → S.m = RowBlock.m4 (Ag m c ib) (Cg m c)
    ∧ S.ld = RowBlock.ld (Ag m c ib) (Cg m c) (clg m c) (alg m c ib)
    ∧ S.nu = RowBlock.nu2 (Ag m c ib) (Cg m c) (clg m c) (alg m c ib) ib
    ∧ S.ms = RowBlock.ms2 (clg m c) (alg m c ib) ib
  p6 : p = 6 → S.m = RowBlock.m4 (Ag m c ib) (Cg m c)
    ∧ S.ld = RowBlock.ld (Ag m c ib) (Cg m c) (clg m c) (alg m c ib)
    ∧ S.nu = RowBlock.nu3 (Ag m c ib) (Cg m c) (clg m c) (alg m c ib) ib
    ∧ S.ms = RowBlock.ms3 (clg m c) (alg m c ib) ib
  p7 : p = 7 → S.m = RowBlock.m4 (Ag m c ib) (Cg m c)
    ∧ S.ld = RowBlock.ld (Ag m c ib) (Cg m c) (clg m c) (alg m c ib)
    ∧ S.nu = RowBlock.nu4 (Ag m c ib) (Cg m c) (clg m c) (alg m c ib) ib
    ∧ S.ms = RowBlock.ms4 (clg m c) (alg m c ib) ib
    ∧ S.o4 = RowBlock.nu4 (Ag m c ib) (Cg m c) (clg m c) (alg m c ib) ib
    ∧ S.o5 = RowBlock.ms4 (clg m c) (alg m c ib) ib

/-- THE INVARIANT holds after every point: by induction on the point, each point's case turning the recurrence
    stopped at the previous position into the recurrence stopped at this one; a row block's first point starts it
    afresh. -/
theorem inv : ∀ (n : ℕ) (hn : n < cfg0.N) (ib : Fin 17) (hib : ib.val = n / 8),
    Inv m c ib (n % 8) (stateAt m c n hn)
  | 0, hn, ib, hib => by
    show Inv m c ib (0 % 8) (stepAt m c ⟨0, hn⟩ St.none)
    obtain ⟨hm, hl⟩ := caseA m c ⟨0, hn⟩ rfl ib hib 0 rfl St.none
    exact ⟨fun _ => ⟨hm, hl⟩, fun h => absurd h (by decide), fun h => absurd h (by decide),
      fun h => absurd h (by decide), fun h => absurd h (by decide), fun h => absurd h (by decide),
      fun h => absurd h (by decide), fun h => absurd h (by decide)⟩
  | n + 1, hn, ib, hib => by
    have ih := inv n (Nat.lt_of_succ_lt hn)
    show Inv m c ib ((n + 1) % 8) (stepAt m c ⟨n + 1, hn⟩ (stateAt m c n (Nat.lt_of_succ_lt hn)))
    have hib1 : ib.val = (n + 1) / 8 := hib
    refine ⟨fun h => ?_, fun h => ?_, fun h => ?_, fun h => ?_, fun h => ?_, fun h => ?_, fun h => ?_, fun h => ?_⟩
    · obtain ⟨hm, hl⟩ := caseA m c ⟨n + 1, hn⟩ h ib hib 0 (by show 0 = (n + 1) % 4; omega)
        (stateAt m c n (Nat.lt_of_succ_lt hn))
      exact ⟨hm, hl⟩
    · obtain ⟨im, il⟩ := (ih ib (by omega)).p0 (by omega)
      obtain ⟨hm, hl⟩ := caseB m c ⟨n + 1, hn⟩ (Or.inl h) ib hib 1 (by show 1 = (n + 1) % 4; omega)
        (stateAt m c n (Nat.lt_of_succ_lt hn))
      rw [im] at hm; rw [im, il] at hl
      exact ⟨hm, hl⟩
    · obtain ⟨im, il⟩ := (ih ib (by omega)).p1 (by omega)
      obtain ⟨hm, hl⟩ := caseB m c ⟨n + 1, hn⟩ (Or.inr h) ib hib 2 (by show 2 = (n + 1) % 4; omega)
        (stateAt m c n (Nat.lt_of_succ_lt hn))
      rw [im] at hm; rw [im, il] at hl
      exact ⟨hm, hl⟩
    · obtain ⟨im, il⟩ := (ih ib (by omega)).p2 (by omega)
      obtain ⟨hm, hl, hld⟩ := caseC m c ⟨n + 1, hn⟩ h ib hib 3 (by show 3 = (n + 1) % 4; omega)
        (stateAt m c n (Nat.lt_of_succ_lt hn))
      rw [im] at hm; rw [im, il] at hl hld
      exact ⟨hm, hl, hld⟩
    · obtain ⟨im, -, ild⟩ := (ih ib (by omega)).p3 (by omega)
      obtain ⟨hm, hld, hnu, hms⟩ := caseD m c ⟨n + 1, hn⟩ h ib hib 0 (by show 0 = (n + 1) % 4; omega)
        (stateAt m c n (Nat.lt_of_succ_lt hn))
      rw [im] at hm; rw [ild] at hld; rw [im, ild] at hnu
      exact ⟨hm, hld, hnu, hms⟩
    · obtain ⟨im, ild, inu, ims⟩ := (ih ib (by omega)).p4 (by omega)
      obtain ⟨hm, hld, hnu, hms⟩ := caseE m c ⟨n + 1, hn⟩ (Or.inl h) ib hib 1 (by show 1 = (n + 1) % 4; omega)
        (stateAt m c n (Nat.lt_of_succ_lt hn))
      rw [im] at hm; rw [ild] at hld; rw [im, ild, inu] at hnu; rw [ims] at hms
      exact ⟨hm, hld, hnu, hms⟩
    · obtain ⟨im, ild, inu, ims⟩ := (ih ib (by omega)).p5 (by omega)
      obtain ⟨hm, hld, hnu, hms⟩ := caseE m c ⟨n + 1, hn⟩ (Or.inr h) ib hib 2 (by show 2 = (n + 1) % 4; omega)
        (stateAt m c n (Nat.lt_of_succ_lt hn))
      rw [im] at hm; rw [ild] at hld; rw [im, ild, inu] at hnu; rw [ims] at hms
      exact ⟨hm, hld, hnu, hms⟩
    · obtain ⟨im, ild, inu, ims⟩ := (ih ib (by omega)).p6 (by omega)
      obtain ⟨hm, hld, hnu, hms, ho4, ho5⟩ := caseF m c ⟨n + 1, hn⟩ h ib hib 3 (by show 3 = (n + 1) % 4; omega)
        (stateAt m c n (Nat.lt_of_succ_lt hn))
      rw [im] at hm; rw [ild] at hld; rw [im, ild, inu] at hnu ho4; rw [ims] at hms ho5
      exact ⟨hm, hld, hnu, hms, ho4, ho5⟩

/-- The row block of a point. -/
def ibOf (t : Fin cfg0.N) : Fin 17 := ⟨t.val / 8, by have := t_lt t; omega⟩

theorem ibOf_val (t : Fin cfg0.N) : (ibOf t).val = t.val / 8 := rfl

/-- The invariant at a point, for the point's own row block. -/
theorem inv_at (t : Fin cfg0.N) : Inv m c (ibOf t) (t.val % 8) (stateAt m c t.val t.isLt) :=
  inv m c t.val t.isLt (ibOf t) rfl

/-- AT A ROW BLOCK'S LAST POINT the two output blocks hold the row block's masked log-probability sums and its
    positive counts. -/
theorem out_at (t : Fin cfg0.N) (h7 : t.val % 8 = 7) (r : Fin 256) :
    (stateAt m c t.val t.isLt).o4 (ix2 r (0 : Fin 1))
        = RowBlock.nu4 (Ag m c (ibOf t)) (Cg m c) (clg m c) (alg m c (ibOf t)) (ibOf t) (ix2 r (0 : Fin 1))
      ∧ (stateAt m c t.val t.isLt).o5 (ix2 r (0 : Fin 1))
        = RowBlock.ms4 (clg m c) (alg m c (ibOf t)) (ibOf t) (ix2 r (0 : Fin 1)) := by
  obtain ⟨-, -, -, -, h4, h5⟩ := (inv_at m c t).p7 h7
  exact ⟨congrFun h4 _, congrFun h5 _⟩

/-! ## The row blocks' data read from the whole feature array and the label vector -/

/-- The anchor rows of row block `ib` are the feature array's rows from global row `3841 + 256 ib`. -/
theorem Ag_long (ib : Fin 17) (r : Fin 256) (k : Fin 128) :
    Ag m c ib (ix2 r k) = Xk m c (ix2 (gRow ib r) k) := by
  unfold Ag
  rw [blk0 m c (ptR ib) r k]
  refine (V_v18_apply m c _ k).trans ?_
  exact congrArg (fun x : Fin 8704 => Xk m c (ix2 x k)) (Fin.ext (by
    show (ptR ib).val / 8 * 256 + r.val + 3841 = r.val + 3841 + ib.val * 256
    rw [ptR_val]; omega))

/-- Column tile `j` is the feature array's rows from `2176 j`. -/
theorem Cg_long (j : Fin 4) (q : Fin 2176) (k : Fin 128) :
    Cg m c j (ix2 q k) = Xk m c (ix2 (gCol j q) k) := by
  unfold Cg
  refine (tileC (iblk m c 1 (ptC j) : Vec Ideal S8704x128 .bf16) (grid0.coords (ptC j)) (k0_off1_inb _) q k).trans ?_
  rw [blk1 m c (ptC j)]
  refine (congrFun (V_v17 m c) _).trans ?_
  exact congrArg (fun x : Fin 8704 => Xk m c (ix2 x k)) (Fin.ext (by
    show ((grid0.coords (ptC j)) 2).val * 2176 + q.val = j.val * 2176 + q.val
    rw [(coords_val (ptC j)).2.2, ptC_val]
    have := j.isLt; omega))

/-- The anchor labels of row block `ib` are the labels at the global rows modulo 4352. -/
theorem alg_long (ib : Fin 17) (r : Fin 256) :
    (alg m c ib (ix2 r (0 : Fin 1)) : BitVec 32)
      = labk m c (ix1 (⟨(gRow ib r).val % 4352, Nat.mod_lt _ (by norm_num)⟩ : Fin 4352)) := by
  unfold alg
  rw [blk2 m c (ptR ib) r]
  refine (V_v20_apply m c _).trans ?_
  exact congrArg (fun x : Fin 4352 => labk m c (ix1 x)) (Fin.ext (by
    show ((ptR ib).val / 8 * 256 + r.val + 3841) % 4352 = (r.val + 3841 + ib.val * 256) % 4352
    rw [ptR_val]; omega))

/-- The labels of column tile `j` are the labels at the long-axis columns modulo 4352. -/
theorem clg_long (j : Fin 4) (q : Fin 2176) :
    (clg m c j (ix2 (0 : Fin 1) q) : BitVec 32)
      = labk m c (ix1 (⟨(gCol j q).val % 4352, Nat.mod_lt _ (by norm_num)⟩ : Fin 4352)) := by
  unfold clg
  refine (tileL (iblk m c 3 (ptC j) : Vec Ideal S1x8704 .i32) (grid0.coords (ptC j)) (k0_off2_inb _) q).trans ?_
  rw [blk3 m c (ptC j)]
  refine (V_v21_apply m c _).trans ?_
  exact congrArg (fun x : Fin 4352 => labk m c (ix1 x)) (Fin.ext (by
    show (((grid0.coords (ptC j)) 2).val * 2176 + q.val) % 4352 = (j.val * 2176 + q.val) % 4352
    rw [(coords_val (ptC j)).2.2, ptC_val]
    have := j.isLt; omega))

/-! ## The written-back blocks as functions of the feature array, the labels and the global row -/

section Long
variable [Cert.Pre_finite_inputs.Facts]
  (hpre : Cert.Pre_finite_inputs.fn (F := Ideal) (m ((c : Thread nD τ).loc main_arg0))
    (m ((c : Thread nD τ).loc main_arg1)) (m ((c : Thread nD τ).loc main_arg2))
    (m ((c : Thread nD τ).loc main_arg3)) (m ((c : Thread nD τ).loc main_arg4)) = fun _ => 1#1)
include hpre

/-- AT A ROW BLOCK'S LAST POINT, under the precondition, the first output block holds at row `r` the masked
    log-probability sum of the global row, and the second its positive count. -/
theorem out_long (t : Fin cfg0.N) (h7 : t.val % 8 = 7) (r : Fin 256) :
    (stateAt m c t.val t.isLt).o4 (ix2 r (0 : Fin 1)) = numK (Xk m c) (labk m c) (gRow (ibOf t) r)
      ∧ (stateAt m c t.val t.isLt).o5 (ix2 r (0 : Fin 1)) = msK (labk m c) (gRow (ibOf t) r) := by
  obtain ⟨h4, h5⟩ := out_at m c t h7 r
  refine ⟨h4.trans ?_, h5.trans ?_⟩
  · exact nu4_long (Ag m c (ibOf t)) (Cg m c) (clg m c) (alg m c (ibOf t)) (ibOf t) (Xk m c) (labk m c)
      (Xk_real m c hpre) (Ag_long m c (ibOf t)) (Cg_long m c) (alg_long m c (ibOf t)) (clg_long m c) r
  · exact ms4_long (clg m c) (alg m c (ibOf t)) (ibOf t) (labk m c) (alg_long m c (ibOf t)) (clg_long m c) r

end Long

end Cert.KernelIdeal.ValueInv

end
-- ==== Proof.RefG.lean ====
import proofs.«108923_j8598524526701_2_alg».proof.Proof.RefRead
import Idealize.ShloMosaic.Lib.IdealHost
import Idealize.ShloMosaic.PureOps.Reduce

/-!
The reference program's result, read index by index at the exact instance.

The reference computes a supervised contrastive loss over 8704 feature rows (two views of a queue of 4096 rows
followed by a batch of 256). Two arrays prepared at the start of the program are kept as they stand: the
[8704, 128] feature matrix `X` and the [4352] label vector `lab`. In terms of them, with `R = r + 3841` the
row of the similarity matrix that output row `r` reads:

* `adc X R c`: the inner product of rows `R` and `c` of `X`, divided by the temperature;
* `Mx X R`: the maximum over `c` of `adc X R c`;
* `eqf lab R c`: 1 when the labels of rows `R` and `c` (taken modulo 4352) agree, else 0;
* `self R c`: 1 off the diagonal; on it, 1 for a queue row and 0 for a batch row;
* `lm = (eqf - 1)²`, `mask = eqf · self`;
* `NUM r = ∑ c, mask R c · min 0 ((adc R c - Mx R) - log (∑ c', exp (adc R c' - Mx R) · lm R c'))`;
* `MS r = ∑ c, mask R c`.

The result is `tailF (fun r => NUM r / MS r)`, where `tailF` is the closing negated mean, kept as one function.
-/

noncomputable section

namespace Cert.ReferenceIdeal.RefG

open Cert.ReferenceIdeal Cert.ReferenceIdeal.Gen Cert.ReferenceIdeal.RefRead Idealize.ShloMosaic Idealize.ShloMosaic.TcCoe Idealize.SL.Sem Idealize.ShloMosaic.StableHlo
open Idealize.ShloMosaic.ValueIdx (ix0 ix1 ix2)
open scoped BigOperators

/-! ## A scatter whose body returns the update, read at an index -/

section Scatter

variable {α : Type} {s si u : Shape} {w : Nat}

/-- The row-major fold that defines such a scatter leaves an index alone that none of the listed updates lands on. -/
theorem fold_miss (d : ScatterDims s si u) (idx : IVec si w) (upd : u.Idx → α) (i : s.Idx) :
    ∀ (l : List (Fin u.numel)) (x : s.Idx → α), (∀ n ∈ l, d.resultIdx? (u.rowMajor.symm n) idx ≠ some i) →
      (l.foldl (fun r n =>
          match d.resultIdx? (u.rowMajor.symm n) idx with
          | some i => fun i' => if i' = i then (fun _ b => b) (r i) (upd (u.rowMajor.symm n)) else r i'
          | none => r) x) i = x i := by
  intro l
  induction l with
  | nil => intro x _; rfl
  | cons n l ih =>
    intro x h
    rw [List.foldl_cons, ih _ (fun n' hn' => h n' (List.mem_cons_of_mem _ hn'))]
    have hn := h n (List.mem_cons_self ..)
    generalize d.resultIdx? (u.rowMajor.symm n) idx = g at hn
    cases g with
    | none => rfl
    | some j =>
      have hij : i ≠ j := fun e => hn (by rw [e])
      exact if_neg hij

/-- … and holds update `n0` at the index it lands on, when no other listed update lands there. -/
theorem fold_hit (d : ScatterDims s si u) (idx : IVec si w) (upd : u.Idx → α) (i : s.Idx) (n0 : Fin u.numel)
    (h0 : d.resultIdx? (u.rowMajor.symm n0) idx = some i) :
    ∀ (l : List (Fin u.numel)) (x : s.Idx → α), l.Nodup → n0 ∈ l →
      (∀ n ∈ l, n ≠ n0 → d.resultIdx? (u.rowMajor.symm n) idx ≠ some i) →
      (l.foldl (fun r n =>
          match d.resultIdx? (u.rowMajor.symm n) idx with
          | some i => fun i' => if i' = i then (fun _ b => b) (r i) (upd (u.rowMajor.symm n)) else r i'
          | none => r) x) i = upd (u.rowMajor.symm n0) := by
  intro l
  induction l with
  | nil => intro x _ hm; exact absurd hm (List.not_mem_nil)
  | cons n l ih =>
    intro x hnd hm hne
    rw [List.foldl_cons]
    have hnd' := List.nodup_cons.1 hnd
    by_cases e : n = n0
    · subst e
      rw [fold_miss d idx upd i l _ (fun n' hn' => hne n' (List.mem_cons_of_mem _ hn') (fun e => hnd'.1 (e ▸ hn')))]
      rw [h0]
      exact if_pos rfl
    · have hm' : n0 ∈ l := by
        rcases List.mem_cons.1 hm with h | h
        · exact absurd h.symm e
        · exact h
      exact ih _ hnd'.2 hm' (fun n' hn' => hne n' (List.mem_cons_of_mem _ hn'))

/-- A scatter whose body returns the update, read at an index that exactly one update lands on: that update. -/
theorem scatter_set_hit (d : ScatterDims s si u) (x : s.Idx → α) (idx : IVec si w) (upd : u.Idx → α) (i : s.Idx) (j : u.Idx)
    (hj : d.resultIdx? j idx = some i) (huniq : ∀ j', j' ≠ j → d.resultIdx? j' idx ≠ some i) :
    Host.scatter d (fun _ b => b) x idx upd i = upd j := by
  unfold Host.scatter
  have h0 : d.resultIdx? (u.rowMajor.symm (u.rowMajor j)) idx = some i := by rw [Equiv.symm_apply_apply]; exact hj
  have := fold_hit d idx upd i (u.rowMajor j) h0 (List.finRange u.numel) x (List.nodup_finRange _) (List.mem_finRange _)
    (fun n _ hne => huniq _ (fun e => hne (by rw [← e, Equiv.apply_symm_apply])))
  rw [Equiv.symm_apply_apply] at this
  exact this

/-- … and at an index no update lands on: the operand's element. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact fold_miss d idx upd i _ x (fun n _ => h _)

/-- An update lands at `i` when start plus window coordinate is `i`'s coordinate on every axis. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  rw [dif_pos (fun a => by rw [h a]; exact ⟨Int.natCast_nonneg _, by exact_mod_cast (i a).isLt⟩)]
  congr 1; funext a; apply Fin.ext
  show (d.start j idx a + (d.window j a : Int)).toNat = (i a).val
  rw [h a]; exact Int.toNat_natCast _

end Scatter

/-! ## Small index facts -/

macro "idx1" : tactic => `(tactic| (funext a; match a with | ⟨0, _⟩ => rfl))
macro "idx2" : tactic => `(tactic| (funext a; match a with | ⟨0, _⟩ => rfl | ⟨1, _⟩ => rfl))

/-- A number below 8704 written as a 32-bit word reads back, signed, as itself. -/
theorem toInt_ofNat_small (n : Nat) (h : n < 8704) : (BitVec.ofNat 32 n).toInt = (n : Int) := by
  have h1 : (BitVec.ofNat 32 n).toNat = n := by rw [BitVec.toNat_ofNat]; exact Nat.mod_eq_of_lt (by omega)
  rw [BitVec.toInt_eq_toNat_cond, h1, if_pos (by omega)]

/-- … and is not negative. -/
theorem slt_zero_small (n : Nat) (h : n < 8704) : IntOp.cmpi .slt (BitVec.ofNat 32 n) 0#32 = 0#1 := by
  unfold IntOp.cmpi
  have : (BitVec.ofNat 32 n).slt 0#32 = false := by
    rw [BitVec.slt, toInt_ofNat_small n h]; simp
  simp only [this]; rfl

/-! ## The diagonal scatter: the ones matrix with its diagonal overwritten -/

section Diag

abbrev dS : ScatterDims S8704x8704 S8704x2 S8704 := scatter_S8704x8704_S8704x2_S8704_n_01_01_1

theorem dS_window (j : S8704.Idx) (a : Fin S8704x8704.rank) : dS.window j a = 0 := by
  unfold ScatterDims.window
  exact dif_neg (by revert a; decide)

theorem dS_siIdx (j : S8704.Idx) (c : Fin dS.scatterDimsToOperandDims.length) :
    dS.siIdx j c = ix2 (j 0) ⟨c.val, c.isLt⟩ := by
  funext b
  match b with
  | ⟨0, _⟩ => rfl
  | ⟨1, _⟩ => rfl

theorem dS_start0 (j : S8704.Idx) (idx : IVec S8704x2 32) : dS.start j idx 0 = (idx (ix2 (j 0) 0)).toInt := by
  unfold ScatterDims.start
  rw [dif_pos (by decide), dS_siIdx]
  rfl

theorem dS_start1 (j : S8704.Idx) (idx : IVec S8704x2 32) : dS.start j idx 1 = (idx (ix2 (j 0) 1)).toInt := by
  unfold ScatterDims.start
  rw [dif_pos (by decide), dS_siIdx]
  rfl

/-- The index fix-up `select (iota < 0) (iota + 8704) iota` is the identity on `[0, 8704)`. -/
theorem v42_at (n : Fin 8704) : val_main_v42 (F := Ideal) (ix1 n) = BitVec.ofNat 32 n.val := by
  rw [val_main_v42_apply, val_main_v39_apply, val_main_v36_apply, val_main_v38_apply, val_main_c_6_apply]
  show Scalar.select (IntOp.cmpi .slt (BitVec.ofNat 32 n.val) 0#32) _ (BitVec.ofNat 32 n.val) = _
  rw [slt_zero_small n.val n.isLt]
  exact ValueIdx.select_zero _ _

theorem v47_at (n : Fin 8704) : val_main_v47 (F := Ideal) (ix1 n) = BitVec.ofNat 32 n.val := by
  rw [val_main_v47_apply, val_main_v44_apply, val_main_v36_apply, val_main_v43_apply, val_main_c_8_apply]
  show Scalar.select (IntOp.cmpi .slt (BitVec.ofNat 32 n.val) 0#32) _ (BitVec.ofNat 32 n.val) = _
  rw [slt_zero_small n.val n.isLt]
  exact ValueIdx.select_zero _ _

/-- The scatter indices: row `n` of the [8704, 2] index array is `(n, n)`. -/
theorem v50_at0 (n : Fin 8704) : val_main_v50 (F := Ideal) (ix2 n 0) = BitVec.ofNat 32 n.val := by
  unfold val_main_v50
  refine (concatenate_apply_piece (t := S8704x2) 1
    [⟨S8704x1, (val_main_v48 (F := Ideal))⟩, ⟨S8704x1, (val_main_v49 (F := Ideal))⟩]
    concatenates_S8704x1_S8704x1_S8704x2_d1 (ix2 n 0) 0 (by show (0 : Nat) < 2; omega) S8704x1
    (val_main_v48 (F := Ideal)) rfl rfl 0 rfl (ix2 n 0)
    (fun b hb => by match b with | ⟨0, _⟩ => rfl | ⟨1, _⟩ => exact absurd rfl hb) rfl).trans ?_
  rw [val_main_v48_apply, show idx_main_v48 (ix2 n (0 : Fin 1)) = ix1 n by idx1, v42_at]

theorem v50_at1 (n : Fin 8704) : val_main_v50 (F := Ideal) (ix2 n 1) = BitVec.ofNat 32 n.val := by
  unfold val_main_v50
  refine (concatenate_apply_piece (t := S8704x2) 1
    [⟨S8704x1, (val_main_v48 (F := Ideal))⟩, ⟨S8704x1, (val_main_v49 (F := Ideal))⟩]
    concatenates_S8704x1_S8704x1_S8704x2_d1 (ix2 n 1) 1 (by show (1 : Nat) < 2; omega) S8704x1
    (val_main_v49 (F := Ideal)) rfl rfl 1 rfl (ix2 n 0)
    (fun b hb => by match b with | ⟨0, _⟩ => rfl | ⟨1, _⟩ => exact absurd rfl hb) rfl).trans ?_
  rw [val_main_v49_apply, show idx_main_v49 (ix2 n (0 : Fin 1)) = ix1 n by idx1, v47_at]

/-- Update `n` lands on the diagonal element `(n, n)`. -/
theorem lands (n : Fin 8704) : dS.resultIdx? (ix1 n) (val_main_v50 (F := Ideal)) = some (ix2 n n) :=
  resultIdx?_eq_some dS (ix1 n) _ (ix2 n n) (fun a => by
    match a with
    | ⟨0, _⟩ =>
      show dS.start (ix1 n) _ 0 + ((dS.window (ix1 n) 0 : Nat) : Int) = (n.val : Int)
      rw [dS_window, dS_start0]
      show (val_main_v50 (F := Ideal) (ix2 n 0)).toInt + ((0 : Nat) : Int) = (n.val : Int)
      rw [v50_at0, toInt_ofNat_small n.val n.isLt]; simp
    | ⟨1, _⟩ =>
      show dS.start (ix1 n) _ 1 + ((dS.window (ix1 n) 1 : Nat) : Int) = (n.val : Int)
      rw [dS_window, dS_start1]
      show (val_main_v50 (F := Ideal) (ix2 n 1)).toInt + ((0 : Nat) : Int) = (n.val : Int)
      rw [v50_at1, toInt_ofNat_small n.val n.isLt]; simp)

/-- The scatter's updates: ones for the 3840 queue rows of each half, zeros for its 512 batch rows. -/
def diag (R : Fin 8704) : EReal := if R.val % 4352 < 3840 then 1 else 0

theorem v35_at (R : Fin 8704) : val_main_v35 (F := Ideal) (ix1 R) = diag R := by
  rw [val_main_v35_apply, val_main_v34_apply, val_main_v33_apply]
  have hlt : R.val % 4352 < 4352 := Nat.mod_lt _ (by decide)
  have hi : idx_main_v33 (idx_main_v34 (idx_main_v35 (ix1 R))) = ix1 (⟨R.val % 4352, hlt⟩ : Fin 4352) := by
    funext a
    match a with
    | ⟨0, _⟩ => exact Fin.ext (by show 0 * 4352 + R.val % 4352 = R.val % 4352; omega)
  rw [hi]
  unfold val_main_v32 diag
  by_cases h : R.val % 4352 < 3840
  · rw [if_pos h]
    refine (concatenate_apply_piece (t := S4352) 0
      [⟨S3840, (val_main_v30 (F := Ideal))⟩, ⟨S512, (val_main_v31 (F := Ideal))⟩]
      concatenates_S3840_S512_S4352_d0 (ix1 (⟨R.val % 4352, hlt⟩ : Fin 4352)) 0 (by show (0 : Nat) < 2; omega) S3840
      (val_main_v30 (F := Ideal)) rfl rfl 0 rfl (ix1 (⟨R.val % 4352, h⟩ : Fin 3840))
      (fun b hb => by match b with | ⟨0, _⟩ => exact absurd rfl hb) (Nat.zero_add _)).trans ?_
    rw [val_main_v30_apply, val_main_cst_3_apply]
    exact Ideal.ofBits_one_f32
  · rw [if_neg h]
    refine (concatenate_apply_piece (t := S4352) 0
      [⟨S3840, (val_main_v30 (F := Ideal))⟩, ⟨S512, (val_main_v31 (F := Ideal))⟩]
      concatenates_S3840_S512_S4352_d0 (ix1 (⟨R.val % 4352, hlt⟩ : Fin 4352)) 1 (by show (1 : Nat) < 2; omega) S512
      (val_main_v31 (F := Ideal)) rfl rfl 3840 rfl (ix1 (⟨R.val % 4352 - 3840, by omega⟩ : Fin 512))
      (fun b hb => by match b with | ⟨0, _⟩ => exact absurd rfl hb) (by show 3840 + (R.val % 4352 - 3840) = R.val % 4352; omega)).trans ?_
    rw [val_main_v31_apply, val_main_cst_4_apply]
    exact Ideal.ofBits_zero_f32

/-- The ones matrix with its diagonal overwritten. -/
def self (R c : Fin 8704) : EReal := if R = c then diag R else 1

theorem v51_at (R c : Fin 8704) : val_main_v51 (F := Ideal) (ix2 R c) = self R c := by
  unfold val_main_v51 self
  by_cases h : R = c
  · subst h
    rw [if_pos rfl, ← v35_at]
    exact scatter_set_hit dS _ _ _ (ix2 R R) (ix1 R) (lands R) (fun j' hj' e => by
      obtain ⟨n, rfl⟩ : ∃ n : Fin 8704, j' = ix1 n := ⟨j' 0, ValueIdx.eq_ix1 j'⟩
      rw [lands] at e
      have h0 : n = R := congrFun (Option.some.inj e) 0
      exact hj' (by rw [h0]))
  · rw [if_neg h]
    rw [scatter_set_miss dS _ _ _ (ix2 R c) (fun j e => by
      obtain ⟨n, rfl⟩ : ∃ n : Fin 8704, j = ix1 n := ⟨j 0, ValueIdx.eq_ix1 j⟩
      rw [lands] at e
      have h0 : n = R := congrFun (Option.some.inj e) 0
      have h1 : n = c := congrFun (Option.some.inj e) 1
      exact h (h0.symm.trans h1))]
    rw [val_main_v37_apply, val_main_cst_5_apply]
    exact Ideal.ofBits_one_f32

end Diag

/-! ## The label mask, tiled 2 × 2 -/

section Labels

variable (x1 : (⟨S256, .i32⟩ : BufTy).Contents (Elt Ideal)) (x4 : (⟨S4096, .i32⟩ : BufTy).Contents (Elt Ideal))

/-- 1 when rows `R` and `c` carry the same label (the labels repeat with period 4352), else 0: the comparison's bit
    read as an unsigned number. -/
def eqf (lab : IVec S4352 32) (R c : Fin 8704) : EReal :=
  FloatOps.uitofp (F := Ideal) .f32
    (IntOp.cmpi .eq (lab (ix1 (⟨R.val % 4352, Nat.mod_lt _ (by decide)⟩ : Fin 4352)))
      (lab (ix1 (⟨c.val % 4352, Nat.mod_lt _ (by decide)⟩ : Fin 4352))))

theorem v29_at (R c : Fin 8704) :
    val_main_v29 (F := Ideal) x1 x4 (ix2 R c) = eqf (val_main_v9 (F := Ideal) x1 x4) R c := by
  rw [val_main_v29_apply, val_main_v28_apply, val_main_v27_apply, val_main_v15_apply, val_main_v14_apply,
    val_main_v12_apply, val_main_v13_apply, val_main_v10_apply, val_main_v11_apply]
  unfold eqf
  have hR : R.val < 8704 := R.isLt
  have hc : c.val < 8704 := c.isLt
  have e0 : idx_main_v10 (idx_main_v12 (idx_main_v27 (idx_main_v28 (idx_main_v29 (ix2 R c)))))
      = ix1 (⟨R.val % 4352, Nat.mod_lt _ (by decide)⟩ : Fin 4352) := by
    funext a
    match a with
    | ⟨0, _⟩ => exact Fin.ext (by
        show (((0 * 4352 + (R.val * 8704 + c.val) / 8704 % 4352) * 1 + 0) * 4352 + (R.val * 8704 + c.val) % 4352) / 4352
          = R.val % 4352
        omega)
  have e1 : idx_main_v11 (idx_main_v13 (idx_main_v27 (idx_main_v28 (idx_main_v29 (ix2 R c)))))
      = ix1 (⟨c.val % 4352, Nat.mod_lt _ (by decide)⟩ : Fin 4352) := by
    funext a
    match a with
    | ⟨0, _⟩ => exact Fin.ext (by
        show (((0 * 4352 + (R.val * 8704 + c.val) / 8704 % 4352) * 1 + 0) * 4352 + (R.val * 8704 + c.val) % 4352) % 4352
          = c.val % 4352
        omega)
  rw [e0, e1]

end Labels

/-! ## The similarity matrix and its row maxima -/

section Sim

variable (x0 : (⟨S256x2x128, .f32⟩ : BufTy).Contents (Elt Ideal)) (x2 x3 : (⟨S4096x128, .f32⟩ : BufTy).Contents (Elt Ideal))

/-- The inner product of rows `R` and `c` of the features, over the temperature. -/
def adc (X : FVec Ideal S8704x128 .f32) (R c : Fin 8704) : EReal :=
  Ideal.div (∑ k : Fin 128, X (ix2 R k) * X (ix2 c k)) (Ideal.ofBits .f32 0x3D8F5C29#32)

theorem v22_at (R c : Fin 8704) :
    val_main_v22 (F := Ideal) x0 x2 x3 (ix2 R c) = adc (val_main_v18 (F := Ideal) x0 x2 x3) R c := by
  rw [val_main_v22_apply, val_main_v20_apply, val_main_v21_apply, val_main_cst_apply]
  unfold adc
  show Ideal.div _ _ = Ideal.div _ _
  congr 1
  refine Finset.sum_congr rfl fun k _ => ?_
  rw [val_main_v19_apply, show lidx_main_v20 (ix2 R c) k = ix2 R k by idx2,
    show idx_main_v19 (ridx_main_v20 (ix2 R c) k) = ix2 c k by idx2]

/-- The row maximum, folded from −∞. -/
def Mx (X : FVec Ideal S8704x128 .f32) (R : Fin 8704) : EReal :=
  (Finset.univ : Finset (Fin 8704)).fold max ⊥ (fun c => adc X R c)

theorem ofBits_neg_inf : Ideal.ofBits .f32 0xFF800000#32 = ⊥ := by simp [Ideal.ofBits, Ideal.ieee]

theorem lift_row (h : S8704x8704.Reduces [1] S8704) (R : Fin 8704) (k : Fin (S8704x8704.size 1)) :
    h.lift (ix1 R) k = ix2 R (⟨k.val, k.isLt⟩ : Fin 8704) := by
  funext c; apply Fin.ext
  fin_cases c <;> rfl

theorem v23_at (R : Fin 8704) :
    val_main_v23 (F := Ideal) x0 x2 x3 (ix1 R) = Mx (val_main_v18 (F := Ideal) x0 x2 x3) R := by
  unfold val_main_v23
  have h : S8704x8704.Reduces [1] S8704 := by decide
  rw [Host.reduce_eq_fold_single FloatOps.maximumf _ _ reducesTo_S8704x8704_S8704_d1 h h_S_]
  unfold Mx
  have hf : (val_main_v22 (F := Ideal) x0 x2 x3 ∘ h.lift (ix1 R))
      = fun c : Fin 8704 => adc (val_main_v18 (F := Ideal) x0 x2 x3) R c :=
    funext fun k => by
      show val_main_v22 (F := Ideal) x0 x2 x3 (h.lift (ix1 R) k) = _
      rw [lift_row h R k]; exact v22_at x0 x2 x3 R _
  rw [hf]
  show Finset.fold max (Ideal.ofBits .f32 0xFF800000#32) _ Finset.univ = _
  rw [ofBits_neg_inf]
  rfl

theorem v26_at (R c : Fin 8704) :
    val_main_v26 (F := Ideal) x0 x2 x3 (ix2 R c)
      = adc (val_main_v18 (F := Ideal) x0 x2 x3) R c - Mx (val_main_v18 (F := Ideal) x0 x2 x3) R := by
  rw [val_main_v26_apply, v22_at, val_main_v25_apply, val_main_v24_apply,
    show idx_main_v24 (idx_main_v25 (ix2 R c)) = ix1 R by idx1, v23_at]
  rfl

end Sim

/-! ## The row window: rows 3841 … 8192 -/

/-- Output row `r` reads row `r + 3841` of the [8704, 8704] matrices. -/
def rowOf (r : Fin 4352) : Fin 8704 := ⟨r.val + 3841, by omega⟩

theorem concat_first {α : Type} (x : S4352x8704.Idx → α) (y : S0x8704.Idx → α) (j : S4352x8704.Idx) :
    concatenate S4352x8704 0 [⟨S4352x8704, x⟩, ⟨S0x8704, y⟩] concatenates_S4352x8704_S0x8704_S4352x8704_d0 j = x j :=
  concatenate_apply_piece 0 _ _ j 0 (by show (0 : Nat) < 2; omega) S4352x8704 x rfl rfl 0 rfl j (fun _ _ => rfl) (Nat.zero_add _)

theorem slice_idx56 (r : Fin 4352) (c : Fin 8704) : idx_main_v56 (idx_main_v57 (ix2 r c)) = ix2 (rowOf r) c := by
  funext a
  match a with
  | ⟨0, _⟩ => exact Fin.ext (by show 3841 + r.val = r.val + 3841; omega)
  | ⟨1, _⟩ => rfl

theorem slice_idx60 (r : Fin 4352) (c : Fin 8704) : idx_main_v60 (idx_main_v61 (ix2 r c)) = ix2 (rowOf r) c := by
  funext a
  match a with
  | ⟨0, _⟩ => exact Fin.ext (by show 3841 + r.val = r.val + 3841; omega)
  | ⟨1, _⟩ => rfl

theorem slice_idx64 (r : Fin 4352) (c : Fin 8704) : idx_main_v64 (idx_main_v65 (ix2 r c)) = ix2 (rowOf r) c := by
  funext a
  match a with
  | ⟨0, _⟩ => exact Fin.ext (by show 3841 + r.val = r.val + 3841; omega)
  | ⟨1, _⟩ => rfl

/-! ## The two sweeps and the quotient -/

section Loss

variable (x0 : (⟨S256x2x128, .f32⟩ : BufTy).Contents (Elt Ideal)) (x1 : (⟨S256, .i32⟩ : BufTy).Contents (Elt Ideal))
  (x2 x3 : (⟨S4096x128, .f32⟩ : BufTy).Contents (Elt Ideal)) (x4 : (⟨S4096, .i32⟩ : BufTy).Contents (Elt Ideal))

/-- The weight of a column in the normaliser: 1 where the labels differ, 0 where they agree. -/
def lm (lab : IVec S4352 32) (R c : Fin 8704) : EReal := (eqf lab R c - 1) * (eqf lab R c - 1)

/-- The positives: equal labels, the row itself left out for a batch row. -/
def mask (lab : IVec S4352 32) (R c : Fin 8704) : EReal := eqf lab R c * self R c

/-- The normaliser of row `R`. -/
def Z (X : FVec Ideal S8704x128 .f32) (lab : IVec S4352 32) (R : Fin 8704) : EReal :=
  ∑ c' : Fin 8704, Ideal.exp (adc X R c' - Mx X R) * lm lab R c'

/-- The masked sum of clipped log-probabilities of output row `r`. -/
def NUM (X : FVec Ideal S8704x128 .f32) (lab : IVec S4352 32) (r : Fin 4352) : EReal :=
  ∑ c : Fin 8704, mask lab (rowOf r) c
    * min 0 ((adc X (rowOf r) c - Mx X (rowOf r)) - Ideal.log (Z X lab (rowOf r)))

/-- The number of positives of output row `r`. -/
def MS (X : FVec Ideal S8704x128 .f32) (lab : IVec S4352 32) (r : Fin 4352) : EReal :=
  ∑ c : Fin 8704, mask lab (rowOf r) c

theorem v63_at (r : Fin 4352) (c : Fin 8704) :
    val_main_v63 (F := Ideal) x0 x2 x3 (ix2 r c)
      = adc (val_main_v18 (F := Ideal) x0 x2 x3) (rowOf r) c - Mx (val_main_v18 (F := Ideal) x0 x2 x3) (rowOf r) := by
  unfold val_main_v63
  rw [concat_first, val_main_v61_apply, val_main_v60_apply, slice_idx60, v26_at]

theorem v59_at (r : Fin 4352) (c : Fin 8704) :
    val_main_v59 (F := Ideal) x1 x4 (ix2 r c) = mask (val_main_v9 (F := Ideal) x1 x4) (rowOf r) c := by
  unfold val_main_v59
  rw [concat_first, val_main_v57_apply, val_main_v56_apply, slice_idx56, val_main_v55_apply, v29_at, v51_at]
  rfl

theorem v67_at (r : Fin 4352) (c : Fin 8704) :
    val_main_v67 (F := Ideal) x1 x4 (ix2 r c) = lm (val_main_v9 (F := Ideal) x1 x4) (rowOf r) c := by
  unfold val_main_v67
  rw [concat_first, val_main_v65_apply, val_main_v64_apply, slice_idx64, val_main_v54_apply, val_main_v53_apply,
    v29_at, val_main_v52_apply, val_main_cst_10_apply]
  show (_ - Ideal.ofBits .f32 0x3F800000#32) * (_ - Ideal.ofBits .f32 0x3F800000#32) = _
  rw [Ideal.ofBits_one_f32]
  rfl

theorem v70_at (r : Fin 4352) :
    val_main_v70 (F := Ideal) x0 x1 x2 x3 x4 (ix1 r)
      = Z (val_main_v18 (F := Ideal) x0 x2 x3) (val_main_v9 (F := Ideal) x1 x4) (rowOf r) := by
  rw [val_main_v70_apply, val_main_cst_11_apply]
  show Ideal.ofBits .f32 0x00000000#32 + _ = _
  rw [Ideal.ofBits_zero_f32, zero_add]
  unfold Z
  refine Finset.sum_congr rfl fun c _ => ?_
  rw [show idx_main_v70 (ix1 r) c = ix2 r c by idx2, val_main_v69_apply, val_main_v68_apply, v63_at, v67_at]
  rfl

theorem v74_at (r : Fin 4352) (c : Fin 8704) :
    val_main_v74 (F := Ideal) x0 x1 x2 x3 x4 (ix2 r c)
      = (adc (val_main_v18 (F := Ideal) x0 x2 x3) (rowOf r) c - Mx (val_main_v18 (F := Ideal) x0 x2 x3) (rowOf r))
        - Ideal.log (Z (val_main_v18 (F := Ideal) x0 x2 x3) (val_main_v9 (F := Ideal) x1 x4) (rowOf r)) := by
  rw [val_main_v74_apply, v63_at, val_main_v73_apply, val_main_v72_apply, val_main_v71_apply,
    show idx_main_v71 (idx_main_v73 (ix2 r c)) = ix1 r by idx1, v70_at]
  rfl

theorem v78_at (r : Fin 4352) :
    val_main_v78 (F := Ideal) x0 x1 x2 x3 x4 (ix1 r)
      = NUM (val_main_v18 (F := Ideal) x0 x2 x3) (val_main_v9 (F := Ideal) x1 x4) r := by
  rw [val_main_v78_apply, val_main_cst_13_apply]
  show Ideal.ofBits .f32 0x00000000#32 + _ = _
  rw [Ideal.ofBits_zero_f32, zero_add]
  unfold NUM
  refine Finset.sum_congr rfl fun c _ => ?_
  rw [show idx_main_v78 (ix1 r) c = ix2 r c by idx2, val_main_v77_apply, v59_at, val_main_v76_apply,
    val_main_v75_apply, val_main_cst_12_apply, v74_at]
  show _ * min (Ideal.ofBits .f32 0x00000000#32) _ = _
  rw [Ideal.ofBits_zero_f32]

theorem v79_at (r : Fin 4352) :
    val_main_v79 (F := Ideal) x1 x4 (ix1 r)
      = MS (val_main_v18 (F := Ideal) x0 x2 x3) (val_main_v9 (F := Ideal) x1 x4) r := by
  rw [val_main_v79_apply, val_main_cst_14_apply]
  show Ideal.ofBits .f32 0x00000000#32 + _ = _
  rw [Ideal.ofBits_zero_f32, zero_add]
  unfold MS
  refine Finset.sum_congr rfl fun c _ => ?_
  rw [show idx_main_v79 (ix1 r) c = ix2 r c by idx2, v59_at]

theorem v80_eq :
    val_main_v80 (F := Ideal) x0 x1 x2 x3 x4
      = fun r : S4352.Idx => Ideal.div (NUM (val_main_v18 (F := Ideal) x0 x2 x3) (val_main_v9 (F := Ideal) x1 x4) (r 0))
          (MS (val_main_v18 (F := Ideal) x0 x2 x3) (val_main_v9 (F := Ideal) x1 x4) (r 0)) := by
  funext r
  obtain ⟨r0, rfl⟩ : ∃ r0 : Fin 4352, r = ix1 r0 := ⟨r 0, ValueIdx.eq_ix1 r⟩
  rw [val_main_v80_apply, v78_at, v79_at x0 x1 x2 x3 x4]
  rfl

/-- The closing operations — times −1, summed over the 4352 rows, over 4352 — as one function of the per-row quotient. -/
def tailF (q : FVec Ideal S4352 .f32) : FVec Ideal S_ .f32 :=
  Host.divf (Host.reduceAdd (mulf (broadcastInDim S4352 ![] bcast_S_S4352 (constant S_ .f32 0xBF800000#32)) q)
    (constant S_ .f32 0x00000000#32) reducesTo_S4352_S_d0 h_S_) (constant S_ .f32 0x45880000#32)

theorem v84_eq_tail :
    val_main_v84 (F := Ideal) x0 x1 x2 x3 x4 = tailF (val_main_v80 (F := Ideal) x0 x1 x2 x3 x4) := rfl

end Loss

/-! ## The result -/

/-- The [8704, 128] features the program assembles from its arguments, as the run's own term. -/
def Xof (m : (ℓ : Loc nD τ sig) → Buf (Elt Ideal) ℓ) (c : Dev nD) : FVec Ideal S8704x128 .f32 :=
  val_main_v18 (F := Ideal) (m ((c.tc : Thread nD τ).loc main_arg0)) (m ((c.tc : Thread nD τ).loc main_arg2))
    (m ((c.tc : Thread nD τ).loc main_arg3))

/-- The [4352] labels the program assembles from its arguments, as the run's own term. -/
def labOf (m : (ℓ : Loc nD τ sig) → Buf (Elt Ideal) ℓ) (c : Dev nD) : IVec S4352 32 :=
  val_main_v9 (F := Ideal) (m ((c.tc : Thread nD τ).loc main_arg1)) (m ((c.tc : Thread nD τ).loc main_arg4))

theorem result_eq (m : (ℓ : Loc nD τ sig) → Buf (Elt Ideal) ℓ) (c : Dev nD) :
    Cert.ReferenceIdeal.RefValue.res_main_v84 (F := Ideal) m c
      = tailF (fun r : S4352.Idx => Ideal.div (NUM (Xof m c) (labOf m c) (r 0)) (MS (Xof m c) (labOf m c) (r 0))) := by
  rw [val_main_v84_eq, v84_eq_tail, v80_eq]
  rfl

end Cert.ReferenceIdeal.RefG

end
-- ==== Proof.Join.lean ====
/-
  The two programs' per-row formulas are one function of the features, the labels and the row.

  One side divides the inner product of two feature rows by the temperature, marks equal labels by the
  number `1` or `0` and builds its two masks from that number by arithmetic — `(e - 1)²` for the columns
  of the sum of exponentials, `e · s` for the positives, where `s` removes the diagonal entry of the rows
  outside the queue's range —; the other multiplies by the reciprocal temperature and chooses the masks'
  values by cases. Term by term these agree on every anchor row, for any features whatever: division
  by a nonzero real is multiplication by its reciprocal on every extended real, `(1 - 1)² = 0`,
  `(0 - 1)² = 1`, and for a row `R` with `3841 ≤ R < 8193` the condition `R mod 4352 < 3840` says
  `4352 ≤ R < 8192`.
-/
import proofs.«108923_j8598524526701_2_alg».proof.Proof.KI.RowLong
import proofs.«108923_j8598524526701_2_alg».proof.Proof.Consts

noncomputable section

open scoped BigOperators

namespace Cert.Join

open Cert.KernelIdeal Cert.KernelIdeal.RowLong
open Idealize.ShloMosaic Idealize.ShloMosaic.ValueIdx

section Defs
variable (X : FVec Ideal S8704x128 .f32) (lab : IVec S4352 32)

/-- The inner product of rows `R` and `c` of the features, divided by the temperature. -/
def adcR (R c : Fin 8704) : EReal :=
  Ideal.div (∑ k : Fin 128, X (ix2 R k) * X (ix2 c k)) (Ideal.ofBits .f32 0x3D8F5C29#32)

/-- Its maximum over the columns. -/
def MxR (R : Fin 8704) : EReal := Finset.univ.sup fun c : Fin 8704 => adcR X R c

/-- `1` when row `R` and column `c` carry the same label (the labels at their positions modulo 4352), else `0`. -/
def eqfR (R c : Fin 8704) : EReal :=
  if lab (ix1 (⟨R.val % 4352, Nat.mod_lt _ (by norm_num)⟩ : Fin 4352))
      = lab (ix1 (⟨c.val % 4352, Nat.mod_lt _ (by norm_num)⟩ : Fin 4352)) then 1 else 0

/-- `1` off the diagonal; on it, `1` exactly when the row's position modulo 4352 is below 3840. -/
def selfR (R c : Fin 8704) : EReal :=
  if R.val = c.val then (if R.val % 4352 < 3840 then 1 else 0) else 1

/-- The weight of column `c` in the sum of exponentials: `(e - 1)²`. -/
def lmR (R c : Fin 8704) : EReal := (eqfR lab R c - 1) * (eqfR lab R c - 1)

/-- The positive mask: `e · s`. -/
def maskR (R c : Fin 8704) : EReal := eqfR lab R c * selfR R c

/-- The masked sum of the log-probabilities clipped at zero from above. -/
def NUMR (R : Fin 8704) : EReal :=
  ∑ c : Fin 8704, maskR lab R c * min 0 ((adcR X R c - MxR X R)
    - Ideal.log (∑ c' : Fin 8704, Ideal.exp (adcR X R c' - MxR X R) * lmR lab R c'))

/-- The number of positives. -/
def MSR (R : Fin 8704) : EReal := ∑ c : Fin 8704, maskR lab R c

end Defs

section Join
variable (X : FVec Ideal S8704x128 .f32) (lab : IVec S4352 32)

/-- Dividing by the temperature is multiplying by its reciprocal. -/
theorem adcR_eq (R c : Fin 8704) : adcR X R c = adcK X R c := by
  unfold adcR adcK
  exact Cert.Consts.div_temp _

/-- Hence the row maxima agree. -/
theorem MxR_eq (R : Fin 8704) : MxR X R = MxK X R := by
  unfold MxR MxK
  exact Finset.sup_congr rfl fun c _ => adcR_eq X R c

/-- `(1 - 1)² = 0` and `(0 - 1)² = 1`. -/
theorem lmR_eq (R c : Fin 8704) : lmR lab R c = lmK lab R c := by
  unfold lmR eqfR lmK
  by_cases h : eqL lab R c
  · rw [if_pos h, if_pos h, ← EReal.coe_one, ← EReal.coe_sub, ← EReal.coe_mul]
    norm_num
  · rw [if_neg h, if_neg h, ← EReal.coe_one, ← EReal.coe_zero, ← EReal.coe_sub, ← EReal.coe_mul]
    norm_num

/-- On an anchor row the diagonal test `R mod 4352 < 3840` is `4352 ≤ R < 8192`. -/
theorem selfR_eq (R c : Fin 8704) (hR : 3841 ≤ R.val ∧ R.val < 8193) :
    selfR R c = if R.val = c.val then (if 4352 ≤ R.val ∧ R.val < 8192 then 1 else 0) else 1 := by
  have h : (R.val % 4352 < 3840) ↔ (4352 ≤ R.val ∧ R.val < 8192) := by omega
  unfold selfR
  simp only [h]

/-- The positive masks agree on an anchor row. -/
theorem maskR_eq (R c : Fin 8704) (hR : 3841 ≤ R.val ∧ R.val < 8193) : maskR lab R c = maskK lab R c := by
  unfold maskR maskK
  rw [selfR_eq R c hR]
  unfold eqfR
  by_cases h : eqL lab R c
  · rw [if_pos h, if_pos h, one_mul]
  · rw [if_neg h, if_neg h, zero_mul]

/-- The sums of exponentials over the columns of a different label agree. -/
theorem lsR_eq (R : Fin 8704) :
    (∑ c' : Fin 8704, Ideal.exp (adcR X R c' - MxR X R) * lmR lab R c') = lsK X lab R := by
  unfold lsK
  exact Finset.sum_congr rfl fun c' _ => by rw [adcR_eq, MxR_eq, lmR_eq]

/-- The masked clipped log-probability sums agree on an anchor row. -/
theorem NUMR_eq (R : Fin 8704) (hR : 3841 ≤ R.val ∧ R.val < 8193) : NUMR X lab R = numK X lab R := by
  unfold NUMR numK
  rw [lsR_eq]
  exact Finset.sum_congr rfl fun c _ => by rw [maskR_eq lab R c hR, adcR_eq, MxR_eq]

/-- The positive counts agree on an anchor row. -/
theorem MSR_eq (R : Fin 8704) (hR : 3841 ≤ R.val ∧ R.val < 8193) : MSR lab R = msK lab R := by
  unfold MSR msK
  exact Finset.sum_congr rfl fun c _ => maskR_eq lab R c hR

/-- The per-row quotients agree on an anchor row. -/
theorem quot_eq (R : Fin 8704) (hR : 3841 ≤ R.val ∧ R.val < 8193) :
    Ideal.div (NUMR X lab R) (MSR lab R) = Ideal.div (numK X lab R) (msK lab R) := by
  rw [NUMR_eq X lab R hR, MSR_eq lab R hR]

end Join

end Cert.Join

end
-- ==== Proof.Bridge.lean ====
/-
  The reference's per-row formulas, as read off its program, are the kernel's: the row maximum folded from −∞ is the supremum,
  the label comparison's bit read as a number is 1 or 0, and the scattered diagonal is the iota-built one on the anchor rows.
-/
import proofs.«108923_j8598524526701_2_alg».proof.Proof.RefG
import proofs.«108923_j8598524526701_2_alg».proof.Proof.Join

noncomputable section

namespace Cert.Bridge

open Idealize.ShloMosaic
open Idealize.ShloMosaic.ValueIdx (ix0 ix1 ix2)
open Cert.KernelIdeal.RowLong
open scoped BigOperators

variable (X : FVec Ideal Cert.KernelIdeal.S8704x128 .f32) (lab : IVec Cert.KernelIdeal.S4352 32)

theorem adc_eq (R c : Fin 8704) : Cert.ReferenceIdeal.RefG.adc X R c = Cert.Join.adcR X R c := rfl

theorem Mx_eq (R : Fin 8704) : Cert.ReferenceIdeal.RefG.Mx X R = Cert.Join.MxR X R := rfl

theorem uitofp_bit (b : BitVec 1) : FloatOps.uitofp (F := Ideal) .f32 b = if b = 1#1 then (1 : EReal) else 0 := by
  rcases BitVec.eq_zero_or_eq_one b with h | h <;> subst h <;> simp [FloatOps.uitofp]

theorem eqf_eq (R c : Fin 8704) : Cert.ReferenceIdeal.RefG.eqf lab R c = Cert.Join.eqfR lab R c := by
  unfold Cert.ReferenceIdeal.RefG.eqf Cert.Join.eqfR
  rw [uitofp_bit]
  by_cases h : lab (ix1 (⟨R.val % 4352, Nat.mod_lt _ (by decide)⟩ : Fin 4352)) = lab (ix1 (⟨c.val % 4352, Nat.mod_lt _ (by decide)⟩ : Fin 4352))
  · rw [if_pos h, if_pos]; simp [IntOp.cmpi, h]
  · rw [if_neg h, if_neg]
    have hb : (lab (ix1 (⟨R.val % 4352, Nat.mod_lt _ (by decide)⟩ : Fin 4352)) == lab (ix1 (⟨c.val % 4352, Nat.mod_lt _ (by decide)⟩ : Fin 4352))) = false :=
      beq_eq_false_iff_ne.mpr h
    simp [IntOp.cmpi, hb]

theorem self_eq (R c : Fin 8704) : Cert.ReferenceIdeal.RefG.self R c = Cert.Join.selfR R c := by
  unfold Cert.ReferenceIdeal.RefG.self Cert.Join.selfR Cert.ReferenceIdeal.RefG.diag
  by_cases h : R = c
  · rw [if_pos h, if_pos (congrArg Fin.val h)]
  · rw [if_neg h, if_neg (fun hv => h (Fin.ext hv))]

theorem lm_eq (R c : Fin 8704) : Cert.ReferenceIdeal.RefG.lm lab R c = Cert.Join.lmR lab R c := by
  unfold Cert.ReferenceIdeal.RefG.lm Cert.Join.lmR; rw [eqf_eq]

theorem mask_eq (R c : Fin 8704) : Cert.ReferenceIdeal.RefG.mask lab R c = Cert.Join.maskR lab R c := by
  unfold Cert.ReferenceIdeal.RefG.mask Cert.Join.maskR; rw [eqf_eq, self_eq]

theorem Z_eq (R : Fin 8704) :
    Cert.ReferenceIdeal.RefG.Z X lab R = ∑ c' : Fin 8704, Ideal.exp (Cert.Join.adcR X R c' - Cert.Join.MxR X R) * Cert.Join.lmR lab R c' := by
  unfold Cert.ReferenceIdeal.RefG.Z
  refine Finset.sum_congr rfl fun c' _ => ?_
  rw [lm_eq, adc_eq, Mx_eq]

theorem NUM_eq (r : Fin 4352) :
    Cert.ReferenceIdeal.RefG.NUM X lab r = Cert.Join.NUMR X lab (Cert.ReferenceIdeal.RefG.rowOf r) := by
  unfold Cert.ReferenceIdeal.RefG.NUM Cert.Join.NUMR
  refine Finset.sum_congr rfl fun c _ => ?_
  rw [mask_eq, adc_eq, Mx_eq, Z_eq]

theorem MS_eq (r : Fin 4352) :
    Cert.ReferenceIdeal.RefG.MS X lab r = Cert.Join.MSR lab (Cert.ReferenceIdeal.RefG.rowOf r) := by
  unfold Cert.ReferenceIdeal.RefG.MS Cert.Join.MSR
  refine Finset.sum_congr rfl fun c _ => ?_
  rw [mask_eq]

theorem rowOf_range (r : Fin 4352) :
    3841 ≤ (Cert.ReferenceIdeal.RefG.rowOf r).val ∧ (Cert.ReferenceIdeal.RefG.rowOf r).val < 8193 := by
  unfold Cert.ReferenceIdeal.RefG.rowOf; constructor <;> (simp only []; omega)

/-- The reference's per-row quotient is the kernel's. -/
theorem quot_eq (r : Fin 4352) :
    Ideal.div (Cert.ReferenceIdeal.RefG.NUM X lab r) (Cert.ReferenceIdeal.RefG.MS X lab r)
      = Ideal.div (numK X lab (Cert.ReferenceIdeal.RefG.rowOf r)) (msK lab (Cert.ReferenceIdeal.RefG.rowOf r)) := by
  rw [NUM_eq, MS_eq]
  exact Cert.Join.quot_eq X lab _ (rowOf_range r)

end Cert.Bridge

end
-- ==== Proof.BridgeArgs.lean ====
/-
  The two programs assemble the same features and the same labels from the same arguments, and close
  with the same function.

  Each program spells its own copies of the shapes, of the scatter records and of the side conditions;
  the copies have identical contents. Stage by stage the reference's terms are the kernel's: the batch
  reshaped, its two views, the zero start index, the three overwriting scatters, the concatenations. With
  arguments that agree, the reference's features and labels are therefore the kernel's, and the closing
  negated mean is one function.
-/
import proofs.«108923_j8598524526701_2_alg».proof.Proof.KI.HostPrep
import proofs.«108923_j8598524526701_2_alg».proof.Proof.KI.Final
import proofs.«108923_j8598524526701_2_alg».proof.Proof.RefG

noncomputable section

namespace Cert.BridgeArgs

open Idealize.ShloMosaic Idealize.ShloMosaic.TcCoe
open Cert.KernelIdeal.HostPrep (rowsOf viewA viewB zeroIdx XkOf XkPlainOf labOf Xk XkPlain labk Xk_eq_plain)
open Cert.ReferenceIdeal.RefRead (val_main_c val_main_c_0 val_main_c_1 val_main_v0 val_main_v1 val_main_v2 val_main_v3
  val_main_v4 val_main_v5 val_main_v6 val_main_v7 val_main_v8 val_main_v9 val_main_v16 val_main_v17 val_main_v18)

/-! ## The two programs' scatter records -/

/-- The row scatter's record is the same in both programs. -/
theorem scatterRows_eq :
    Cert.ReferenceIdeal.scatter_S4096x128_S1_S256x128_01_n_0_0 = Cert.KernelIdeal.scatter_S4096x128_S1_S256x128_01_n_0_0 := rfl

/-- The label scatter's record is the same in both programs. -/
theorem scatterLabels_eq :
    Cert.ReferenceIdeal.scatter_S4096_S1_S256_0_n_0_0 = Cert.KernelIdeal.scatter_S4096_S1_S256_0_n_0_0 := rfl

/-! ## Stage by stage -/

section Stages
variable (a0 : FVec Ideal Cert.KernelIdeal.S256x2x128 .f32) (a1 : IVec Cert.KernelIdeal.S256 32)
  (a2 a3 : FVec Ideal Cert.KernelIdeal.S4096x128 .f32) (a4 : IVec Cert.KernelIdeal.S4096 32)

/-- The batch as `[512, 128]` rows. -/
theorem v0_eq : val_main_v0 (F := Ideal) a0 = rowsOf a0 := rfl

/-- Its first view. -/
theorem v1_eq : val_main_v1 (F := Ideal) a0 = viewA a0 := rfl

/-- Its second view. -/
theorem v2_eq : val_main_v2 (F := Ideal) a0 = viewB a0 := rfl

/-- The three start indices are the one zero word. -/
theorem v3_eq : val_main_v3 (F := Ideal) = zeroIdx := rfl
theorem v5_eq : val_main_v5 (F := Ideal) = zeroIdx := rfl
theorem v7_eq : val_main_v7 (F := Ideal) = zeroIdx := rfl

/-- The second view written over the first queue. -/
theorem v4_eq : val_main_v4 (F := Ideal) a0 a2
    = Host.scatter Cert.KernelIdeal.scatter_S4096x128_S1_S256x128_01_n_0_0 (fun _ b => b) a2 zeroIdx (viewB a0) := by
  unfold val_main_v4
  rw [scatterRows_eq, v3_eq, v2_eq]

/-- The first view written over the second queue. -/
theorem v6_eq : val_main_v6 (F := Ideal) a0 a3
    = Host.scatter Cert.KernelIdeal.scatter_S4096x128_S1_S256x128_01_n_0_0 (fun _ b => b) a3 zeroIdx (viewA a0) := by
  unfold val_main_v6
  rw [scatterRows_eq, v5_eq, v1_eq]

/-- The batch's labels written over the queue's. -/
theorem v8_eq : val_main_v8 (F := Ideal) a1 a4
    = Host.scatter Cert.KernelIdeal.scatter_S4096_S1_S256_0_n_0_0 (fun _ b => b) a4 zeroIdx a1 := by
  unfold val_main_v8
  rw [scatterLabels_eq, v7_eq]

/-- The labels. -/
theorem v9_eq : val_main_v9 (F := Ideal) a1 a4 = labOf a1 a4 := by
  unfold val_main_v9 labOf
  rw [v8_eq]

/-- The features. -/
theorem v18_eq : val_main_v18 (F := Ideal) a0 a2 a3 = XkPlainOf a0 a2 a3 := by
  unfold val_main_v18 val_main_v16 val_main_v17 XkPlainOf
  rw [v4_eq, v6_eq, v1_eq, v2_eq]

end Stages

/-! ## At the launch -/

section Launch
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- With arguments that agree, the reference's features are the kernel's. -/
theorem Xof_eq
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.RefG.Xof m' c = Xk m c := by
  unfold Cert.ReferenceIdeal.RefG.Xof
  rw [(hagree c).1, (hagree c).2.2.1, (hagree c).2.2.2.1]
  exact (v18_eq _ _ _).trans (Xk_eq_plain m c).symm

/-- With arguments that agree, the reference's labels are the kernel's. -/
theorem labOf_eq
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.RefG.labOf m' c = labk m c := by
  unfold Cert.ReferenceIdeal.RefG.labOf
  rw [(hagree c).2.1, (hagree c).2.2.2.2]
  exact v9_eq _ _

end Launch

/-! ## The closing function -/

/-- The two programs close with the same function of the per-row quotient. -/
theorem tail_eq : Cert.ReferenceIdeal.RefG.tailF = Cert.KernelIdeal.Final.tailK := by
  funext q
  unfold Cert.ReferenceIdeal.RefG.tailF Cert.KernelIdeal.Final.tailK
  rfl

end Cert.BridgeArgs

end
-- ==== Proof.lean ====
/-
  The certificate of the supervised-contrastive loss with a feature queue: a Pallas kernel that sweeps the 8704 contrast
  columns twice per block of 256 anchor rows — a first sweep keeping the running row maximum and the rescaled running sum
  of the exponentials of the negatives (different label), a second sweep accumulating the positive-pair mask times the
  clamped log-probability, and the mask's row sums — against the reference that forms the whole 8704 × 8704 logit matrix.
  Both programs then divide the two row sums, negate and average. At the ideal instance the running maximum is the row
  maximum, the rescaled running sum is the sum against the final maximum (exp (a − b) · exp (b − c) = exp (a − c) on the
  reals, which is where the finiteness of the inputs is used), the kernel's scale 1/T is the reference's division by T once
  the kernel's literal is read as the exact reciprocal of the reference's literal, and the kernel's iota-built diagonal mask
  is the reference's scattered one on the anchor rows.
-/
import proofs.«108923_j8598524526701_2_alg».proof.Defs
import proofs.«108923_j8598524526701_2_alg».proof.Proof.Gen.Kernel
import proofs.«108923_j8598524526701_2_alg».proof.Proof.Gen.KernelIdeal
import proofs.«108923_j8598524526701_2_alg».proof.Proof.Gen.ReferenceIdeal
import proofs.«108923_j8598524526701_2_alg».proof.Proof.Gen.Pre_finite_inputs
import proofs.«108923_j8598524526701_2_alg».proof.Proof.K.Frame
import proofs.«108923_j8598524526701_2_alg».proof.Proof.KI.Frame
import proofs.«108923_j8598524526701_2_alg».proof.Proof.KI.Final
import proofs.«108923_j8598524526701_2_alg».proof.Proof.KI.Value
import proofs.«108923_j8598524526701_2_alg».proof.Proof.Bridge
import proofs.«108923_j8598524526701_2_alg».proof.Proof.BridgeArgs
import proofs.«108923_j8598524526701_2_alg».proof.Proof.RefG
import proofs.«108923_j8598524526701_2_alg».proof.Proof.RefRunThm
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Body.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The one rewrite of the idealization: the kernel's scale literal names the exact reciprocal of the reference's temperature literal. -/
theorem preserves : Cert.preserves_Kernel_KernelIdeal :=
  IdealRules.named_const.statement Cert.KernelIdeal.κ "inv_temp" .f32 0x41649249#32 ((134217728 / 9395241 : ℝ) : EReal) rfl

open Cert.KernelIdeal.RowLong Cert.KernelIdeal.HostPrep in
/-- Output row `rr`'s masked sum of clamped log-probabilities, and its count of positives, as functions of the contrast
    matrix and the labels the kernel program assembles. -/
def Nf (m : (ℓ : Loc Cert.KernelIdeal.nD Cert.KernelIdeal.τ Cert.KernelIdeal.sig) → Buf (Elt Ideal) ℓ) (c : Dev Cert.KernelIdeal.nD)
    (rr : Fin 4352) : EReal :=
  numK (Xk m c) (labk m c) (Cert.ReferenceIdeal.RefG.rowOf rr)
open Cert.KernelIdeal.RowLong Cert.KernelIdeal.HostPrep in
def Mf (m : (ℓ : Loc Cert.KernelIdeal.nD Cert.KernelIdeal.τ Cert.KernelIdeal.sig) → Buf (Elt Ideal) ℓ) (c : Dev Cert.KernelIdeal.nD)
    (rr : Fin 4352) : EReal :=
  msK (labk m c) (Cert.ReferenceIdeal.RefG.rowOf rr)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.RefValue.run (F := Ideal) m ρ)

open Cert.KernelIdeal.RowLong Cert.KernelIdeal.HostPrep in
/-- Both idealized programs end at the closing negated mean of the per-row quotients of the same two row functions of the
    contrast matrix and the labels: the kernel by the invariant of its two sweeps and the online-softmax identity (finite
    inputs), the reference by reading its program index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI : Cert.Pre_finite_inputs.Facts := Cert.Pre_finite_inputs.Gen.facts
  have hN : ∀ (c : Dev Cert.KernelIdeal.nD) (t : Fin Cert.KernelIdeal.cfg0.N), t.val % 8 = 7 → ∀ r : Fin 256,
      ((Cert.KernelIdeal.Body.dats m 0 c).after 4 t : Cert.KernelIdeal.S256x1.Idx → EReal) (ValueIdx.ix2 r (0 : Fin 1))
        = Nf m c ⟨t.val / 8 * 256 + r.val, Cert.KernelIdeal.Final.blk_lt t r⟩ := by
    intro c t h7 r
    rw [Cert.KernelIdeal.Body.after0_4, (Cert.KernelIdeal.ValueInv.out_long m c (hpre c) t h7 r).1]
    exact congrArg (numK (Xk m c) (labk m c)) (Fin.ext (by
      show r.val + 3841 + (t.val / 8) * 256 = t.val / 8 * 256 + r.val + 3841
      omega))
  have hM : ∀ (c : Dev Cert.KernelIdeal.nD) (t : Fin Cert.KernelIdeal.cfg0.N), t.val % 8 = 7 → ∀ r : Fin 256,
      ((Cert.KernelIdeal.Body.dats m 0 c).after 5 t : Cert.KernelIdeal.S256x1.Idx → EReal) (ValueIdx.ix2 r (0 : Fin 1))
        = Mf m c ⟨t.val / 8 * 256 + r.val, Cert.KernelIdeal.Final.blk_lt t r⟩ := by
    intro c t h7 r
    rw [Cert.KernelIdeal.Body.after0_5, (Cert.KernelIdeal.ValueInv.out_long m c (hpre c) t h7 r).2]
    exact congrArg (msK (labk m c)) (Fin.ext (by
      show r.val + 3841 + (t.val / 8) * 256 = t.val / 8 * 256 + r.val + 3841
      omega))
  refine ⟨_, _, _, Cert.KernelIdeal.Final.kernel_run m ρ (Nf m) (Mf m) hN hM, ?_⟩
  refine (θ_run Cert.ReferenceIdeal.defs _ _).mono (fun _ h c => ?_) (Cert.ReferenceIdeal.RefValue.run (F := Ideal) m' ρ')
  have e : Cert.ReferenceIdeal.RefValue.res_main_v84 (F := Ideal) m' c
      = Cert.KernelIdeal.Final.tailK (fun i : Cert.KernelIdeal.S4352.Idx => Ideal.div (Nf m c (i 0)) (Mf m c (i 0))) := by
    rw [Cert.ReferenceIdeal.RefG.result_eq, Cert.BridgeArgs.tail_eq, Cert.BridgeArgs.Xof_eq m m' hagree c,
      Cert.BridgeArgs.labOf_eq m m' hagree c]
    exact congrArg Cert.KernelIdeal.Final.tailK (funext fun i => Cert.Bridge.quot_eq (Xk m c) (labk m c) (i 0))
  exact ⟨(h c).1.trans e, (h c).2.1.trans e, (h c).2.2.1.trans e, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
